-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩
abbrev S1024x512 : Shape := ⟨2, ![1024, 512]⟩
abbrev S1024x1 : Shape := ⟨2, ![1024, 1]⟩
abbrev S1024 : Shape := ⟨1, ![1024]⟩
abbrev S8192x1 : Shape := ⟨2, ![8192, 1]⟩
abbrev S_ : Shape := ⟨0, ![]⟩

abbrev nBuf : Space → Nat
  | .hbm => 28
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S1024x512, .bf16⟩
  | .local _ .vmem, ⟨15, _⟩ => ⟨S1024x512, .bf16⟩
  | .local _ .vmem, ⟨16, _⟩ => ⟨S4096x512, .bf16⟩
  | .local _ .vmem, ⟨17, _⟩ => ⟨S4096x512, .bf16⟩
  | .local _ .vmem, ⟨18, _⟩ => ⟨S1024x1, .f32⟩
  | .local _ .vmem, ⟨19, _⟩ => ⟨S1024x1, .f32⟩
  | .local _ .vmem, ⟨20, _⟩ => ⟨S1024x512, .bf16⟩
  | .local _ .vmem, ⟨21, _⟩ => ⟨S1024x512, .bf16⟩
  | .local _ .vmem, ⟨22, _⟩ => ⟨S4096x512, .bf16⟩
  | .local _ .vmem, ⟨23, _⟩ => ⟨S4096x512, .bf16⟩
  | .local _ .vmem, ⟨24, _⟩ => ⟨S1024x1, .f32⟩
  | .local _ .vmem, ⟨25, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S4096x512_S512x512_0_0 : ∀ a, (![0, 0] : Fin 2 → Nat) a + S512x512.size a ≤ S4096x512.size a
  shapeCasts_S512x512_S512x512 : S512x512.ShapeCasts S512x512
  reduces_S1024x512_S1024 : S1024x512.Reduces [1] S1024
  shapeCasts_S1024_S1024x1 : S1024.ShapeCasts S1024x1
  inb_S4096x512_S512x512_512_0 : ∀ a, (![512, 0] : Fin 2 → Nat) a + S512x512.size a ≤ S4096x512.size a
  inb_S4096x512_S512x512_1024_0 : ∀ a, (![1024, 0] : Fin 2 → Nat) a + S512x512.size a ≤ S4096x512.size a
  inb_S4096x512_S512x512_1536_0 : ∀ a, (![1536, 0] : Fin 2 → Nat) a + S512x512.size a ≤ S4096x512.size a
  inb_S4096x512_S512x512_2048_0 : ∀ a, (![2048, 0] : Fin 2 → Nat) a + S512x512.size a ≤ S4096x512.size a
  inb_S4096x512_S512x512_2560_0 : ∀ a, (![2560, 0] : Fin 2 → Nat) a + S512x512.size a ≤ S4096x512.size a
  inb_S4096x512_S512x512_3072_0 : ∀ a, (![3072, 0] : Fin 2 → Nat) a + S512x512.size a ≤ S4096x512.size a
  inb_S4096x512_S512x512_3584_0 : ∀ a, (![3584, 0] : Fin 2 → Nat) a + S512x512.size a ≤ S4096x512.size a
  inb_S1024x1_S1024x1_0_0 : ∀ a, (![0, 0] : Fin 2 → Nat) a + S1024x1.size a ≤ S1024x1.size a
  h_S1024x1 : 0 < S1024x1.numel
  concatenates_S4096x1_S4096x1_S8192x1_d0 : Shape.Concatenates [S4096x1, S4096x1] S8192x1 0
  bcast_S_S8192x1 : S_.BroadcastsInDim S8192x1 (![] : Fin 0 → Fin S8192x1.rank)
  reducesTo_S4096x1_S_d0_1 : S4096x1.ReducesTo [0, 1] S_
  h_S_ : 0 < S_.numel
  reducesTo_S8192x1_S_d0_1 : S8192x1.ReducesTo [0, 1] S_
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .bf16 = 32 ∨ (Rect.block (s := S4096x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .bf16 = 32 ∨ (Rect.block (s := S4096x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x512.size a
  hwx2_1 : ∀ i : grid2.Coords, EltTy.bits .bf16 = 32 ∨ (Rect.block (s := S4096x512) S4096x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x512.size a ≤ S4096x512.size a
  hwx2_2 : ∀ i : grid2.Coords, EltTy.bits .bf16 = 32 ∨ (Rect.block (s := S4096x512) S4096x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S4096x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S4096x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8192, .i32⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_2 : Ref sig .tc := ⟨.hbm, 83, rfl⟩
abbrev main_v25 : Ref sig .tc := ⟨.hbm, 84, rfl⟩
abbrev main_v26 : Ref sig .tc := ⟨.hbm, 85, rfl⟩
abbrev main_cst_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_4 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_5 : Ref sig .tc := ⟨.hbm, 96, rfl⟩
abbrev main_v35 : Ref sig .tc := ⟨.hbm, 97, rfl⟩
abbrev main_cst_6 : Ref sig .tc := ⟨.hbm, 98, rfl⟩
abbrev main_v36 : Ref sig .tc := ⟨.hbm, 99, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Body0.lean ====
/-
  Region 0 (the row-normalizing kernel, grid of 8 points, blocks of 512 rows): what one call of the body leaves in
  each output block as a function of the two input blocks, the proof data of the pipeline at the contents the region
  is entered with, and the body's obligation at every grid point.
-/
import proofs.«173146_j89481348645584_2_alg».proof.Proof.Gen.Kernel.Launch
import proofs.«173146_j89481348645584_2_alg».proof.Proof.Gen.Kernel.Skeleton
import proofs.«173146_j89481348645584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for any proof data whose array is the
    entry contents and whose body leaves the block in place: an input window holds what a fetch at the point puts there
    whether or not the point fetches (unfetched, the block index has not moved), and the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_m : Rect S512x512 := Rect.unit (s := S512x512) ![0, 0] S512x512.size inb_S512x512_S512x512_0_0
abbrev r0_c : Rect S512x1 := Rect.unit (s := S512x1) ![0, 0] S512x1.size inb_S512x1_S512x1_0_0

/-- What the body leaves in each output block, from the two input blocks (x0: rows of the first argument, x1: of the second). -/
def out0_2 (x0 x1 : Vec F S512x512 .f32) : Vec F S512x512 .bf16 := View.canon [⟨r0_m, k0_pay4 (View.ld x0 r0_m)⟩]
def out0_3 (x0 x1 : Vec F S512x512 .f32) : Vec F S512x512 .bf16 := View.canon [⟨r0_m, k0_pay5 (View.ld x1 r0_m)⟩]
def out0_4 (x0 x1 : Vec F S512x512 .f32) : Vec F S512x1 .f32 := View.canon [⟨r0_c, k0_pay6 (View.ld x0 r0_m) (View.ld x1 r0_m)⟩]
def out0_5 (x0 x1 : Vec F S512x512 .f32) : Vec F S512x1 .f32 := View.canon [⟨r0_c, k0_pay7 (View.ld x0 r0_m)⟩]
def out0_6 (x0 x1 : Vec F S512x512 .f32) : Vec F S512x1 .f32 := View.canon [⟨r0_c, k0_pay1 (k0_pay8 (View.ld x1 r0_m))⟩]

/-- Each output's one store is of the whole block, so it covers it. -/
theorem cover0_m (p0 : Vec F S512x512 .bf16) (y : S512x512.Idx) :
    ∃ pc ∈ ([⟨r0_m, p0⟩] : List (View.Piece (Elt F) S512x512 .bf16)), y ∈ pc.1.set :=
  View.cover_of_tiled [⟨r0_m, p0⟩] S512x512.size (by rfl) y

theorem cover0_c (p0 : Vec F S512x1 .f32) (y : S512x1.Idx) :
    ∃ pc ∈ ([⟨r0_c, p0⟩] : List (View.Piece (Elt F) S512x1 .f32)), y ∈ pc.1.set :=
  View.cover_of_tiled [⟨r0_c, p0⟩] S512x1.size (by rfl) y

set_option maxHeartbeats 4000000 in
/-- The body on whole staging memrefs, the two inputs' at read contents x0, x1 and the five outputs' at anything, runs
    to the continuation holding the inputs' as they were and each output's at its function of the inputs'. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S512x1 .f32) (harg5 : arg5.IsWhole) (arg6 : Memref sig .tc .vmem S512x1 .f32) (harg6 : arg6.IsWhole)
    (arg7 : Memref sig .tc .vmem S512x1 .f32) (harg7 : arg7.IsWhole)
    (x0 x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)
            ∗ owns (c : Thread nD τ) arg7 fullShare (out0_6 x0 x1)) -∗ K ⟨⟩))
      ⊢ wp frame (wpE (defs₀ (F := F)) Variants.none c none) E
          (cc0__normalize_kernel i arg1 harg1 arg2 harg2 arg3 harg3 arg4 harg4 arg5 harg5 arg6 harg6 arg7 harg7) K := by
  simp only [cc0__normalize_kernel_eq_skeleton, k0_part1_eq_skeleton]; unfold cc0__normalize_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_m _)
  isplitl [H4]
  · iexists _; isplitr
    swap; · iexact H4
    ipureintro
    exact View.read_writes_eq_canon _ _ _ (cover0_m _)
  isplitl [H5]
  · iexists _; isplitr
    swap; · iexact H5
    ipureintro
    exact View.read_writes_eq_canon _ _ _ (cover0_c _)
  isplitl [H6]
  · iexists _; isplitr
    swap; · iexact H6
    ipureintro
    exact View.read_writes_eq_canon _ _ _ (cover0_c _)
  iexists _; isplitr
  swap; · iexact H7
  ipureintro
  exact View.read_writes_eq_canon _ _ _ (cover0_c _)

/-- The proof data of pipeline 0 on core c at the entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 (the row-sum kernel, grid of 4 points, query blocks of 1024 rows against both whole key arrays): what one
  call of the body leaves in the output block as a function of the three input blocks, the proof data of the pipeline
  at the contents the region is entered with — two of its input windows read one array, so each of the two holds half
  of that array's share —, and the body's obligation at every grid point.
-/
import proofs.«173146_j89481348645584_2_alg».proof.Proof.Gen.Kernel.Launch
import proofs.«173146_j89481348645584_2_alg».proof.Proof.Gen.Kernel.Skeleton
import proofs.«173146_j89481348645584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is the
    entry contents and whose body leaves the block in place: an input window holds what a fetch at the point puts there
    whether or not the point fetches — the two key windows are fetched at the first point only, and at the later points
    their block index has not moved, the index map being constant —, and the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: the whole query block, the eight 512-row chunks of a key array, the whole output block. -/
abbrev r1_q : Rect S1024x512 := Rect.unit (s := S1024x512) ![0, 0] S1024x512.size inb_S1024x512_S1024x512_0_0
abbrev r1_k0 : Rect S4096x512 := Rect.unit (s := S4096x512) ![0, 0] S512x512.size inb_S4096x512_S512x512_0_0
abbrev r1_k1 : Rect S4096x512 := Rect.unit (s := S4096x512) ![512, 0] S512x512.size inb_S4096x512_S512x512_512_0
abbrev r1_k2 : Rect S4096x512 := Rect.unit (s := S4096x512) ![1024, 0] S512x512.size inb_S4096x512_S512x512_1024_0
abbrev r1_k3 : Rect S4096x512 := Rect.unit (s := S4096x512) ![1536, 0] S512x512.size inb_S4096x512_S512x512_1536_0
abbrev r1_k4 : Rect S4096x512 := Rect.unit (s := S4096x512) ![2048, 0] S512x512.size inb_S4096x512_S512x512_2048_0
abbrev r1_k5 : Rect S4096x512 := Rect.unit (s := S4096x512) ![2560, 0] S512x512.size inb_S4096x512_S512x512_2560_0
abbrev r1_k6 : Rect S4096x512 := Rect.unit (s := S4096x512) ![3072, 0] S512x512.size inb_S4096x512_S512x512_3072_0
abbrev r1_k7 : Rect S4096x512 := Rect.unit (s := S4096x512) ![3584, 0] S512x512.size inb_S4096x512_S512x512_3584_0
abbrev r1_o : Rect S1024x1 := Rect.unit (s := S1024x1) ![0, 0] S1024x1.size inb_S1024x1_S1024x1_0_0

/-! What the body computes, stage by stage, over the query block x0 and the two key arrays x1, x2 (the payloads are the
    skeleton's; chunk j of a key array is its rows 512 j .. 512 j + 511). -/

/-- The query block as the matrix unit takes it. -/
def qv1 (x0 : Vec F S1024x512 .bf16) : FVec F S1024x512 .bf16 := k1_pay2 (View.ld x0 r1_q)

/-- The running row sums after chunk 0 of both arrays and chunk 1 of the first, -/
def acc1_a (x0 : Vec F S1024x512 .bf16) (x1 x2 : Vec F S4096x512 .bf16) : FVec F S1024x1 .f32 :=
  k1_pay3 (View.ld x0 r1_q) (View.ld x1 r1_k0) (View.ld x2 r1_k0) (View.ld x1 r1_k1)

/-- the exponentials against chunk 1 of the second, not yet summed, -/
def exp1_a (x0 : Vec F S1024x512 .bf16) (x2 : Vec F S4096x512 .bf16) : FVec F S1024x512 .f32 :=
  k1_pay4 (View.ld x0 r1_q) (View.ld x2 r1_k1)

/-- the running row sums after chunks 0..3 of both, -/
def acc1_b (x0 : Vec F S1024x512 .bf16) (x1 x2 : Vec F S4096x512 .bf16) : FVec F S1024x1 .f32 :=
  k1_pay5 (qv1 x0) (acc1_a x0 x1 x2) (exp1_a x0 x2) (View.ld x1 r1_k2) (View.ld x2 r1_k2) (View.ld x1 r1_k3) (View.ld x2 r1_k3)

/-- and after chunks 0..5 of both. -/
def acc1_c (x0 : Vec F S1024x512 .bf16) (x1 x2 : Vec F S4096x512 .bf16) : FVec F S1024x1 .f32 :=
  k1_pay6 (qv1 x0) (acc1_b x0 x1 x2) (View.ld x1 r1_k4) (View.ld x2 r1_k4) (View.ld x1 r1_k5) (View.ld x2 r1_k5)

/-- What the body leaves in the output block, from the query block x0 and the two key arrays x1, x2: its one store,
    of the row sums after all eight chunks of both. -/
def out1_3 (x0 : Vec F S1024x512 .bf16) (x1 x2 : Vec F S4096x512 .bf16) : Vec F S1024x1 .f32 :=
  View.canon [⟨r1_o, k1_pay1 (qv1 x0) (acc1_c x0 x1 x2) (k1_pay7 (View.ld x1 r1_k6)) (View.ld x2 r1_k6) (View.ld x1 r1_k7) (View.ld x2 r1_k7)⟩]

/-- The store is of the whole block, so it covers it. -/
theorem cover1_3 (p0 : Vec F S1024x1 .f32) (y : S1024x1.Idx) :
    ∃ pc ∈ ([⟨r1_o, p0⟩] : List (View.Piece (Elt F) S1024x1 .f32)), y ∈ pc.1.set :=
  View.cover_of_tiled [⟨r1_o, p0⟩] S1024x1.size (by rfl) y

set_option maxHeartbeats 4000000 in
/-- The body on whole staging memrefs, the three inputs' at read contents x0, x1, x2 and the output's at anything, runs
    to the continuation holding the inputs' as they were and the output's at its function of the inputs'. -/
theorem sound_kernel1 (c : Dev nD) (E : Set ℕ) (i : grid1.Coords)
    (arg1 : Memref sig .tc .vmem S1024x512 .bf16) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S1024x1 .f32) (harg4 : arg4.IsWhole)
    (x0 : Vec F S1024x512 .bf16) (x1 x2 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__rowsum_kernel i arg1 harg1 arg2 harg2 arg3 harg3 arg4 harg4) K := by
  simp only [cc1__rowsum_kernel_eq_skeleton, k1_part1_eq_skeleton, k1_part2_eq_skeleton, k1_part3_eq_skeleton]; unfold cc1__rowsum_kernel_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-- The share of its array each input window holds: the two windows on one array hold its two halves. -/
def q1 : Fin cfg1.W → PosShare TreeShare := fun w => match w with
  | ⟨0, _⟩ => fullShare.left
  | ⟨1, _⟩ => fullShare.right
  | ⟨2, _⟩ => fullShare
  | ⟨3, _⟩ => fullShare

/-- The proof data of pipeline 1 on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 (the row-sum kernel, grid of 4 points, query blocks of 1024 rows against both whole key arrays): what one
  call of the body leaves in the output block as a function of the three input blocks, the proof data of the pipeline
  at the contents the region is entered with — two of its input windows read one array, so each of the two holds half
  of that array's share —, and the body's obligation at every grid point.
-/
import proofs.«173146_j89481348645584_2_alg».proof.Proof.Gen.Kernel.Launch
import proofs.«173146_j89481348645584_2_alg».proof.Proof.Gen.Kernel.Skeleton
import proofs.«173146_j89481348645584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, for any proof data whose array is the
    entry contents and whose body leaves the block in place: an input window holds what a fetch at the point puts there
    whether or not the point fetches — the two key windows are fetched at the first point only, and at the later points
    their block index has not moved, the index map being constant —, and the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: the whole query block, the eight 512-row chunks of a key array, the whole output block. -/
abbrev r2_q : Rect S1024x512 := Rect.unit (s := S1024x512) ![0, 0] S1024x512.size inb_S1024x512_S1024x512_0_0
abbrev r2_k0 : Rect S4096x512 := Rect.unit (s := S4096x512) ![0, 0] S512x512.size inb_S4096x512_S512x512_0_0
abbrev r2_k1 : Rect S4096x512 := Rect.unit (s := S4096x512) ![512, 0] S512x512.size inb_S4096x512_S512x512_512_0
abbrev r2_k2 : Rect S4096x512 := Rect.unit (s := S4096x512) ![1024, 0] S512x512.size inb_S4096x512_S512x512_1024_0
abbrev r2_k3 : Rect S4096x512 := Rect.unit (s := S4096x512) ![1536, 0] S512x512.size inb_S4096x512_S512x512_1536_0
abbrev r2_k4 : Rect S4096x512 := Rect.unit (s := S4096x512) ![2048, 0] S512x512.size inb_S4096x512_S512x512_2048_0
abbrev r2_k5 : Rect S4096x512 := Rect.unit (s := S4096x512) ![2560, 0] S512x512.size inb_S4096x512_S512x512_2560_0
abbrev r2_k6 : Rect S4096x512 := Rect.unit (s := S4096x512) ![3072, 0] S512x512.size inb_S4096x512_S512x512_3072_0
abbrev r2_k7 : Rect S4096x512 := Rect.unit (s := S4096x512) ![3584, 0] S512x512.size inb_S4096x512_S512x512_3584_0
abbrev r2_o : Rect S1024x1 := Rect.unit (s := S1024x1) ![0, 0] S1024x1.size inb_S1024x1_S1024x1_0_0

/-! What the body computes, stage by stage, over the query block x0 and the two key arrays x1, x2 (the payloads are the
    skeleton's; chunk j of a key array is its rows 512 j .. 512 j + 511). -/

/-- The query block as the matrix unit takes it. -/
def qv2 (x0 : Vec F S1024x512 .bf16) : FVec F S1024x512 .bf16 := k2_pay2 (View.ld x0 r2_q)

/-- The running row sums after chunk 0 of both arrays and chunk 1 of the first, -/
def acc2_a (x0 : Vec F S1024x512 .bf16) (x1 x2 : Vec F S4096x512 .bf16) : FVec F S1024x1 .f32 :=
  k2_pay3 (View.ld x0 r2_q) (View.ld x1 r2_k0) (View.ld x2 r2_k0) (View.ld x1 r2_k1)

/-- the exponentials against chunk 1 of the second, not yet summed, -/
def exp2_a (x0 : Vec F S1024x512 .bf16) (x2 : Vec F S4096x512 .bf16) : FVec F S1024x512 .f32 :=
  k2_pay4 (View.ld x0 r2_q) (View.ld x2 r2_k1)

/-- the running row sums after chunks 0..3 of both, -/
def acc2_b (x0 : Vec F S1024x512 .bf16) (x1 x2 : Vec F S4096x512 .bf16) : FVec F S1024x1 .f32 :=
  k2_pay5 (qv2 x0) (acc2_a x0 x1 x2) (exp2_a x0 x2) (View.ld x1 r2_k2) (View.ld x2 r2_k2) (View.ld x1 r2_k3) (View.ld x2 r2_k3)

/-- and after chunks 0..5 of both. -/
def acc2_c (x0 : Vec F S1024x512 .bf16) (x1 x2 : Vec F S4096x512 .bf16) : FVec F S1024x1 .f32 :=
  k2_pay6 (qv2 x0) (acc2_b x0 x1 x2) (View.ld x1 r2_k4) (View.ld x2 r2_k4) (View.ld x1 r2_k5) (View.ld x2 r2_k5)

/-- What the body leaves in the output block, from the query block x0 and the two key arrays x1, x2: its one store,
    of the row sums after all eight chunks of both. -/
def out2_3 (x0 : Vec F S1024x512 .bf16) (x1 x2 : Vec F S4096x512 .bf16) : Vec F S1024x1 .f32 :=
  View.canon [⟨r2_o, k2_pay1 (qv2 x0) (acc2_c x0 x1 x2) (k2_pay7 (View.ld x1 r2_k6)) (View.ld x2 r2_k6) (View.ld x1 r2_k7) (View.ld x2 r2_k7)⟩]

/-- The store is of the whole block, so it covers it. -/
theorem cover2_3 (p0 : Vec F S1024x1 .f32) (y : S1024x1.Idx) :
    ∃ pc ∈ ([⟨r2_o, p0⟩] : List (View.Piece (Elt F) S1024x1 .f32)), y ∈ pc.1.set :=
  View.cover_of_tiled [⟨r2_o, p0⟩] S1024x1.size (by rfl) y

set_option maxHeartbeats 4000000 in
/-- The body on whole staging memrefs, the three inputs' at read contents x0, x1, x2 and the output's at anything, runs
    to the continuation holding the inputs' as they were and the output's at its function of the inputs'. -/
theorem sound_kernel2 (c : Dev nD) (E : Set ℕ) (i : grid2.Coords)
    (arg1 : Memref sig .tc .vmem S1024x512 .bf16) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S1024x1 .f32) (harg4 : arg4.IsWhole)
    (x0 : Vec F S1024x512 .bf16) (x1 x2 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__rowsum_kernel i arg1 harg1 arg2 harg2 arg3 harg3 arg4 harg4) K := by
  simp only [cc2__rowsum_kernel_eq_skeleton, k2_part1_eq_skeleton, k2_part2_eq_skeleton, k2_part3_eq_skeleton]; unfold cc2__rowsum_kernel_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

/-- The share of its array each input window holds: the two windows on one array hold its two halves. -/
def q2 : Fin cfg2.W → PosShare TreeShare := fun w => match w with
  | ⟨0, _⟩ => fullShare.left
  | ⟨1, _⟩ => fullShare
  | ⟨2, _⟩ => fullShare.right
  | ⟨3, _⟩ => fullShare

/-- The proof data of pipeline 2 on core c at the entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q2
  owed _ := 0

theorem A_eq2 (c : Dev nD) (w : Fin cfg2.W) : (dat2 V c).A w = V c (Pipeline.arrRef spec2 w) := by
  dsimp only [dat2]
theorem q_eq2 (c : Dev nD) : (dat2 V c).q = q2 := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.Fold.lean ====
/-
  The buffer contents of a core at each boundary of the run: the launch memory, then what each of the three kernel
  regions leaves (region 0 writes its five output arrays; regions 1 and 2 write one output array each and read their
  inputs, one of which two of their windows share), then the nineteen host operations. Each boundary's contents is
  read back at an array and off the arrays, and the two argument arrays are walked back to the launch memory.
-/
import proofs.«173146_j89481348645584_2_alg».proof.Proof.K.Body0
import proofs.«173146_j89481348645584_2_alg».proof.Proof.K.Body1
import proofs.«173146_j89481348645584_2_alg».proof.Proof.K.Body2
import proofs.«173146_j89481348645584_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents, region 1's entry contents). -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its output array (window 3) at what the write-backs leave, every other buffer as entered
    (the three input windows' arrays are never written). -/
def W2 (c : Dev nD) : Valuation τ sig (Elt F) :=
  Function.update (W1 m ρ c) (Proc.devRef .tc main_v1) ((dat1 (V1 m ρ) c).arrAt 3 cfg1.N)
theorem W2_out (c : Dev nD) : W2 m ρ c (Proc.devRef .tc main_v1) = (dat1 (V1 m ρ) c).arrAt 3 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
/-- The same read at the TensorCore's references (region 1's exit contents, region 2's entry contents). -/
abbrev V2 : (c : Dev nD) → (b : Ref sig .tc) → Buf (Elt F) ((c : Thread nD τ).loc b) := fun c b => W2 m ρ c b

/-- At region 2's exit: its output array (window 3) at what the write-backs leave, every other buffer as entered. -/
def W3 (c : Dev nD) : Valuation τ sig (Elt F) :=
  Function.update (W2 m ρ c) (Proc.devRef .tc main_v2) ((dat2 (V2 m ρ) c).arrAt 3 cfg2.N)
theorem W3_out (c : Dev nD) : W3 m ρ c (Proc.devRef .tc main_v2) = (dat2 (V2 m ρ) c).arrAt 3 cfg2.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
/-- The same read at the TensorCore's references (region 2's exit contents). -/
abbrev V3 : (c : Dev nD) → (b : Ref sig .tc) → Buf (Elt F) ((c : Thread nD τ).loc b) := fun c b => W3 m ρ c b

/-- After the host operations: the contents at the return. -/
abbrev W4 : Dev nD → Valuation τ sig (Elt F) := fun c => StableHlo.after hostOps3 (W3 m ρ c)

/-- Off the references the host operations write, the contents at the return are region 2's exit contents. -/
theorem W4_of (c : Dev nD) (r : Ref sig .tc) (h : r ∉ hostOps3_W) :
    W4 m ρ c (Proc.devRef .tc r) = W3 m ρ c (Proc.devRef .tc r) :=
  StableHlo.after_of_writes_sub hostOps3 _ hostOps3_writes h

/-! ## The arguments end as launched

No host operation writes an argument, regions 1 and 2 write only their own output arrays, and region 0 reads each
argument through an input window, whose array the pipeline never writes: the fold at an argument's buffer walks back
to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## What regions 1 and 2 need of their boundary contents

At a region's exit each of its arrays holds what the pipeline leaves there — an input what it held at entry, the
output its folded write-backs — and every buffer that is no array of the region what it held at entry. -/

theorem hF1 (c : Dev nD) (w : Fin cfg1.W) : (dat1 (V1 m ρ) c).arrAt w cfg1.N = V2 m ρ c (Pipeline.arrRef spec1 w) :=
  match w with
  | ⟨0, _⟩ => (((dat1 (V1 m ρ) c).arrAt_in 0 rfl _).trans (A_eq1 (V1 m ρ) c 0)).trans (W2_of_ne m ρ c main_v0_0 (by decide)).symm
  | ⟨1, _⟩ => (((dat1 (V1 m ρ) c).arrAt_in 1 rfl _).trans (A_eq1 (V1 m ρ) c 1)).trans (W2_of_ne m ρ c main_v0_0 (by decide)).symm
  | ⟨2, _⟩ => (((dat1 (V1 m ρ) c).arrAt_in 2 rfl _).trans (A_eq1 (V1 m ρ) c 2)).trans (W2_of_ne m ρ c main_v0_1 (by decide)).symm
  | ⟨3, _⟩ => (W2_out m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨3, Finset.mem_univ _, e.symm⟩)

theorem hF2 (c : Dev nD) (w : Fin cfg2.W) : (dat2 (V2 m ρ) c).arrAt w cfg2.N = V3 m ρ c (Pipeline.arrRef spec2 w) :=
  match w with
  | ⟨0, _⟩ => (((dat2 (V2 m ρ) c).arrAt_in 0 rfl _).trans (A_eq2 (V2 m ρ) c 0)).trans (W3_of_ne m ρ c main_v0_1 (by decide)).symm
  | ⟨1, _⟩ => (((dat2 (V2 m ρ) c).arrAt_in 1 rfl _).trans (A_eq2 (V2 m ρ) c 1)).trans (W3_of_ne m ρ c main_v0_0 (by decide)).symm
  | ⟨2, _⟩ => (((dat2 (V2 m ρ) c).arrAt_in 2 rfl _).trans (A_eq2 (V2 m ρ) c 2)).trans (W3_of_ne m ρ c main_v0_1 (by decide)).symm
  | ⟨3, _⟩ => (W3_out m ρ c).symm
theorem hrest2 (c : Dev nD) : ∀ b, b ∉ Finset.univ.image (Pipeline.arrRef spec2) → V3 m ρ c b = V2 m ρ c b :=
  fun b hb => W3_of_ne m ρ c b fun e => hb (Finset.mem_image.mpr ⟨3, Finset.mem_univ _, e.symm⟩)

end Cert.Kernel.Hand

end
-- ==== Proof.K.Run.Shared.lean ====
/-
  Regions 1 and 2 each hand ONE array to TWO of their input windows. The launch's account of a core's unscoped
  buffers holds every buffer once, whole, at the full share; the pipeline's account of its arrays holds one points-to
  per WINDOW. The two accounts are related here in both directions: the shared buffer's full share splits into its two
  halves (one per window on it, at the same contents) on the way in, and the two halves join on the way out.
-/
import proofs.«173146_j89481348645584_2_alg».proof.Proof.K.Body1
import proofs.«173146_j89481348645584_2_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: windows 0 and 1 read one array -/

/-- The distinct buffers behind region 1's four windows are three: the array two windows share, the third input's,
    the output's. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1) ∗ (((c : Thread nD τ).loc main_v1) ↦{fullShare} V main_v1)) := by
  unfold Pipeline.arrBufs
  exact bigSep_eq_bigSepL_of_eq [main_v0_0, main_v0_1, main_v1] (by decide) (by decide) _

/-- Region 1's arrays window by window, for proof data that deal the shared array's share in halves to windows
    0 and 1: each window's array is a whole buffer, held at the window's share. -/
theorem arrays1_eq (c : Dev nD) (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄) = iprop((((c : Thread nD τ).loc main_v0_0) ↦{fullShare.left} G 0) ∗ (((c : Thread nD τ).loc main_v0_0) ↦{fullShare.right} G 1) ∗ (((c : Thread nD τ).loc main_v0_1) ↦{fullShare} G 2) ∗ (((c : Thread nD τ).loc main_v1) ↦{fullShare} G 3)) := by
  have h0 : dat.share 0 = fullShare.left := by unfold Dat.share; rw [hq]; rfl
  have h1 : dat.share 1 = fullShare.right := by unfold Dat.share; rw [hq]; rfl
  have h2 : dat.share 2 = fullShare := by unfold Dat.share; rw [hq]; rfl
  have h3 : dat.share 3 = fullShare := by unfold Dat.share; rw [hq]; rfl
  unfold Dat.arrays
  rw [bigSep_W1, h0, h1, h2, h3]
  exact congrArg₂ BI.sep (congrArg (fun S => (((cfg1.win 0).arr.view.loc (c : Thread nD τ)) ↦[S]{fullShare.left} G 0 : sProp 𝕄)) (arr_whole1 0).set_eq_univ)
    (congrArg₂ BI.sep (congrArg (fun S => (((cfg1.win 1).arr.view.loc (c : Thread nD τ)) ↦[S]{fullShare.right} G 1 : sProp 𝕄)) (arr_whole1 1).set_eq_univ)
      (congrArg₂ BI.sep (congrArg (fun S => (((cfg1.win 2).arr.view.loc (c : Thread nD τ)) ↦[S]{fullShare} G 2 : sProp 𝕄)) (arr_whole1 2).set_eq_univ)
        (congrArg (fun S => (((cfg1.win 3).arr.view.loc (c : Thread nD τ)) ↦[S]{fullShare} G 3 : sProp 𝕄)) (arr_whole1 3).set_eq_univ)))

/-- ENTRY, the arrays' part: a core's unscoped buffers at contents V are region 1's arrays at the proof data's
    entry contents (read off V) and the unscoped rest. The buffer two windows share is split along its share: each
    of the two windows takes one half, at the same contents. -/
theorem arrays_of_unscopedBufs1 (c : Dev nD) (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [show (unscopedBufs c V : sProp 𝕄) = iprop(Pipeline.arrBufs spec1 c V ∗ Pipeline.unscopedRest spec1 c V)
      from Pipeline.unscopedBufs_split₀ cfgs 1 winFacts₀1.arr_unscoped c V,
    arrBufs1_eq, arrays1_eq c dat hq,
    show dat.arrAt 0 0 = V main_v0_0 from hA 0, show dat.arrAt 1 0 = V main_v0_0 from hA 1,
    show dat.arrAt 2 0 = V main_v0_1 from hA 2, show dat.arrAt 3 0 = V main_v1 from hA 3]
  iintro ⟨⟨Ha, Hb, Ho⟩, Hrest⟩
  ihave Ha' := (pointsTo_share (PosShare.mem_left_op_right fullShare)).1 $$ Ha
  icases Ha' with ⟨Hal, Har⟩
  isplitr [Hrest]
  · isplitl [Hal]; · iexact Hal
    isplitl [Har]; · iexact Har
    isplitl [Hb]; · iexact Hb
    iexact Ho
  · iexact Hrest

/-- EXIT, the arrays' part: region 1's arrays at contents G and the unscoped rest at V are the core's unscoped
    buffers at any contents V' that has the arrays at G and agrees with V off them. The two halves of the shared
    buffer, at the same contents, join to the whole. -/
theorem unscopedBufs_of_arrays1 (c : Dev nD) (dat : Dat τ (Elt F) Unit ℕ (UR sig nD τ) ℕ cfg1 c) (hq : dat.q = q1)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hR : (Pipeline.unscopedRest spec1 c V : sProp 𝕄) = Pipeline.unscopedRest spec1 c V' := by
    unfold Pipeline.unscopedRest
    exact bigSep_congr fun b hb => by rw [hrest b (Finset.mem_sdiff.mp hb).2]
  rw [show (unscopedBufs c V' : sProp 𝕄) = iprop(Pipeline.arrBufs spec1 c V' ∗ Pipeline.unscopedRest spec1 c V')
      from Pipeline.unscopedBufs_split₀ cfgs 1 winFacts₀1.arr_unscoped c V',
    arrBufs1_eq, arrays1_eq c dat hq, hR,
    show G 0 = V' main_v0_0 from hG 0, show G 1 = V' main_v0_0 from hG 1,
    show G 2 = V' main_v0_1 from hG 2, show G 3 = V' main_v1 from hG 3]
  iintro ⟨⟨Hal, Har, Hb, Ho⟩, Hrest⟩
  isplitr [Hrest]
  · isplitl [Hal Har]
    · iapply (pointsTo_share (PosShare.mem_left_op_right fullShare)).2
      isplitl [Hal]; · iexact Hal
      iexact Har
    isplitl [Hb]; · iexact Hb
    iexact Ho
  · iexact Hrest

/-! ## Region 2: windows 0 and 2 read one array -/

/-- The distinct buffers behind region 2's four windows are three: the array two windows share, the third input's,
    the output's. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v0_1) ↦{fullShare} V main_v0_1) ∗ (((c : Thread nD τ).loc main_v0_0) ↦{fullShare} V main_v0_0) ∗ (((c : Thread nD τ).loc main_v2) ↦{fullShare} V main_v2)) := by
  unfold Pipeline.arrBufs
  exact bigSep_eq_bigSepL_of_eq [main_v0_1, main_v0_0, main_v2] (by decide) (by decide) _

/-- Region 2's arrays window by window, for proof data that deal the shared array's share in halves to windows
    0 and 2: each window's array is a whole buffer, held at the window's share. -/
theorem arrays2_eq (c : Dev nD) (dat : Dat τ (Elt F) Unit ℕ (UR sig nD τ) ℕ cfg2 c) (hq : dat.q = q2)
    (G : (w : Fin cfg2.W) → Buf (Elt F) ((cfg2.win w).arr.view.loc (c : Thread nD τ))) :
    (dat.arrays G : sProp 𝕄) = iprop((((c : Thread nD τ).loc main_v0_1) ↦{fullShare.left} G 0) ∗ (((c : Thread nD τ).loc main_v0_0) ↦{fullShare} G 1) ∗ (((c : Thread nD τ).loc main_v0_1) ↦{fullShare.right} G 2) ∗ (((c : Thread nD τ).loc main_v2) ↦{fullShare} G 3)) := by
  have h0 : dat.share 0 = fullShare.left := by unfold Dat.share; rw [hq]; rfl
  have h1 : dat.share 1 = fullShare := by unfold Dat.share; rw [hq]; rfl
  have h2 : dat.share 2 = fullShare.right := by unfold Dat.share; rw [hq]; rfl
  have h3 : dat.share 3 = fullShare := by unfold Dat.share; rw [hq]; rfl
  unfold Dat.arrays
  rw [bigSep_W2, h0, h1, h2, h3]
  exact congrArg₂ BI.sep (congrArg (fun S => (((cfg2.win 0).arr.view.loc (c : Thread nD τ)) ↦[S]{fullShare.left} G 0 : sProp 𝕄)) (arr_whole2 0).set_eq_univ)
    (congrArg₂ BI.sep (congrArg (fun S => (((cfg2.win 1).arr.view.loc (c : Thread nD τ)) ↦[S]{fullShare} G 1 : sProp 𝕄)) (arr_whole2 1).set_eq_univ)
      (congrArg₂ BI.sep (congrArg (fun S => (((cfg2.win 2).arr.view.loc (c : Thread nD τ)) ↦[S]{fullShare.right} G 2 : sProp 𝕄)) (arr_whole2 2).set_eq_univ)
        (congrArg (fun S => (((cfg2.win 3).arr.view.loc (c : Thread nD τ)) ↦[S]{fullShare} G 3 : sProp 𝕄)) (arr_whole2 3).set_eq_univ)))

/-- ENTRY, the arrays' part: a core's unscoped buffers at contents V are region 2's arrays at the proof data's
    entry contents (read off V) and the unscoped rest. The buffer two windows share is split along its share: each
    of the two windows takes one half, at the same contents. -/
theorem arrays_of_unscopedBufs2 (c : Dev nD) (dat : Dat τ (Elt F) Unit ℕ (UR sig nD τ) ℕ cfg2 c) (hq : dat.q = q2)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [show (unscopedBufs c V : sProp 𝕄) = iprop(Pipeline.arrBufs spec2 c V ∗ Pipeline.unscopedRest spec2 c V)
      from Pipeline.unscopedBufs_split₀ cfgs 2 winFacts₀2.arr_unscoped c V,
    arrBufs2_eq, arrays2_eq c dat hq,
    show dat.arrAt 0 0 = V main_v0_1 from hA 0, show dat.arrAt 1 0 = V main_v0_0 from hA 1,
    show dat.arrAt 2 0 = V main_v0_1 from hA 2, show dat.arrAt 3 0 = V main_v2 from hA 3]
  iintro ⟨⟨Ha, Hb, Ho⟩, Hrest⟩
  ihave Ha' := (pointsTo_share (PosShare.mem_left_op_right fullShare)).1 $$ Ha
  icases Ha' with ⟨Hal, Har⟩
  isplitr [Hrest]
  · isplitl [Hal]; · iexact Hal
    isplitl [Hb]; · iexact Hb
    isplitl [Har]; · iexact Har
    iexact Ho
  · iexact Hrest

/-- EXIT, the arrays' part: region 2's arrays at contents G and the unscoped rest at V are the core's unscoped
    buffers at any contents V' that has the arrays at G and agrees with V off them. The two halves of the shared
    buffer, at the same contents, join to the whole. -/
theorem unscopedBufs_of_arrays2 (c : Dev nD) (dat : Dat τ (Elt F) Unit ℕ (UR sig nD τ) ℕ cfg2 c) (hq : dat.q = q2)
    (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) := by
  have hR : (Pipeline.unscopedRest spec2 c V : sProp 𝕄) = Pipeline.unscopedRest spec2 c V' := by
    unfold Pipeline.unscopedRest
    exact bigSep_congr fun b hb => by rw [hrest b (Finset.mem_sdiff.mp hb).2]
  rw [show (unscopedBufs c V' : sProp 𝕄) = iprop(Pipeline.arrBufs spec2 c V' ∗ Pipeline.unscopedRest spec2 c V')
      from Pipeline.unscopedBufs_split₀ cfgs 2 winFacts₀2.arr_unscoped c V',
    arrBufs2_eq, arrays2_eq c dat hq, hR,
    show G 0 = V' main_v0_1 from hG 0, show G 1 = V' main_v0_0 from hG 1,
    show G 2 = V' main_v0_1 from hG 2, show G 3 = V' main_v2 from hG 3]
  iintro ⟨⟨Hal, Hb, Har, Ho⟩, Hrest⟩
  isplitr [Hrest]
  · isplitl [Hal Har]
    · iapply (pointsTo_share (PosShare.mem_left_op_right fullShare)).2
      isplitl [Hal]; · iexact Hal
      iexact Har
    isplitl [Hb]; · iexact Hb
    iexact Ho
  · iexact Hrest

end Cert.Kernel.Hand

end
-- ==== Proof.K.Run.lean ====
/-
  The run of the program from the launch to the return: three kernel regions, then a stretch of nineteen host
  operations. Each region is a segment over the thread state "every unscoped buffer whole at the boundary's contents,
  the generator register at some state, nothing owed"; the host stretch runs over the same state. The launch over
  the four segments gives: every weakly fair execution terminates, nothing faulting, and at the end every unscoped
  buffer holds the last boundary's contents — in particular each argument array what it was launched with.
-/
import proofs.«173146_j89481348645584_2_alg».proof.Proof.K.Run.Fold
import proofs.«173146_j89481348645584_2_alg».proof.Proof.K.Run.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the contents at the return, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at W0, left at W1. Its arrays (distinct
    buffers) are split out of the unscoped buffers at entry and put back at the exit contents; the generator register
    goes into the class invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W1, left at W2. Two of its input
    windows read one array: at entry that buffer's full share is split in two halves, one per window
    (arrays_of_unscopedBufs1), and at exit the halves are joined (unscopedBufs_of_arrays1); the output array comes
    back at its folded write-backs, every other buffer as entered. The generator register goes into the class
    invariant and out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := arrays_of_unscopedBufs1 c (pdats m ρ 1 c) (q_eq1 (V1 m ρ) c) (V1 m ρ c) (fun w => A_eq1 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m ρ 1 c) (q_eq1 (V1 m ρ) c) (V1 m ρ c) (V2 m ρ c)
      ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W2, left at W3. Two of its input
    windows read one array: at entry that buffer's full share is split in two halves, one per window
    (arrays_of_unscopedBufs2), and at exit the halves are joined (unscopedBufs_of_arrays2); the output array comes
    back at its folded write-backs, every other buffer as entered. The generator register goes into the class
    invariant and out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := arrays_of_unscopedBufs2 c (pdats m ρ 2 c) (q_eq2 (V2 m ρ) c) (V2 m ρ c) (fun w => A_eq2 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 c (pdats m ρ 2 c) (q_eq2 (V2 m ρ) c) (V2 m ρ c) (V3 m ρ c)
      ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order: a region per kernel call, then the host stretch from region 2's exit contents. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and in every final state each core's unscoped buffers hold the contents of the last
    boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hr, HO⟩
      isplitr [HO]
      · isplitl [Hh]; · iexact Hh
        iexact Hr
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, and every final state has the two argument
    arrays as launched — the run, read at the arguments' buffers, which nothing on the way writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono
    (fun r h c =>
      ⟨(h c _ (mem_uc main_arg0 (by decide))).trans (W4_main_arg0 m ρ c),
       (h c _ (mem_uc main_arg1 (by decide))).trans (W4_main_arg1 m ρ c)⟩)
    (run_all m ρ)

end Cert.Kernel.Hand

end
-- ==== Proof.KI.Body0.lean ====
/-
  Region 0 (the row-normalizing kernel, grid of 8 points, blocks of 512 rows): what one call of the body leaves in
  each output block as a function of the two input blocks, the proof data of the pipeline at the contents the region
  is entered with, and the body's obligation at every grid point.
-/
import proofs.«173146_j89481348645584_2_alg».proof.Proof.Gen.KernelIdeal.Launch
import proofs.«173146_j89481348645584_2_alg».proof.Proof.Gen.KernelIdeal.Skeleton
import proofs.«173146_j89481348645584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for any proof data whose array is the
    entry contents and whose body leaves the block in place: an input window holds what a fetch at the point puts there
    whether or not the point fetches (unfetched, the block index has not moved), and the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_m : Rect S512x512 := Rect.unit (s := S512x512) ![0, 0] S512x512.size inb_S512x512_S512x512_0_0
abbrev r0_c : Rect S512x1 := Rect.unit (s := S512x1) ![0, 0] S512x1.size inb_S512x1_S512x1_0_0

/-- What the body leaves in each output block, from the two input blocks (x0: rows of the first argument, x1: of the second). -/
def out0_2 (x0 x1 : Vec F S512x512 .f32) : Vec F S512x512 .bf16 := View.canon [⟨r0_m, k0_pay6 (View.ld x0 r0_m)⟩]
def out0_3 (x0 x1 : Vec F S512x512 .f32) : Vec F S512x512 .bf16 := View.canon [⟨r0_m, k0_pay7 (View.ld x1 r0_m)⟩]
def out0_4 (x0 x1 : Vec F S512x512 .f32) : Vec F S512x1 .f32 := View.canon [⟨r0_c, k0_pay8 (View.ld x0 r0_m) (View.ld x1 r0_m)⟩]
def out0_5 (x0 x1 : Vec F S512x512 .f32) : Vec F S512x1 .f32 := View.canon [⟨r0_c, k0_pay9 (View.ld x0 r0_m)⟩]
def out0_6 (x0 x1 : Vec F S512x512 .f32) : Vec F S512x1 .f32 := View.canon [⟨r0_c, k0_pay1 (k0_pay10 (View.ld x1 r0_m))⟩]

/-- Each output's one store is of the whole block, so it covers it. -/
theorem cover0_m (p0 : Vec F S512x512 .bf16) (y : S512x512.Idx) :
    ∃ pc ∈ ([⟨r0_m, p0⟩] : List (View.Piece (Elt F) S512x512 .bf16)), y ∈ pc.1.set :=
  View.cover_of_tiled [⟨r0_m, p0⟩] S512x512.size (by rfl) y

theorem cover0_c (p0 : Vec F S512x1 .f32) (y : S512x1.Idx) :
    ∃ pc ∈ ([⟨r0_c, p0⟩] : List (View.Piece (Elt F) S512x1 .f32)), y ∈ pc.1.set :=
  View.cover_of_tiled [⟨r0_c, p0⟩] S512x1.size (by rfl) y

set_option maxHeartbeats 4000000 in
/-- The body on whole staging memrefs, the two inputs' at read contents x0, x1 and the five outputs' at anything, runs
    to the continuation holding the inputs' as they were and each output's at its function of the inputs'. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S512x1 .f32) (harg5 : arg5.IsWhole) (arg6 : Memref sig .tc .vmem S512x1 .f32) (harg6 : arg6.IsWhole)
    (arg7 : Memref sig .tc .vmem S512x1 .f32) (harg7 : arg7.IsWhole)
    (x0 x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)
            ∗ owns (c : Thread nD τ) arg7 fullShare (out0_6 x0 x1)) -∗ K ⟨⟩))
      ⊢ wp frame (wpE (defs₀ (F := F)) Variants.none c none) E
          (cc0__normalize_kernel i arg1 harg1 arg2 harg2 arg3 harg3 arg4 harg4 arg5 harg5 arg6 harg6 arg7 harg7) K := by
  simp only [cc0__normalize_kernel_eq_skeleton, k0_part1_eq_skeleton]; unfold cc0__normalize_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_m _)
  isplitl [H4]
  · iexists _; isplitr
    swap; · iexact H4
    ipureintro
    exact View.read_writes_eq_canon _ _ _ (cover0_m _)
  isplitl [H5]
  · iexists _; isplitr
    swap; · iexact H5
    ipureintro
    exact View.read_writes_eq_canon _ _ _ (cover0_c _)
  isplitl [H6]
  · iexists _; isplitr
    swap; · iexact H6
    ipureintro
    exact View.read_writes_eq_canon _ _ _ (cover0_c _)
  iexists _; isplitr
  swap; · iexact H7
  ipureintro
  exact View.read_writes_eq_canon _ _ _ (cover0_c _)

/-- The proof data of pipeline 0 on core c at the entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 (the row-sum kernel, grid of 4 points, query blocks of 1024 rows against both whole key arrays): what one
  call of the body leaves in the output block as a function of the three input blocks, the proof data of the pipeline
  at the contents the region is entered with — two of its input windows read one array, so each of the two holds half
  of that array's share —, and the body's obligation at every grid point.
-/
import proofs.«173146_j89481348645584_2_alg».proof.Proof.Gen.KernelIdeal.Launch
import proofs.«173146_j89481348645584_2_alg».proof.Proof.Gen.KernelIdeal.Skeleton
import proofs.«173146_j89481348645584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is the
    entry contents and whose body leaves the block in place: an input window holds what a fetch at the point puts there
    whether or not the point fetches — the two key windows are fetched at the first point only, and at the later points
    their block index has not moved, the index map being constant —, and the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: the whole query block, the eight 512-row chunks of a key array, the whole output block. -/
abbrev r1_q : Rect S1024x512 := Rect.unit (s := S1024x512) ![0, 0] S1024x512.size inb_S1024x512_S1024x512_0_0
abbrev r1_k0 : Rect S4096x512 := Rect.unit (s := S4096x512) ![0, 0] S512x512.size inb_S4096x512_S512x512_0_0
abbrev r1_k1 : Rect S4096x512 := Rect.unit (s := S4096x512) ![512, 0] S512x512.size inb_S4096x512_S512x512_512_0
abbrev r1_k2 : Rect S4096x512 := Rect.unit (s := S4096x512) ![1024, 0] S512x512.size inb_S4096x512_S512x512_1024_0
abbrev r1_k3 : Rect S4096x512 := Rect.unit (s := S4096x512) ![1536, 0] S512x512.size inb_S4096x512_S512x512_1536_0
abbrev r1_k4 : Rect S4096x512 := Rect.unit (s := S4096x512) ![2048, 0] S512x512.size inb_S4096x512_S512x512_2048_0
abbrev r1_k5 : Rect S4096x512 := Rect.unit (s := S4096x512) ![2560, 0] S512x512.size inb_S4096x512_S512x512_2560_0
abbrev r1_k6 : Rect S4096x512 := Rect.unit (s := S4096x512) ![3072, 0] S512x512.size inb_S4096x512_S512x512_3072_0
abbrev r1_k7 : Rect S4096x512 := Rect.unit (s := S4096x512) ![3584, 0] S512x512.size inb_S4096x512_S512x512_3584_0
abbrev r1_o : Rect S1024x1 := Rect.unit (s := S1024x1) ![0, 0] S1024x1.size inb_S1024x1_S1024x1_0_0

/-! What the body computes, stage by stage, over the query block x0 and the two key arrays x1, x2 (the payloads are the
    skeleton's; chunk j of a key array is its rows 512 j .. 512 j + 511). -/

/-- The query block as the matrix unit takes it. -/
def qv1 (x0 : Vec F S1024x512 .bf16) : FVec F S1024x512 .bf16 := k1_pay2 (View.ld x0 r1_q)

/-- The running row sums after chunk 0 of both arrays and chunk 1 of the first, -/
def acc1_a (x0 : Vec F S1024x512 .bf16) (x1 x2 : Vec F S4096x512 .bf16) : FVec F S1024x1 .f32 :=
  k1_pay3 (View.ld x0 r1_q) (View.ld x1 r1_k0) (View.ld x2 r1_k0) (View.ld x1 r1_k1)

/-- the exponentials against chunk 1 of the second, not yet summed, -/
def exp1_a (x0 : Vec F S1024x512 .bf16) (x2 : Vec F S4096x512 .bf16) : FVec F S1024x512 .f32 :=
  k1_pay4 (View.ld x0 r1_q) (View.ld x2 r1_k1)

/-- the running row sums after chunks 0..3 of both, -/
def acc1_b (x0 : Vec F S1024x512 .bf16) (x1 x2 : Vec F S4096x512 .bf16) : FVec F S1024x1 .f32 :=
  k1_pay5 (qv1 x0) (acc1_a x0 x1 x2) (exp1_a x0 x2) (View.ld x1 r1_k2) (View.ld x2 r1_k2) (View.ld x1 r1_k3) (View.ld x2 r1_k3)

/-- and after chunks 0..5 of both. -/
def acc1_c (x0 : Vec F S1024x512 .bf16) (x1 x2 : Vec F S4096x512 .bf16) : FVec F S1024x1 .f32 :=
  k1_pay6 (qv1 x0) (acc1_b x0 x1 x2) (View.ld x1 r1_k4) (View.ld x2 r1_k4) (View.ld x1 r1_k5) (View.ld x2 r1_k5)

/-- What the body leaves in the output block, from the query block x0 and the two key arrays x1, x2: its one store,
    of the row sums after all eight chunks of both. -/
def out1_3 (x0 : Vec F S1024x512 .bf16) (x1 x2 : Vec F S4096x512 .bf16) : Vec F S1024x1 .f32 :=
  View.canon [⟨r1_o, k1_pay1 (qv1 x0) (acc1_c x0 x1 x2) (k1_pay7 (View.ld x1 r1_k6)) (View.ld x2 r1_k6) (View.ld x1 r1_k7) (View.ld x2 r1_k7)⟩]

/-- The store is of the whole block, so it covers it. -/
theorem cover1_3 (p0 : Vec F S1024x1 .f32) (y : S1024x1.Idx) :
    ∃ pc ∈ ([⟨r1_o, p0⟩] : List (View.Piece (Elt F) S1024x1 .f32)), y ∈ pc.1.set :=
  View.cover_of_tiled [⟨r1_o, p0⟩] S1024x1.size (by rfl) y

set_option maxHeartbeats 4000000 in
/-- The body on whole staging memrefs, the three inputs' at read contents x0, x1, x2 and the output's at anything, runs
    to the continuation holding the inputs' as they were and the output's at its function of the inputs'. -/
theorem sound_kernel1 (c : Dev nD) (E : Set ℕ) (i : grid1.Coords)
    (arg1 : Memref sig .tc .vmem S1024x512 .bf16) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S1024x1 .f32) (harg4 : arg4.IsWhole)
    (x0 : Vec F S1024x512 .bf16) (x1 x2 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__rowsum_kernel i arg1 harg1 arg2 harg2 arg3 harg3 arg4 harg4) K := by
  simp only [cc1__rowsum_kernel_eq_skeleton, k1_part1_eq_skeleton, k1_part2_eq_skeleton, k1_part3_eq_skeleton]; unfold cc1__rowsum_kernel_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-- The share of its array each input window holds: the two windows on one array hold its two halves. -/
def q1 : Fin cfg1.W → PosShare TreeShare := fun w => match w with
  | ⟨0, _⟩ => fullShare.left
  | ⟨1, _⟩ => fullShare.right
  | ⟨2, _⟩ => fullShare
  | ⟨3, _⟩ => fullShare

/-- The proof data of pipeline 1 on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 (the row-sum kernel, grid of 4 points, query blocks of 1024 rows against both whole key arrays): what one
  call of the body leaves in the output block as a function of the three input blocks, the proof data of the pipeline
  at the contents the region is entered with — two of its input windows read one array, so each of the two holds half
  of that array's share —, and the body's obligation at every grid point.
-/
import proofs.«173146_j89481348645584_2_alg».proof.Proof.Gen.KernelIdeal.Launch
import proofs.«173146_j89481348645584_2_alg».proof.Proof.Gen.KernelIdeal.Skeleton
import proofs.«173146_j89481348645584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, for any proof data whose array is the
    entry contents and whose body leaves the block in place: an input window holds what a fetch at the point puts there
    whether or not the point fetches — the two key windows are fetched at the first point only, and at the later points
    their block index has not moved, the index map being constant —, and the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: the whole query block, the eight 512-row chunks of a key array, the whole output block. -/
abbrev r2_q : Rect S1024x512 := Rect.unit (s := S1024x512) ![0, 0] S1024x512.size inb_S1024x512_S1024x512_0_0
abbrev r2_k0 : Rect S4096x512 := Rect.unit (s := S4096x512) ![0, 0] S512x512.size inb_S4096x512_S512x512_0_0
abbrev r2_k1 : Rect S4096x512 := Rect.unit (s := S4096x512) ![512, 0] S512x512.size inb_S4096x512_S512x512_512_0
abbrev r2_k2 : Rect S4096x512 := Rect.unit (s := S4096x512) ![1024, 0] S512x512.size inb_S4096x512_S512x512_1024_0
abbrev r2_k3 : Rect S4096x512 := Rect.unit (s := S4096x512) ![1536, 0] S512x512.size inb_S4096x512_S512x512_1536_0
abbrev r2_k4 : Rect S4096x512 := Rect.unit (s := S4096x512) ![2048, 0] S512x512.size inb_S4096x512_S512x512_2048_0
abbrev r2_k5 : Rect S4096x512 := Rect.unit (s := S4096x512) ![2560, 0] S512x512.size inb_S4096x512_S512x512_2560_0
abbrev r2_k6 : Rect S4096x512 := Rect.unit (s := S4096x512) ![3072, 0] S512x512.size inb_S4096x512_S512x512_3072_0
abbrev r2_k7 : Rect S4096x512 := Rect.unit (s := S4096x512) ![3584, 0] S512x512.size inb_S4096x512_S512x512_3584_0
abbrev r2_o : Rect S1024x1 := Rect.unit (s := S1024x1) ![0, 0] S1024x1.size inb_S1024x1_S1024x1_0_0

/-! What the body computes, stage by stage, over the query block x0 and the two key arrays x1, x2 (the payloads are the
    skeleton's; chunk j of a key array is its rows 512 j .. 512 j + 511). -/

/-- The query block as the matrix unit takes it. -/
def qv2 (x0 : Vec F S1024x512 .bf16) : FVec F S1024x512 .bf16 := k2_pay2 (View.ld x0 r2_q)

/-- The running row sums after chunk 0 of both arrays and chunk 1 of the first, -/
def acc2_a (x0 : Vec F S1024x512 .bf16) (x1 x2 : Vec F S4096x512 .bf16) : FVec F S1024x1 .f32 :=
  k2_pay3 (View.ld x0 r2_q) (View.ld x1 r2_k0) (View.ld x2 r2_k0) (View.ld x1 r2_k1)

/-- the exponentials against chunk 1 of the second, not yet summed, -/
def exp2_a (x0 : Vec F S1024x512 .bf16) (x2 : Vec F S4096x512 .bf16) : FVec F S1024x512 .f32 :=
  k2_pay4 (View.ld x0 r2_q) (View.ld x2 r2_k1)

/-- the running row sums after chunks 0..3 of both, -/
def acc2_b (x0 : Vec F S1024x512 .bf16) (x1 x2 : Vec F S4096x512 .bf16) : FVec F S1024x1 .f32 :=
  k2_pay5 (qv2 x0) (acc2_a x0 x1 x2) (exp2_a x0 x2) (View.ld x1 r2_k2) (View.ld x2 r2_k2) (View.ld x1 r2_k3) (View.ld x2 r2_k3)

/-- and after chunks 0..5 of both. -/
def acc2_c (x0 : Vec F S1024x512 .bf16) (x1 x2 : Vec F S4096x512 .bf16) : FVec F S1024x1 .f32 :=
  k2_pay6 (qv2 x0) (acc2_b x0 x1 x2) (View.ld x1 r2_k4) (View.ld x2 r2_k4) (View.ld x1 r2_k5) (View.ld x2 r2_k5)

/-- What the body leaves in the output block, from the query block x0 and the two key arrays x1, x2: its one store,
    of the row sums after all eight chunks of both. -/
def out2_3 (x0 : Vec F S1024x512 .bf16) (x1 x2 : Vec F S4096x512 .bf16) : Vec F S1024x1 .f32 :=
  View.canon [⟨r2_o, k2_pay1 (qv2 x0) (acc2_c x0 x1 x2) (k2_pay7 (View.ld x1 r2_k6)) (View.ld x2 r2_k6) (View.ld x1 r2_k7) (View.ld x2 r2_k7)⟩]

/-- The store is of the whole block, so it covers it. -/
theorem cover2_3 (p0 : Vec F S1024x1 .f32) (y : S1024x1.Idx) :
    ∃ pc ∈ ([⟨r2_o, p0⟩] : List (View.Piece (Elt F) S1024x1 .f32)), y ∈ pc.1.set :=
  View.cover_of_tiled [⟨r2_o, p0⟩] S1024x1.size (by rfl) y

set_option maxHeartbeats 4000000 in
/-- The body on whole staging memrefs, the three inputs' at read contents x0, x1, x2 and the output's at anything, runs
    to the continuation holding the inputs' as they were and the output's at its function of the inputs'. -/
theorem sound_kernel2 (c : Dev nD) (E : Set ℕ) (i : grid2.Coords)
    (arg1 : Memref sig .tc .vmem S1024x512 .bf16) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S1024x1 .f32) (harg4 : arg4.IsWhole)
    (x0 : Vec F S1024x512 .bf16) (x1 x2 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__rowsum_kernel i arg1 harg1 arg2 harg2 arg3 harg3 arg4 harg4) K := by
  simp only [cc2__rowsum_kernel_eq_skeleton, k2_part1_eq_skeleton, k2_part2_eq_skeleton, k2_part3_eq_skeleton]; unfold cc2__rowsum_kernel_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

/-- The share of its array each input window holds: the two windows on one array hold its two halves. -/
def q2 : Fin cfg2.W → PosShare TreeShare := fun w => match w with
  | ⟨0, _⟩ => fullShare.left
  | ⟨1, _⟩ => fullShare
  | ⟨2, _⟩ => fullShare.right
  | ⟨3, _⟩ => fullShare

/-- The proof data of pipeline 2 on core c at the entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q2
  owed _ := 0

theorem A_eq2 (c : Dev nD) (w : Fin cfg2.W) : (dat2 V c).A w = V c (Pipeline.arrRef spec2 w) := by
  dsimp only [dat2]
theorem q_eq2 (c : Dev nD) : (dat2 V c).q = q2 := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.Fold.lean ====
/-
  The buffer contents of a core at each boundary of the run: the launch memory, then what each of the three kernel
  regions leaves (region 0 writes its five output arrays; regions 1 and 2 write one output array each and read their
  inputs, one of which two of their windows share), then the nineteen host operations. Each boundary's contents is
  read back at an array and off the arrays, and the two argument arrays are walked back to the launch memory.
-/
import proofs.«173146_j89481348645584_2_alg».proof.Proof.KI.Body0
import proofs.«173146_j89481348645584_2_alg».proof.Proof.KI.Body1
import proofs.«173146_j89481348645584_2_alg».proof.Proof.KI.Body2
import proofs.«173146_j89481348645584_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents, region 1's entry contents). -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its output array (window 3) at what the write-backs leave, every other buffer as entered
    (the three input windows' arrays are never written). -/
def W2 (c : Dev nD) : Valuation τ sig (Elt F) :=
  Function.update (W1 m ρ c) (Proc.devRef .tc main_v1) ((dat1 (V1 m ρ) c).arrAt 3 cfg1.N)
theorem W2_out (c : Dev nD) : W2 m ρ c (Proc.devRef .tc main_v1) = (dat1 (V1 m ρ) c).arrAt 3 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
/-- The same read at the TensorCore's references (region 1's exit contents, region 2's entry contents). -/
abbrev V2 : (c : Dev nD) → (b : Ref sig .tc) → Buf (Elt F) ((c : Thread nD τ).loc b) := fun c b => W2 m ρ c b

/-- At region 2's exit: its output array (window 3) at what the write-backs leave, every other buffer as entered. -/
def W3 (c : Dev nD) : Valuation τ sig (Elt F) :=
  Function.update (W2 m ρ c) (Proc.devRef .tc main_v2) ((dat2 (V2 m ρ) c).arrAt 3 cfg2.N)
theorem W3_out (c : Dev nD) : W3 m ρ c (Proc.devRef .tc main_v2) = (dat2 (V2 m ρ) c).arrAt 3 cfg2.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
/-- The same read at the TensorCore's references (region 2's exit contents). -/
abbrev V3 : (c : Dev nD) → (b : Ref sig .tc) → Buf (Elt F) ((c : Thread nD τ).loc b) := fun c b => W3 m ρ c b

/-- After the host operations: the contents at the return. -/
abbrev W4 : Dev nD → Valuation τ sig (Elt F) := fun c => StableHlo.after hostOps3 (W3 m ρ c)

/-- Off the references the host operations write, the contents at the return are region 2's exit contents. -/
theorem W4_of (c : Dev nD) (r : Ref sig .tc) (h : r ∉ hostOps3_W) :
    W4 m ρ c (Proc.devRef .tc r) = W3 m ρ c (Proc.devRef .tc r) :=
  StableHlo.after_of_writes_sub hostOps3 _ hostOps3_writes h

/-! ## The arguments end as launched

No host operation writes an argument, regions 1 and 2 write only their own output arrays, and region 0 reads each
argument through an input window, whose array the pipeline never writes: the fold at an argument's buffer walks back
to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## What regions 1 and 2 need of their boundary contents

At a region's exit each of its arrays holds what the pipeline leaves there — an input what it held at entry, the
output its folded write-backs — and every buffer that is no array of the region what it held at entry. -/

theorem hF1 (c : Dev nD) (w : Fin cfg1.W) : (dat1 (V1 m ρ) c).arrAt w cfg1.N = V2 m ρ c (Pipeline.arrRef spec1 w) :=
  match w with
  | ⟨0, _⟩ => (((dat1 (V1 m ρ) c).arrAt_in 0 rfl _).trans (A_eq1 (V1 m ρ) c 0)).trans (W2_of_ne m ρ c main_v0_0 (by decide)).symm
  | ⟨1, _⟩ => (((dat1 (V1 m ρ) c).arrAt_in 1 rfl _).trans (A_eq1 (V1 m ρ) c 1)).trans (W2_of_ne m ρ c main_v0_0 (by decide)).symm
  | ⟨2, _⟩ => (((dat1 (V1 m ρ) c).arrAt_in 2 rfl _).trans (A_eq1 (V1 m ρ) c 2)).trans (W2_of_ne m ρ c main_v0_1 (by decide)).symm
  | ⟨3, _⟩ => (W2_out m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨3, Finset.mem_univ _, e.symm⟩)

theorem hF2 (c : Dev nD) (w : Fin cfg2.W) : (dat2 (V2 m ρ) c).arrAt w cfg2.N = V3 m ρ c (Pipeline.arrRef spec2 w) :=
  match w with
  | ⟨0, _⟩ => (((dat2 (V2 m ρ) c).arrAt_in 0 rfl _).trans (A_eq2 (V2 m ρ) c 0)).trans (W3_of_ne m ρ c main_v0_1 (by decide)).symm
  | ⟨1, _⟩ => (((dat2 (V2 m ρ) c).arrAt_in 1 rfl _).trans (A_eq2 (V2 m ρ) c 1)).trans (W3_of_ne m ρ c main_v0_0 (by decide)).symm
  | ⟨2, _⟩ => (((dat2 (V2 m ρ) c).arrAt_in 2 rfl _).trans (A_eq2 (V2 m ρ) c 2)).trans (W3_of_ne m ρ c main_v0_1 (by decide)).symm
  | ⟨3, _⟩ => (W3_out m ρ c).symm
theorem hrest2 (c : Dev nD) : ∀ b, b ∉ Finset.univ.image (Pipeline.arrRef spec2) → V3 m ρ c b = V2 m ρ c b :=
  fun b hb => W3_of_ne m ρ c b fun e => hb (Finset.mem_image.mpr ⟨3, Finset.mem_univ _, e.symm⟩)

end Cert.KernelIdeal.Hand

end
-- ==== Proof.KI.Run.Shared.lean ====
/-
  Regions 1 and 2 each hand ONE array to TWO of their input windows. The launch's account of a core's unscoped
  buffers holds every buffer once, whole, at the full share; the pipeline's account of its arrays holds one points-to
  per WINDOW. The two accounts are related here in both directions: the shared buffer's full share splits into its two
  halves (one per window on it, at the same contents) on the way in, and the two halves join on the way out.
-/
import proofs.«173146_j89481348645584_2_alg».proof.Proof.KI.Body1
import proofs.«173146_j89481348645584_2_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: windows 0 and 1 read one array -/

/-- The distinct buffers behind region 1's four windows are three: the array two windows share, the third input's,
    the output's. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1) ∗ (((c : Thread nD τ).loc main_v1) ↦{fullShare} V main_v1)) := by
  unfold Pipeline.arrBufs
  exact bigSep_eq_bigSepL_of_eq [main_v0_0, main_v0_1, main_v1] (by decide) (by decide) _

/-- Region 1's arrays window by window, for proof data that deal the shared array's share in halves to windows
    0 and 1: each window's array is a whole buffer, held at the window's share. -/
theorem arrays1_eq (c : Dev nD) (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄) = iprop((((c : Thread nD τ).loc main_v0_0) ↦{fullShare.left} G 0) ∗ (((c : Thread nD τ).loc main_v0_0) ↦{fullShare.right} G 1) ∗ (((c : Thread nD τ).loc main_v0_1) ↦{fullShare} G 2) ∗ (((c : Thread nD τ).loc main_v1) ↦{fullShare} G 3)) := by
  have h0 : dat.share 0 = fullShare.left := by unfold Dat.share; rw [hq]; rfl
  have h1 : dat.share 1 = fullShare.right := by unfold Dat.share; rw [hq]; rfl
  have h2 : dat.share 2 = fullShare := by unfold Dat.share; rw [hq]; rfl
  have h3 : dat.share 3 = fullShare := by unfold Dat.share; rw [hq]; rfl
  unfold Dat.arrays
  rw [bigSep_W1, h0, h1, h2, h3]
  exact congrArg₂ BI.sep (congrArg (fun S => (((cfg1.win 0).arr.view.loc (c : Thread nD τ)) ↦[S]{fullShare.left} G 0 : sProp 𝕄)) (arr_whole1 0).set_eq_univ)
    (congrArg₂ BI.sep (congrArg (fun S => (((cfg1.win 1).arr.view.loc (c : Thread nD τ)) ↦[S]{fullShare.right} G 1 : sProp 𝕄)) (arr_whole1 1).set_eq_univ)
      (congrArg₂ BI.sep (congrArg (fun S => (((cfg1.win 2).arr.view.loc (c : Thread nD τ)) ↦[S]{fullShare} G 2 : sProp 𝕄)) (arr_whole1 2).set_eq_univ)
        (congrArg (fun S => (((cfg1.win 3).arr.view.loc (c : Thread nD τ)) ↦[S]{fullShare} G 3 : sProp 𝕄)) (arr_whole1 3).set_eq_univ)))

/-- ENTRY, the arrays' part: a core's unscoped buffers at contents V are region 1's arrays at the proof data's
    entry contents (read off V) and the unscoped rest. The buffer two windows share is split along its share: each
    of the two windows takes one half, at the same contents. -/
theorem arrays_of_unscopedBufs1 (c : Dev nD) (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [show (unscopedBufs c V : sProp 𝕄) = iprop(Pipeline.arrBufs spec1 c V ∗ Pipeline.unscopedRest spec1 c V)
      from Pipeline.unscopedBufs_split₀ cfgs 1 winFacts₀1.arr_unscoped c V,
    arrBufs1_eq, arrays1_eq c dat hq,
    show dat.arrAt 0 0 = V main_v0_0 from hA 0, show dat.arrAt 1 0 = V main_v0_0 from hA 1,
    show dat.arrAt 2 0 = V main_v0_1 from hA 2, show dat.arrAt 3 0 = V main_v1 from hA 3]
  iintro ⟨⟨Ha, Hb, Ho⟩, Hrest⟩
  ihave Ha' := (pointsTo_share (PosShare.mem_left_op_right fullShare)).1 $$ Ha
  icases Ha' with ⟨Hal, Har⟩
  isplitr [Hrest]
  · isplitl [Hal]; · iexact Hal
    isplitl [Har]; · iexact Har
    isplitl [Hb]; · iexact Hb
    iexact Ho
  · iexact Hrest

/-- EXIT, the arrays' part: region 1's arrays at contents G and the unscoped rest at V are the core's unscoped
    buffers at any contents V' that has the arrays at G and agrees with V off them. The two halves of the shared
    buffer, at the same contents, join to the whole. -/
theorem unscopedBufs_of_arrays1 (c : Dev nD) (dat : Dat τ (Elt F) Unit ℕ (UR sig nD τ) ℕ cfg1 c) (hq : dat.q = q1)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hR : (Pipeline.unscopedRest spec1 c V : sProp 𝕄) = Pipeline.unscopedRest spec1 c V' := by
    unfold Pipeline.unscopedRest
    exact bigSep_congr fun b hb => by rw [hrest b (Finset.mem_sdiff.mp hb).2]
  rw [show (unscopedBufs c V' : sProp 𝕄) = iprop(Pipeline.arrBufs spec1 c V' ∗ Pipeline.unscopedRest spec1 c V')
      from Pipeline.unscopedBufs_split₀ cfgs 1 winFacts₀1.arr_unscoped c V',
    arrBufs1_eq, arrays1_eq c dat hq, hR,
    show G 0 = V' main_v0_0 from hG 0, show G 1 = V' main_v0_0 from hG 1,
    show G 2 = V' main_v0_1 from hG 2, show G 3 = V' main_v1 from hG 3]
  iintro ⟨⟨Hal, Har, Hb, Ho⟩, Hrest⟩
  isplitr [Hrest]
  · isplitl [Hal Har]
    · iapply (pointsTo_share (PosShare.mem_left_op_right fullShare)).2
      isplitl [Hal]; · iexact Hal
      iexact Har
    isplitl [Hb]; · iexact Hb
    iexact Ho
  · iexact Hrest

/-! ## Region 2: windows 0 and 2 read one array -/

/-- The distinct buffers behind region 2's four windows are three: the array two windows share, the third input's,
    the output's. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v0_1) ↦{fullShare} V main_v0_1) ∗ (((c : Thread nD τ).loc main_v0_0) ↦{fullShare} V main_v0_0) ∗ (((c : Thread nD τ).loc main_v2) ↦{fullShare} V main_v2)) := by
  unfold Pipeline.arrBufs
  exact bigSep_eq_bigSepL_of_eq [main_v0_1, main_v0_0, main_v2] (by decide) (by decide) _

/-- Region 2's arrays window by window, for proof data that deal the shared array's share in halves to windows
    0 and 2: each window's array is a whole buffer, held at the window's share. -/
theorem arrays2_eq (c : Dev nD) (dat : Dat τ (Elt F) Unit ℕ (UR sig nD τ) ℕ cfg2 c) (hq : dat.q = q2)
    (G : (w : Fin cfg2.W) → Buf (Elt F) ((cfg2.win w).arr.view.loc (c : Thread nD τ))) :
    (dat.arrays G : sProp 𝕄) = iprop((((c : Thread nD τ).loc main_v0_1) ↦{fullShare.left} G 0) ∗ (((c : Thread nD τ).loc main_v0_0) ↦{fullShare} G 1) ∗ (((c : Thread nD τ).loc main_v0_1) ↦{fullShare.right} G 2) ∗ (((c : Thread nD τ).loc main_v2) ↦{fullShare} G 3)) := by
  have h0 : dat.share 0 = fullShare.left := by unfold Dat.share; rw [hq]; rfl
  have h1 : dat.share 1 = fullShare := by unfold Dat.share; rw [hq]; rfl
  have h2 : dat.share 2 = fullShare.right := by unfold Dat.share; rw [hq]; rfl
  have h3 : dat.share 3 = fullShare := by unfold Dat.share; rw [hq]; rfl
  unfold Dat.arrays
  rw [bigSep_W2, h0, h1, h2, h3]
  exact congrArg₂ BI.sep (congrArg (fun S => (((cfg2.win 0).arr.view.loc (c : Thread nD τ)) ↦[S]{fullShare.left} G 0 : sProp 𝕄)) (arr_whole2 0).set_eq_univ)
    (congrArg₂ BI.sep (congrArg (fun S => (((cfg2.win 1).arr.view.loc (c : Thread nD τ)) ↦[S]{fullShare} G 1 : sProp 𝕄)) (arr_whole2 1).set_eq_univ)
      (congrArg₂ BI.sep (congrArg (fun S => (((cfg2.win 2).arr.view.loc (c : Thread nD τ)) ↦[S]{fullShare.right} G 2 : sProp 𝕄)) (arr_whole2 2).set_eq_univ)
        (congrArg (fun S => (((cfg2.win 3).arr.view.loc (c : Thread nD τ)) ↦[S]{fullShare} G 3 : sProp 𝕄)) (arr_whole2 3).set_eq_univ)))

/-- ENTRY, the arrays' part: a core's unscoped buffers at contents V are region 2's arrays at the proof data's
    entry contents (read off V) and the unscoped rest. The buffer two windows share is split along its share: each
    of the two windows takes one half, at the same contents. -/
theorem arrays_of_unscopedBufs2 (c : Dev nD) (dat : Dat τ (Elt F) Unit ℕ (UR sig nD τ) ℕ cfg2 c) (hq : dat.q = q2)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [show (unscopedBufs c V : sProp 𝕄) = iprop(Pipeline.arrBufs spec2 c V ∗ Pipeline.unscopedRest spec2 c V)
      from Pipeline.unscopedBufs_split₀ cfgs 2 winFacts₀2.arr_unscoped c V,
    arrBufs2_eq, arrays2_eq c dat hq,
    show dat.arrAt 0 0 = V main_v0_1 from hA 0, show dat.arrAt 1 0 = V main_v0_0 from hA 1,
    show dat.arrAt 2 0 = V main_v0_1 from hA 2, show dat.arrAt 3 0 = V main_v2 from hA 3]
  iintro ⟨⟨Ha, Hb, Ho⟩, Hrest⟩
  ihave Ha' := (pointsTo_share (PosShare.mem_left_op_right fullShare)).1 $$ Ha
  icases Ha' with ⟨Hal, Har⟩
  isplitr [Hrest]
  · isplitl [Hal]; · iexact Hal
    isplitl [Hb]; · iexact Hb
    isplitl [Har]; · iexact Har
    iexact Ho
  · iexact Hrest

/-- EXIT, the arrays' part: region 2's arrays at contents G and the unscoped rest at V are the core's unscoped
    buffers at any contents V' that has the arrays at G and agrees with V off them. The two halves of the shared
    buffer, at the same contents, join to the whole. -/
theorem unscopedBufs_of_arrays2 (c : Dev nD) (dat : Dat τ (Elt F) Unit ℕ (UR sig nD τ) ℕ cfg2 c) (hq : dat.q = q2)
    (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) := by
  have hR : (Pipeline.unscopedRest spec2 c V : sProp 𝕄) = Pipeline.unscopedRest spec2 c V' := by
    unfold Pipeline.unscopedRest
    exact bigSep_congr fun b hb => by rw [hrest b (Finset.mem_sdiff.mp hb).2]
  rw [show (unscopedBufs c V' : sProp 𝕄) = iprop(Pipeline.arrBufs spec2 c V' ∗ Pipeline.unscopedRest spec2 c V')
      from Pipeline.unscopedBufs_split₀ cfgs 2 winFacts₀2.arr_unscoped c V',
    arrBufs2_eq, arrays2_eq c dat hq, hR,
    show G 0 = V' main_v0_1 from hG 0, show G 1 = V' main_v0_0 from hG 1,
    show G 2 = V' main_v0_1 from hG 2, show G 3 = V' main_v2 from hG 3]
  iintro ⟨⟨Hal, Hb, Har, Ho⟩, Hrest⟩
  isplitr [Hrest]
  · isplitl [Hal Har]
    · iapply (pointsTo_share (PosShare.mem_left_op_right fullShare)).2
      isplitl [Hal]; · iexact Hal
      iexact Har
    isplitl [Hb]; · iexact Hb
    iexact Ho
  · iexact Hrest

end Cert.KernelIdeal.Hand

end
-- ==== Proof.KI.Run.lean ====
/-
  The run of the program from the launch to the return: three kernel regions, then a stretch of nineteen host
  operations. Each region is a segment over the thread state "every unscoped buffer whole at the boundary's contents,
  the generator register at some state, nothing owed"; the host stretch runs over the same state. The launch over
  the four segments gives: every weakly fair execution terminates, nothing faulting, and at the end every unscoped
  buffer holds the last boundary's contents — in particular each argument array what it was launched with.
-/
import proofs.«173146_j89481348645584_2_alg».proof.Proof.KI.Run.Fold
import proofs.«173146_j89481348645584_2_alg».proof.Proof.KI.Run.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the contents at the return, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at W0, left at W1. Its arrays (distinct
    buffers) are split out of the unscoped buffers at entry and put back at the exit contents; the generator register
    goes into the class invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W1, left at W2. Two of its input
    windows read one array: at entry that buffer's full share is split in two halves, one per window
    (arrays_of_unscopedBufs1), and at exit the halves are joined (unscopedBufs_of_arrays1); the output array comes
    back at its folded write-backs, every other buffer as entered. The generator register goes into the class
    invariant and out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := arrays_of_unscopedBufs1 c (pdats m ρ 1 c) (q_eq1 (V1 m ρ) c) (V1 m ρ c) (fun w => A_eq1 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m ρ 1 c) (q_eq1 (V1 m ρ) c) (V1 m ρ c) (V2 m ρ c)
      ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W2, left at W3. Two of its input
    windows read one array: at entry that buffer's full share is split in two halves, one per window
    (arrays_of_unscopedBufs2), and at exit the halves are joined (unscopedBufs_of_arrays2); the output array comes
    back at its folded write-backs, every other buffer as entered. The generator register goes into the class
    invariant and out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := arrays_of_unscopedBufs2 c (pdats m ρ 2 c) (q_eq2 (V2 m ρ) c) (V2 m ρ c) (fun w => A_eq2 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 c (pdats m ρ 2 c) (q_eq2 (V2 m ρ) c) (V2 m ρ c) (V3 m ρ c)
      ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order: a region per kernel call, then the host stretch from region 2's exit contents. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and in every final state each core's unscoped buffers hold the contents of the last
    boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hr, HO⟩
      isplitr [HO]
      · isplitl [Hh]; · iexact Hh
        iexact Hr
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, and every final state has the two argument
    arrays as launched — the run, read at the arguments' buffers, which nothing on the way writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono
    (fun r h c =>
      ⟨(h c _ (mem_uc main_arg0 (by decide))).trans (W4_main_arg0 m ρ c),
       (h c _ (mem_uc main_arg1 (by decide))).trans (W4_main_arg1 m ρ c)⟩)
    (run_all m ρ)

end Cert.KernelIdeal.Hand

end
-- ==== Proof.LibRowOps.lean ====
/-
  Vector operations on the extended reals read at an index given by coordinates, for any extents: an [a] array kept
  as an [a, 1] column (the keepdims cast), an [a, 1] column broadcast along the rows of an [a, b] array, the lane sum
  over axis 1 of an [a, b] array read at a row (alone, and kept as a column), and the product of an [m, k] array with
  the transpose of an [n, k] array (both operands contracted on their second axis, into a zero accumulator) read at
  (p, s) as the sum over the contracted coordinate of row p of the first times row s of the second.
-/
import Idealize.ShloMosaic.Lib.ValueLayout
import Idealize.ShloMosaic.PureOps.Ideal.Laws

noncomputable section

open scoped BigOperators

namespace Cert.Lib.RowOps

open Idealize.ShloMosaic Idealize.ShloMosaic.ValueIdx

variable {α : Type}

/-- An [a] array cast to [a, 1] reads, at (i, z), the operand at i. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- An [a, 1] column broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum over axis 1 of an [a, b] array of extended reals reads, at row p, the sum of that row. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src ?_
  funext c
  apply Fin.ext
  match c with
  | ⟨0, _⟩ => rfl
  | ⟨1, _⟩ => rfl

/-- The same kept as a column: the lane sum cast from [a] to [a, 1] reads, at (p, z), the sum of row p. -/
theorem rowSumCol_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (z : Fin 1) :
    shapeCast ⟨2, ![a, 1]⟩ (multiReduction (F := Ideal) .add [1] ⟨1, ![a]⟩ src 0x00000000#32 h hφ hacc) hc (ix2 p z)
      = ∑ k : Fin b, src (ix2 p k) :=
  (shapeCast_a_a1_apply _ hc p z).trans (rowSum_apply src h hφ hacc p)

/-- The product of an [m, k] array with the transpose of an [n, k] array (both contracted on axis 1, no batch axis),
    accumulated into the zero splat, reads, at (p, s), the sum over the contracted coordinate of the products of row p
    of the first with row s of the second. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (s : Fin n) :
    matmul (F := Ideal) (⟨[1], [1], [0], [0], [], [], w⟩ : DotDims ⟨2, ![m, k]⟩ ⟨2, ![n, k]⟩ ⟨2, ![m, n]⟩) prec A B
        (constant ⟨2, ![m, n]⟩ .f32 0x00000000#32) (ix2 p s)
      = ∑ c : Fin k, A (ix2 p c) * B (ix2 s c) := by
  show FloatOps.matmul _ prec A B (constant ⟨2, ![m, n]⟩ .f32 0x00000000#32) (ix2 p s) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 p s)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 p s)
      ((contrEquiv1 _ k rfl rfl).symm c) = ix2 s c := by
    funext ax; apply Fin.ext
    match ax with
    | ⟨0, _⟩ => simp [DotDims.rhsIdx]; rfl
    | ⟨1, _⟩ => simp [DotDims.rhsIdx]; exact c2
  rw [l2, r2]

end Cert.Lib.RowOps

end
-- ==== Proof.Spec.lean ====
/-
  The two shapes of the loss, as plain functions on the extended reals.

  Inputs: two 4096 × 512 matrices x, y. Each row is divided by its Euclidean norm clamped below at eps
  (zn). The contrastive loss over the 8192 stacked rows (x's rows first, then y's) is written twice:
  * KLoss: the way the kernel arranges it — the positive pair's similarity as (row of x · row of y) / (norm · norm),
    the full row sum of exp(2 · similarity) over both key halves minus the diagonal term exp(self-similarity / (1/2)),
    and the logarithms and the positives summed separately;
  * RLoss: the way the reference arranges it — the 8192 × 8192 similarity matrix, its two off-diagonals as the
    positives, the masked row sums, and -log(nominator / denominator) summed.
  The constants are the float words both programs print, read as extended reals.
-/
import Idealize.ShloMosaic.PureOps.Ideal

noncomputable section

open scoped BigOperators

namespace Cert.Spec

open Idealize.ShloMosaic

/-- A 4096 × 512 matrix of extended reals. -/
abbrev Mat := Fin 4096 → Fin 512 → EReal

/-- The printed float words. -/
def cEps : EReal := Ideal.ofBits .f32 0x2B8CBCCC#32
def cHalf : EReal := Ideal.ofBits .f32 0x3F000000#32
def cTwo : EReal := Ideal.ofBits .f32 0x40000000#32
def cNegTwo : EReal := Ideal.ofBits .f32 0xC0000000#32
def cN : EReal := Ideal.ofBits .f32 0x46000000#32
def cOne : EReal := Ideal.ofBits .f32 0x3F800000#32

/-- A row's Euclidean norm, clamped below at eps. -/
def nrm (x : Mat) (r : Fin 4096) : EReal := max (Ideal.sqrt (∑ k : Fin 512, x r k * x r k)) cEps
/-- The rows divided by their clamped norms. -/
def zn (x : Mat) : Mat := fun r k => Ideal.div (x r k) (nrm x r)

/-- Two functions on 4096 rows stacked into one on 8192 rows. -/
def cat {α : Type} (f g : Fin 4096 → α) (R : Fin 8192) : α :=
  if h : R.val < 4096 then f ⟨R.val, h⟩ else g ⟨R.val - 4096, by have := R.isLt; omega⟩
/-- Row i of the first half, and of the second half, among the stacked rows. -/
def lo (i : Fin 4096) : Fin 8192 := ⟨i.val, by have := i.isLt; omega⟩
def hi (i : Fin 4096) : Fin 8192 := ⟨i.val + 4096, by have := i.isLt; omega⟩

/-! ### The kernel's arrangement -/

/-- The positive pair of row r: (x_r · y_r) / (‖x_r‖ ‖y_r‖). -/
def pos (x y : Mat) (r : Fin 4096) : EReal :=
  Ideal.div (∑ k : Fin 512, x r k * y r k) (nrm x r * nrm y r)
/-- The self-similarity of a normalized row. -/
def sel (x : Mat) (r : Fin 4096) : EReal := ∑ k : Fin 512, zn x r k * zn x r k
/-- Row r of a times row s of b. -/
def dot (a b : Mat) (r s : Fin 4096) : EReal := ∑ k : Fin 512, a r k * b s k
/-- The row sum of exp(2 · similarity) of query row r of q against every row of both key matrices. -/
def den (q k1 k2 : Mat) (r : Fin 4096) : EReal :=
  (∑ s : Fin 4096, Ideal.exp (dot q k1 r s * cTwo)) + ∑ s : Fin 4096, Ideal.exp (dot q k2 r s * cTwo)
/-- The stacked row sums and self-similarities. -/
def dcat (x y : Mat) : Fin 8192 → EReal := cat (den (zn x) (zn x) (zn y)) (den (zn y) (zn x) (zn y))
def scat (x y : Mat) : Fin 8192 → EReal := cat (sel x) (sel y)

/-- The loss as the kernel's program arranges it. -/
def KLoss (x y : Mat) : EReal :=
  Ideal.div
    (Ideal.div (cNegTwo * ∑ r : Fin 4096, pos x y r) cHalf
      + ∑ R : Fin 8192, Ideal.log (dcat x y R - Ideal.exp (Ideal.div (scat x y R) cHalf)))
    cN

/-! ### The reference's arrangement -/

/-- The stacked normalized rows. -/
def reps (x y : Mat) (R : Fin 8192) (k : Fin 512) : EReal := cat (zn x) (zn y) R k
/-- The similarity matrix. -/
def sim (x y : Mat) (R C : Fin 8192) : EReal := ∑ k : Fin 512, reps x y R k * reps x y C k
/-- The two off-diagonals, stacked. -/
def positives (x y : Mat) : Fin 8192 → EReal :=
  cat (fun i => sim x y (lo i) (hi i)) (fun i => sim x y (hi i) (lo i))
def nom (x y : Mat) (R : Fin 8192) : EReal := Ideal.exp (Ideal.div (positives x y R) cHalf)
/-- One off the diagonal, zero on it. -/
def mask (R C : Fin 8192) : EReal := cOne - (if R = C then (1 : EReal) else 0)
def dnm (x y : Mat) (R : Fin 8192) : EReal :=
  ∑ C : Fin 8192, mask R C * Ideal.exp (Ideal.div (sim x y R C) cHalf)

/-- The loss as the reference arranges it. -/
def RLoss (x y : Mat) : EReal :=
  Ideal.div (∑ R : Fin 8192, -(Ideal.log (Ideal.div (nom x y R) (dnm x y R)))) cN

end Cert.Spec

end
-- ==== Proof.KI.PayAt0.lean ====
/-
  Region 0 (the row-normalizing body on a 512-row block): its payloads read element by element on the extended reals.
  A row's clamped norm is  max (sqrt (sum of squares of the row)) eps ; the two normalized blocks divide each entry by
  its row's clamped norm; the positive pair's column is (row of the first block · row of the second) divided by the product of the two
  clamped norms; the two self-similarity columns are the sums of squares of the normalized rows.
-/
import proofs.«173146_j89481348645584_2_alg».proof.Proof.Gen.KernelIdeal.Skeleton
import proofs.«173146_j89481348645584_2_alg».proof.Proof.LibRowOps
import proofs.«173146_j89481348645584_2_alg».proof.Proof.Spec

noncomputable section

open scoped BigOperators

namespace Cert.KernelIdeal.HandValue

open Idealize.ShloMosaic Idealize.ShloMosaic.ValueIdx Cert.Spec
open Cert.KernelIdeal Cert.KernelIdeal.Gen
open Cert.Lib.RowOps

/-- Row p's Euclidean norm in a 512 × 512 block, clamped below at eps. -/
def bnrm (x : Vec Ideal S512x512 .f32) (p : Fin 512) : EReal :=
  max (Ideal.sqrt (∑ k : Fin 512, x (ix2 p k) * x (ix2 p k))) cEps

/-- The first block's column of clamped norms. -/
theorem k0_pay2_apply (v0 : Vec Ideal S512x512 .f32) (p : Fin 512) (z : Fin 1) :
    k0_pay2 (F := Ideal) v0 (ix2 p z) = bnrm v0 p := by
  unfold k0_pay2 bnrm
  refine congrArg₂ max (congrArg Ideal.sqrt ?_) rfl
  exact rowSumCol_apply (mulf v0 v0) reduces_S512x512_S512 (.inl rfl) rfl shapeCasts_S512_S512x1 p z

/-- The second block's column of clamped norms. -/
theorem k0_pay3_apply (v1 : Vec Ideal S512x512 .f32) (p : Fin 512) (z : Fin 1) :
    k0_pay3 (F := Ideal) v1 (ix2 p z) = bnrm v1 p := by
  unfold k0_pay3 bnrm
  refine congrArg₂ max (congrArg Ideal.sqrt ?_) rfl
  exact rowSumCol_apply (mulf v1 v1) reduces_S512x512_S512 (.inl rfl) rfl shapeCasts_S512_S512x1 p z

/-- The first block with each entry divided by its row's clamped norm. -/
theorem k0_pay4_apply (v0 : Vec Ideal S512x512 .f32) (p q : Fin 512) :
    k0_pay4 (F := Ideal) v0 (ix2 p q) = Ideal.div (v0 (ix2 p q)) (bnrm v0 p) := by
  unfold k0_pay4
  refine congrArg (Ideal.div (v0 (ix2 p q))) ?_
  exact (broadcastTo_a1_ab_apply (k0_pay2 (F := Ideal) v0) broadcasts_S512x1_S512x512 p q).trans (k0_pay2_apply v0 p 0)

/-- The second block likewise. -/
theorem k0_pay5_apply (v1 : Vec Ideal S512x512 .f32) (p q : Fin 512) :
    k0_pay5 (F := Ideal) v1 (ix2 p q) = Ideal.div (v1 (ix2 p q)) (bnrm v1 p) := by
  unfold k0_pay5
  refine congrArg (Ideal.div (v1 (ix2 p q))) ?_
  exact (broadcastTo_a1_ab_apply (k0_pay3 (F := Ideal) v1) broadcasts_S512x1_S512x512 p q).trans (k0_pay3_apply v1 p 0)

/-- The stored normalized blocks: the change of float format is the identity on the extended reals. -/
theorem k0_pay6_apply (v0 : Vec Ideal S512x512 .f32) (p q : Fin 512) :
    k0_pay6 (F := Ideal) v0 (ix2 p q) = Ideal.div (v0 (ix2 p q)) (bnrm v0 p) :=
  k0_pay4_apply v0 p q

theorem k0_pay7_apply (v1 : Vec Ideal S512x512 .f32) (p q : Fin 512) :
    k0_pay7 (F := Ideal) v1 (ix2 p q) = Ideal.div (v1 (ix2 p q)) (bnrm v1 p) :=
  k0_pay5_apply v1 p q

/-- The positive pair's column. -/
theorem k0_pay8_apply (v0 v1 : Vec Ideal S512x512 .f32) (p : Fin 512) (z : Fin 1) :
    k0_pay8 (F := Ideal) v0 v1 (ix2 p z)
      = Ideal.div (∑ k : Fin 512, v0 (ix2 p k) * v1 (ix2 p k)) (bnrm v0 p * bnrm v1 p) := by
  unfold k0_pay8
  refine congrArg₂ Ideal.div ?_ (congrArg₂ (· * ·) (k0_pay2_apply v0 p z) (k0_pay3_apply v1 p z))
  exact rowSumCol_apply (mulf v0 v1) reduces_S512x512_S512 (.inl rfl) rfl shapeCasts_S512_S512x1 p z

/-- The first block's self-similarity column: the sum of squares of the normalized row. -/
theorem k0_pay9_apply (v0 : Vec Ideal S512x512 .f32) (p : Fin 512) (z : Fin 1) :
    k0_pay9 (F := Ideal) v0 (ix2 p z)
      = ∑ k : Fin 512, Ideal.div (v0 (ix2 p k)) (bnrm v0 p) * Ideal.div (v0 (ix2 p k)) (bnrm v0 p) := by
  unfold k0_pay9
  refine (rowSumCol_apply (mulf (k0_pay4 (F := Ideal) v0) (k0_pay4 (F := Ideal) v0)) reduces_S512x512_S512 (.inl rfl) rfl
    shapeCasts_S512_S512x1 p z).trans ?_
  refine Finset.sum_congr rfl fun k _ => ?_
  exact congrArg₂ (· * ·) (k0_pay4_apply v0 p k) (k0_pay4_apply v0 p k)

/-- The second block's self-similarity column. -/
theorem k0_pay1_pay10_apply (v1 : Vec Ideal S512x512 .f32) (p : Fin 512) (z : Fin 1) :
    k0_pay1 (F := Ideal) (k0_pay10 (F := Ideal) v1) (ix2 p z)
      = ∑ k : Fin 512, Ideal.div (v1 (ix2 p k)) (bnrm v1 p) * Ideal.div (v1 (ix2 p k)) (bnrm v1 p) := by
  unfold k0_pay1 k0_pay10
  refine (rowSumCol_apply (mulf (k0_pay5 (F := Ideal) v1) (k0_pay5 (F := Ideal) v1)) reduces_S512x512_S512 (.inl rfl) rfl
    shapeCasts_S512_S512x1 p z).trans ?_
  refine Finset.sum_congr rfl fun k _ => ?_
  exact congrArg₂ (· * ·) (k0_pay5_apply v1 p k) (k0_pay5_apply v1 p k)

end Cert.KernelIdeal.HandValue

end
-- ==== Proof.KI.OutAt0.lean ====
/-
  Region 0: what one call of the row-normalizing body leaves in each of its five output blocks, element by element on
  the extended reals, as a function of the two input blocks. Each output block is written by one store covering the
  whole block, and each input block is read through the whole-block rectangle, so the block left is the store's payload
  of the input blocks themselves.
-/
import proofs.«173146_j89481348645584_2_alg».proof.Proof.KI.Body0
import proofs.«173146_j89481348645584_2_alg».proof.Proof.KI.PayAt0

noncomputable section

open scoped BigOperators

namespace Cert.KernelIdeal.HandValue

open Idealize.ShloMosaic Idealize.ShloMosaic.ValueIdx Cert.Spec
open Cert.KernelIdeal Cert.KernelIdeal.Gen Cert.KernelIdeal.Hand

/-- The whole-block rectangles start at the origin. -/
theorem off00 : (![0, 0] : Fin 2 → Nat) = fun _ => 0 := by
  funext a
  match a with
  | ⟨0, _⟩ => rfl
  | ⟨1, _⟩ => rfl

theorem out0_2_apply (x0 x1 : Vec Ideal S512x512 .f32) (p q : Fin 512) :
    out0_2 (F := Ideal) x0 x1 (ix2 p q) = Ideal.div (x0 (ix2 p q)) (bnrm x0 p) := by
  unfold out0_2
  rw [View.canon_unit_zero off00, View.ld_unit_zero (S := S512x512) off00]
  exact k0_pay6_apply x0 p q

theorem out0_3_apply (x0 x1 : Vec Ideal S512x512 .f32) (p q : Fin 512) :
    out0_3 (F := Ideal) x0 x1 (ix2 p q) = Ideal.div (x1 (ix2 p q)) (bnrm x1 p) := by
  unfold out0_3
  rw [View.canon_unit_zero off00, View.ld_unit_zero (S := S512x512) off00]
  exact k0_pay7_apply x1 p q

theorem out0_4_apply (x0 x1 : Vec Ideal S512x512 .f32) (p : Fin 512) (z : Fin 1) :
    out0_4 (F := Ideal) x0 x1 (ix2 p z)
      = Ideal.div (∑ k : Fin 512, x0 (ix2 p k) * x1 (ix2 p k)) (bnrm x0 p * bnrm x1 p) := by
  unfold out0_4
  rw [View.canon_unit_zero off00, View.ld_unit_zero (S := S512x512) off00, View.ld_unit_zero (S := S512x512) off00]
  exact k0_pay8_apply x0 x1 p z

theorem out0_5_apply (x0 x1 : Vec Ideal S512x512 .f32) (p : Fin 512) (z : Fin 1) :
    out0_5 (F := Ideal) x0 x1 (ix2 p z)
      = ∑ k : Fin 512, Ideal.div (x0 (ix2 p k)) (bnrm x0 p) * Ideal.div (x0 (ix2 p k)) (bnrm x0 p) := by
  unfold out0_5
  rw [View.canon_unit_zero off00, View.ld_unit_zero (S := S512x512) off00]
  exact k0_pay9_apply x0 p z

theorem out0_6_apply (x0 x1 : Vec Ideal S512x512 .f32) (p : Fin 512) (z : Fin 1) :
    out0_6 (F := Ideal) x0 x1 (ix2 p z)
      = ∑ k : Fin 512, Ideal.div (x1 (ix2 p k)) (bnrm x1 p) * Ideal.div (x1 (ix2 p k)) (bnrm x1 p) := by
  unfold out0_6
  rw [View.canon_unit_zero off00, View.ld_unit_zero (S := S512x512) off00]
  exact k0_pay1_pay10_apply x1 p z

end Cert.KernelIdeal.HandValue

end
-- ==== Proof.KI.Value0.lean ====
/-
  Region 0, from blocks to arrays. The normalizing kernel visits 8 blocks of 512 rows; at each it writes the two
  normalized blocks and three per-row columns. Every output array is therefore ONE function of the two argument
  arrays, row by row: the normalized rows (zn), the positive pair's similarity (pos) and the self-similarities (sel).
-/
import proofs.«173146_j89481348645584_2_alg».proof.Proof.KI.Body0
import proofs.«173146_j89481348645584_2_alg».proof.Proof.KI.OutAt0
import proofs.«173146_j89481348645584_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.Spec

variable (V : (c : Dev nD) → (b : Ref sig .tc) → Buf (Elt Ideal) ((c : Thread nD τ).loc b))

/-! ## Rows and blocks -/

/-- Row p of block t, when 4096 rows are cut into 8 blocks of 512. -/
def row0 (t : Fin cfg0.N) (p : Fin 512) : Fin 4096 :=
  ⟨t.val * 512 + p.val, by have := t.isLt; have h : cfg0.N = 8 := N_0; have := p.isLt; omega⟩

/-- An array of shape [4096, 512] as a matrix. -/
def mat (a : S4096x512.Idx → EReal) : Mat := fun r k => a (ix2 r k)

/-- Every window of region 0 moves down its array one block of 512 rows per grid point and never sideways. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Element (p, q) of block t of a [512, 512]-blocked window sits at row (t, p), column q of its array. -/
theorem emb0_0 (t : Fin cfg0.N) (p q : Fin 512) : ((cfg0.win 0).blk t).view.emb (ix2 p q) = ix2 (row0 t p) q := by
  obtain ⟨⟨e0, e1⟩, -⟩ := idx0 t
  funext a; apply Fin.ext
  match a with
  | ⟨0, _⟩ => show win0_0.index t (0 : Fin 2) * 512 + 1 * p.val = t.val * 512 + p.val; omega
  | ⟨1, _⟩ => show win0_0.index t (1 : Fin 2) * 512 + 1 * q.val = q.val; omega
theorem emb0_1 (t : Fin cfg0.N) (p q : Fin 512) : ((cfg0.win 1).blk t).view.emb (ix2 p q) = ix2 (row0 t p) q := by
  obtain ⟨-, ⟨e0, e1⟩, -⟩ := idx0 t
  funext a; apply Fin.ext
  match a with
  | ⟨0, _⟩ => show win0_1.index t (0 : Fin 2) * 512 + 1 * p.val = t.val * 512 + p.val; omega
  | ⟨1, _⟩ => show win0_1.index t (1 : Fin 2) * 512 + 1 * q.val = q.val; omega
theorem emb0_2 (t : Fin cfg0.N) (p q : Fin 512) : ((cfg0.win 2).blk t).view.emb (ix2 p q) = ix2 (row0 t p) q := by
  obtain ⟨-, -, ⟨e0, e1⟩, -⟩ := idx0 t
  funext a; apply Fin.ext
  match a with
  | ⟨0, _⟩ => show win0_2.index t (0 : Fin 2) * 512 + 1 * p.val = t.val * 512 + p.val; omega
  | ⟨1, _⟩ => show win0_2.index t (1 : Fin 2) * 512 + 1 * q.val = q.val; omega
theorem emb0_3 (t : Fin cfg0.N) (p q : Fin 512) : ((cfg0.win 3).blk t).view.emb (ix2 p q) = ix2 (row0 t p) q := by
  obtain ⟨-, -, -, ⟨e0, e1⟩, -⟩ := idx0 t
  funext a; apply Fin.ext
  match a with
  | ⟨0, _⟩ => show win0_3.index t (0 : Fin 2) * 512 + 1 * p.val = t.val * 512 + p.val; omega
  | ⟨1, _⟩ => show win0_3.index t (1 : Fin 2) * 512 + 1 * q.val = q.val; omega
/-- Element (p, 0) of block t of a [512, 1]-blocked window sits at row (t, p) of its column array. -/
theorem emb0_4 (t : Fin cfg0.N) (p : Fin 512) (z : Fin 1) : ((cfg0.win 4).blk t).view.emb (ix2 p z) = ix2 (row0 t p) z := by
  obtain ⟨-, -, -, -, ⟨e0, e1⟩, -⟩ := idx0 t
  funext a; apply Fin.ext
  match a with
  | ⟨0, _⟩ => show win0_4.index t (0 : Fin 2) * 512 + 1 * p.val = t.val * 512 + p.val; omega
  | ⟨1, _⟩ => show win0_4.index t (1 : Fin 2) * 1 + 1 * z.val = z.val; omega
theorem emb0_5 (t : Fin cfg0.N) (p : Fin 512) (z : Fin 1) : ((cfg0.win 5).blk t).view.emb (ix2 p z) = ix2 (row0 t p) z := by
  obtain ⟨-, -, -, -, -, ⟨e0, e1⟩, -⟩ := idx0 t
  funext a; apply Fin.ext
  match a with
  | ⟨0, _⟩ => show win0_5.index t (0 : Fin 2) * 512 + 1 * p.val = t.val * 512 + p.val; omega
  | ⟨1, _⟩ => show win0_5.index t (1 : Fin 2) * 1 + 1 * z.val = z.val; omega
theorem emb0_6 (t : Fin cfg0.N) (p : Fin 512) (z : Fin 1) : ((cfg0.win 6).blk t).view.emb (ix2 p z) = ix2 (row0 t p) z := by
  obtain ⟨-, -, -, -, -, -, ⟨e0, e1⟩⟩ := idx0 t
  funext a; apply Fin.ext
  match a with
  | ⟨0, _⟩ => show win0_6.index t (0 : Fin 2) * 512 + 1 * p.val = t.val * 512 + p.val; omega
  | ⟨1, _⟩ => show win0_6.index t (1 : Fin 2) * 1 + 1 * z.val = z.val; omega

/-- The two input blocks at point t, read at (p, k): rows (t, p) of the two argument arrays. -/
theorem iblk0_0_apply (c : Dev nD) (t : Fin cfg0.N) (p k : Fin 512) :
    iblk0 V c 0 t (ix2 p k) = V c main_arg0 (ix2 (row0 t p) k) := by
  show V c main_arg0 (((cfg0.win 0).blk t).view.emb (ix2 p k)) = _
  rw [emb0_0]
theorem iblk0_1_apply (c : Dev nD) (t : Fin cfg0.N) (p k : Fin 512) :
    iblk0 V c 1 t (ix2 p k) = V c main_arg1 (ix2 (row0 t p) k) := by
  show V c main_arg1 (((cfg0.win 1).blk t).view.emb (ix2 p k)) = _
  rw [emb0_1]

/-- The clamped norm of row p of the block at point t is the clamped norm of row (t, p) of the array. -/
theorem bnrm_iblk0_0 (c : Dev nD) (t : Fin cfg0.N) (p : Fin 512) :
    bnrm (iblk0 V c 0 t) p = nrm (mat (V c main_arg0)) (row0 t p) := by
  unfold bnrm nrm mat; simp only [iblk0_0_apply]
theorem bnrm_iblk0_1 (c : Dev nD) (t : Fin cfg0.N) (p : Fin 512) :
    bnrm (iblk0 V c 1 t) p = nrm (mat (V c main_arg1)) (row0 t p) := by
  unfold bnrm nrm mat; simp only [iblk0_1_apply]

/-! ## The five output arrays of region 0 as functions of the two arguments -/

def G0_2 (a0 : S4096x512.Idx → EReal) : S4096x512.Idx → EReal := fun i => zn (mat a0) (i 0) (i 1)
def G0_4 (a0 a1 : S4096x512.Idx → EReal) : S4096x1.Idx → EReal := fun i => pos (mat a0) (mat a1) (i 0)
def G0_5 (a0 : S4096x512.Idx → EReal) : S4096x1.Idx → EReal := fun i => sel (mat a0) (i 0)

theorem flushed0_2 (c : Dev nD) (t : Fin cfg0.N) :
    (dat0 V c).flushed 2 t = ((cfg0.win 2).blk t).view.read (Elt Ideal) (G0_2 (V c main_arg0)) := by
  show (cfg0.win 2).cut (grid0.coords t) ((dat0 V c).after 2 t) = _
  rw [after0_2]
  funext j
  obtain ⟨p, q, rfl⟩ : ∃ (p q : Fin 512), j = ix2 p q := ⟨j 0, j 1, eq_ix2 j⟩
  show out0_2 (iblk0 V c 0 t) (iblk0 V c 1 t) (ix2 p q) = G0_2 (V c main_arg0) (((cfg0.win 2).blk t).view.emb (ix2 p q))
  rw [out0_2_apply, emb0_2, bnrm_iblk0_0, iblk0_0_apply]
  rfl
theorem flushed0_3 (c : Dev nD) (t : Fin cfg0.N) :
    (dat0 V c).flushed 3 t = ((cfg0.win 3).blk t).view.read (Elt Ideal) (G0_2 (V c main_arg1)) := by
  show (cfg0.win 3).cut (grid0.coords t) ((dat0 V c).after 3 t) = _
  rw [after0_3]
  funext j
  obtain ⟨p, q, rfl⟩ : ∃ (p q : Fin 512), j = ix2 p q := ⟨j 0, j 1, eq_ix2 j⟩
  show out0_3 (iblk0 V c 0 t) (iblk0 V c 1 t) (ix2 p q) = G0_2 (V c main_arg1) (((cfg0.win 3).blk t).view.emb (ix2 p q))
  rw [out0_3_apply, emb0_3, bnrm_iblk0_1, iblk0_1_apply]
  rfl
theorem flushed0_4 (c : Dev nD) (t : Fin cfg0.N) :
    (dat0 V c).flushed 4 t = ((cfg0.win 4).blk t).view.read (Elt Ideal) (G0_4 (V c main_arg0) (V c main_arg1)) := by
  show (cfg0.win 4).cut (grid0.coords t) ((dat0 V c).after 4 t) = _
  rw [after0_4]
  funext j
  obtain ⟨p, z, rfl⟩ : ∃ (p : Fin 512) (z : Fin 1), j = ix2 p z := ⟨j 0, j 1, eq_ix2 j⟩
  show out0_4 (iblk0 V c 0 t) (iblk0 V c 1 t) (ix2 p z) = G0_4 (V c main_arg0) (V c main_arg1) (((cfg0.win 4).blk t).view.emb (ix2 p z))
  rw [out0_4_apply, emb0_4, bnrm_iblk0_0, bnrm_iblk0_1]
  simp only [iblk0_0_apply, iblk0_1_apply]
  rfl
theorem flushed0_5 (c : Dev nD) (t : Fin cfg0.N) :
    (dat0 V c).flushed 5 t = ((cfg0.win 5).blk t).view.read (Elt Ideal) (G0_5 (V c main_arg0)) := by
  show (cfg0.win 5).cut (grid0.coords t) ((dat0 V c).after 5 t) = _
  rw [after0_5]
  funext j
  obtain ⟨p, z, rfl⟩ : ∃ (p : Fin 512) (z : Fin 1), j = ix2 p z := ⟨j 0, j 1, eq_ix2 j⟩
  show out0_5 (iblk0 V c 0 t) (iblk0 V c 1 t) (ix2 p z) = G0_5 (V c main_arg0) (((cfg0.win 5).blk t).view.emb (ix2 p z))
  rw [out0_5_apply, emb0_5, bnrm_iblk0_0]
  simp only [iblk0_0_apply]
  rfl
theorem flushed0_6 (c : Dev nD) (t : Fin cfg0.N) :
    (dat0 V c).flushed 6 t = ((cfg0.win 6).blk t).view.read (Elt Ideal) (G0_5 (V c main_arg1)) := by
  show (cfg0.win 6).cut (grid0.coords t) ((dat0 V c).after 6 t) = _
  rw [after0_6]
  funext j
  obtain ⟨p, z, rfl⟩ : ∃ (p : Fin 512) (z : Fin 1), j = ix2 p z := ⟨j 0, j 1, eq_ix2 j⟩
  show out0_6 (iblk0 V c 0 t) (iblk0 V c 1 t) (ix2 p z) = G0_5 (V c main_arg1) (((cfg0.win 6).blk t).view.emb (ix2 p z))
  rw [out0_6_apply, emb0_6, bnrm_iblk0_1]
  simp only [iblk0_1_apply]
  rfl

/-! ## From the blocks to the arrays -/

theorem mem_blk0_2 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0_0).slice (win0_2.rect t)).set ↔ _
  rw [View.set_slice_whole, Rect.mem_set_unit]
  exact Iff.rfl
/-- The 8 blocks of 512 rows cover the array: row r is in block r / 512. -/
theorem cover0_2 (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  have hN : cfg0.N = 8 := N_0
  have ht : (i 0).val / 512 < cfg0.N := by omega
  refine ⟨⟨(i 0).val / 512, ht⟩, flush0_2 _, ?_⟩
  rw [mem_blk0_2]
  have e := idx0 ⟨(i 0).val / 512, ht⟩
  have e0 : win0_2.index ⟨(i 0).val / 512, ht⟩ (0 : Fin 2) = (i 0).val / 512 := e.2.2.1.1
  have e1 : win0_2.index ⟨(i 0).val / 512, ht⟩ (1 : Fin 2) = 0 := e.2.2.1.2
  intro a
  match a with
  | ⟨0, _⟩ => show win0_2.index ⟨(i 0).val / 512, ht⟩ (0 : Fin 2) * 512 ≤ (i 0).val ∧ (i 0).val < win0_2.index ⟨(i 0).val / 512, ht⟩ (0 : Fin 2) * 512 + 512; omega
  | ⟨1, _⟩ => show win0_2.index ⟨(i 0).val / 512, ht⟩ (1 : Fin 2) * 512 ≤ (i 1).val ∧ (i 1).val < win0_2.index ⟨(i 0).val / 512, ht⟩ (1 : Fin 2) * 512 + 512; omega
/-- The array after region 0. -/
theorem final0_2 (c : Dev nD) : (dat0 V c).arrAt 2 cfg0.N = G0_2 (V c main_arg0) :=
  (dat0 V c).arrAt_eq_of_cover 2 _ (fun t _ => flushed0_2 V c t) cover0_2

theorem mem_blk0_3 (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0_1).slice (win0_3.rect t)).set ↔ _
  rw [View.set_slice_whole, Rect.mem_set_unit]
  exact Iff.rfl
/-- The 8 blocks of 512 rows cover the array: row r is in block r / 512. -/
theorem cover0_3 (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  have hN : cfg0.N = 8 := N_0
  have ht : (i 0).val / 512 < cfg0.N := by omega
  refine ⟨⟨(i 0).val / 512, ht⟩, flush0_3 _, ?_⟩
  rw [mem_blk0_3]
  have e := idx0 ⟨(i 0).val / 512, ht⟩
  have e0 : win0_3.index ⟨(i 0).val / 512, ht⟩ (0 : Fin 2) = (i 0).val / 512 := e.2.2.2.1.1
  have e1 : win0_3.index ⟨(i 0).val / 512, ht⟩ (1 : Fin 2) = 0 := e.2.2.2.1.2
  intro a
  match a with
  | ⟨0, _⟩ => show win0_3.index ⟨(i 0).val / 512, ht⟩ (0 : Fin 2) * 512 ≤ (i 0).val ∧ (i 0).val < win0_3.index ⟨(i 0).val / 512, ht⟩ (0 : Fin 2) * 512 + 512; omega
  | ⟨1, _⟩ => show win0_3.index ⟨(i 0).val / 512, ht⟩ (1 : Fin 2) * 512 ≤ (i 1).val ∧ (i 1).val < win0_3.index ⟨(i 0).val / 512, ht⟩ (1 : Fin 2) * 512 + 512; omega
/-- The array after region 0. -/
theorem final0_3 (c : Dev nD) : (dat0 V c).arrAt 3 cfg0.N = G0_2 (V c main_arg1) :=
  (dat0 V c).arrAt_eq_of_cover 3 _ (fun t _ => flushed0_3 V c t) cover0_3

theorem mem_blk0_4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0_2).slice (win0_4.rect t)).set ↔ _
  rw [View.set_slice_whole, Rect.mem_set_unit]
  exact Iff.rfl
/-- The 8 blocks of 512 rows cover the array: row r is in block r / 512. -/
theorem cover0_4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 8 := N_0
  have ht : (i 0).val / 512 < cfg0.N := by omega
  refine ⟨⟨(i 0).val / 512, ht⟩, flush0_4 _, ?_⟩
  rw [mem_blk0_4]
  have e := idx0 ⟨(i 0).val / 512, ht⟩
  have e0 : win0_4.index ⟨(i 0).val / 512, ht⟩ (0 : Fin 2) = (i 0).val / 512 := e.2.2.2.2.1.1
  have e1 : win0_4.index ⟨(i 0).val / 512, ht⟩ (1 : Fin 2) = 0 := e.2.2.2.2.1.2
  intro a
  match a with
  | ⟨0, _⟩ => show win0_4.index ⟨(i 0).val / 512, ht⟩ (0 : Fin 2) * 512 ≤ (i 0).val ∧ (i 0).val < win0_4.index ⟨(i 0).val / 512, ht⟩ (0 : Fin 2) * 512 + 512; omega
  | ⟨1, _⟩ => show win0_4.index ⟨(i 0).val / 512, ht⟩ (1 : Fin 2) * 1 ≤ (i 1).val ∧ (i 1).val < win0_4.index ⟨(i 0).val / 512, ht⟩ (1 : Fin 2) * 1 + 1; omega
/-- The array after region 0. -/
theorem final0_4 (c : Dev nD) : (dat0 V c).arrAt 4 cfg0.N = G0_4 (V c main_arg0) (V c main_arg1) :=
  (dat0 V c).arrAt_eq_of_cover 4 _ (fun t _ => flushed0_4 V c t) cover0_4

theorem mem_blk0_5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v0_3).slice (win0_5.rect t)).set ↔ _
  rw [View.set_slice_whole, Rect.mem_set_unit]
  exact Iff.rfl
/-- The 8 blocks of 512 rows cover the array: row r is in block r / 512. -/
theorem cover0_5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 8 := N_0
  have ht : (i 0).val / 512 < cfg0.N := by omega
  refine ⟨⟨(i 0).val / 512, ht⟩, flush0_5 _, ?_⟩
  rw [mem_blk0_5]
  have e := idx0 ⟨(i 0).val / 512, ht⟩
  have e0 : win0_5.index ⟨(i 0).val / 512, ht⟩ (0 : Fin 2) = (i 0).val / 512 := e.2.2.2.2.2.1.1
  have e1 : win0_5.index ⟨(i 0).val / 512, ht⟩ (1 : Fin 2) = 0 := e.2.2.2.2.2.1.2
  intro a
  match a with
  | ⟨0, _⟩ => show win0_5.index ⟨(i 0).val / 512, ht⟩ (0 : Fin 2) * 512 ≤ (i 0).val ∧ (i 0).val < win0_5.index ⟨(i 0).val / 512, ht⟩ (0 : Fin 2) * 512 + 512; omega
  | ⟨1, _⟩ => show win0_5.index ⟨(i 0).val / 512, ht⟩ (1 : Fin 2) * 1 ≤ (i 1).val ∧ (i 1).val < win0_5.index ⟨(i 0).val / 512, ht⟩ (1 : Fin 2) * 1 + 1; omega
/-- The array after region 0. -/
theorem final0_5 (c : Dev nD) : (dat0 V c).arrAt 5 cfg0.N = G0_5 (V c main_arg0) :=
  (dat0 V c).arrAt_eq_of_cover 5 _ (fun t _ => flushed0_5 V c t) cover0_5

theorem mem_blk0_6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v0_4).slice (win0_6.rect t)).set ↔ _
  rw [View.set_slice_whole, Rect.mem_set_unit]
  exact Iff.rfl
/-- The 8 blocks of 512 rows cover the array: row r is in block r / 512. -/
theorem cover0_6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 8 := N_0
  have ht : (i 0).val / 512 < cfg0.N := by omega
  refine ⟨⟨(i 0).val / 512, ht⟩, flush0_6 _, ?_⟩
  rw [mem_blk0_6]
  have e := idx0 ⟨(i 0).val / 512, ht⟩
  have e0 : win0_6.index ⟨(i 0).val / 512, ht⟩ (0 : Fin 2) = (i 0).val / 512 := e.2.2.2.2.2.2.1
  have e1 : win0_6.index ⟨(i 0).val / 512, ht⟩ (1 : Fin 2) = 0 := e.2.2.2.2.2.2.2
  intro a
  match a with
  | ⟨0, _⟩ => show win0_6.index ⟨(i 0).val / 512, ht⟩ (0 : Fin 2) * 512 ≤ (i 0).val ∧ (i 0).val < win0_6.index ⟨(i 0).val / 512, ht⟩ (0 : Fin 2) * 512 + 512; omega
  | ⟨1, _⟩ => show win0_6.index ⟨(i 0).val / 512, ht⟩ (1 : Fin 2) * 1 ≤ (i 1).val ∧ (i 1).val < win0_6.index ⟨(i 0).val / 512, ht⟩ (1 : Fin 2) * 1 + 1; omega
/-- The array after region 0. -/
theorem final0_6 (c : Dev nD) : (dat0 V c).arrAt 6 cfg0.N = G0_5 (V c main_arg1) :=
  (dat0 V c).arrAt_eq_of_cover 6 _ (fun t _ => flushed0_6 V c t) cover0_6

end Cert.KernelIdeal.HandValue

end
-- ==== Proof.KI.PayAt1.lean ====
/-
  The row-sum body's arithmetic read element by element on the extended reals. For a 1024-row query block q and a
  512-row key chunk b, the chunk's contribution to query row p's row sum is
      sum over key rows s of  exp ((row p of q · row s of b) · 2) ,
  which the body computes as a product of q with the transpose of b, scaled by 2, exponentiated, lane-summed along
  axis 1 and kept as a [1024, 1] column. Each payload of the body adds such columns to the column it is given.
-/
import proofs.«173146_j89481348645584_2_alg».proof.Proof.Gen.KernelIdeal.Skeleton
import proofs.«173146_j89481348645584_2_alg».proof.Proof.LibRowOps
import proofs.«173146_j89481348645584_2_alg».proof.Proof.Spec

noncomputable section

open scoped BigOperators

namespace Cert.KernelIdeal.HandValue

open Idealize.ShloMosaic Idealize.ShloMosaic.ValueIdx Cert.Spec
open Cert.KernelIdeal Cert.KernelIdeal.Gen
open Cert.Lib.RowOps

/-- Key chunk b's contribution to query row p's row sum of exp (2 · similarity). -/
def chunkSum (q : FVec Ideal S1024x512 .bf16) (b : FVec Ideal S512x512 .bf16) (p : Fin 1024) : EReal :=
  ∑ s : Fin 512, Ideal.exp ((∑ k : Fin 512, q (ix2 p k) * b (ix2 s k)) * cTwo)

/-- The body's product of the query block with a key chunk's transpose, at (p, s): row p of q · row s of b. -/
theorem mm_apply (q : FVec Ideal S1024x512 .bf16) (b : FVec Ideal S512x512 .bf16) (p : Fin 1024) (s : Fin 512) :
    matmul (F := Ideal) dot_S1024x512_S512x512_S1024x512_1_1_0_0_n_n none q b (constant S1024x512 .f32 0x00000000#32) (ix2 p s)
      = ∑ k : Fin 512, q (ix2 p k) * b (ix2 s k) :=
  matmul_nt_apply dot_S1024x512_S512x512_S1024x512_1_1_0_0_n_n_wf none q b p s

/-- Scaled by 2 and exponentiated. -/
theorem expScaled_apply (q : FVec Ideal S1024x512 .bf16) (b : FVec Ideal S512x512 .bf16) (p : Fin 1024) (s : Fin 512) :
    exp (mulf (matmul (F := Ideal) dot_S1024x512_S512x512_S1024x512_1_1_0_0_n_n none q b (constant S1024x512 .f32 0x00000000#32))
        (broadcast S1024x512 (Scalar.ofBits .f32 0x40000000#32))) (ix2 p s)
      = Ideal.exp ((∑ k : Fin 512, q (ix2 p k) * b (ix2 s k)) * cTwo) :=
  congrArg Ideal.exp (congrArg₂ (· * ·) (mm_apply q b p s) rfl)

/-- Lane-summed and kept as a column: the chunk's contribution. -/
theorem chunk_apply (q : FVec Ideal S1024x512 .bf16) (b : FVec Ideal S512x512 .bf16) (p : Fin 1024) (z : Fin 1) :
    shapeCast S1024x1 (multiReduction (F := Ideal) .add [1] S1024
        (exp (mulf (matmul (F := Ideal) dot_S1024x512_S512x512_S1024x512_1_1_0_0_n_n none q b (constant S1024x512 .f32 0x00000000#32))
          (broadcast S1024x512 (Scalar.ofBits .f32 0x40000000#32))))
        0x00000000#32 reduces_S1024x512_S1024 (.inl rfl) rfl) shapeCasts_S1024_S1024x1 (ix2 p z)
      = chunkSum q b p :=
  (rowSumCol_apply _ reduces_S1024x512_S1024 (.inl rfl) rfl shapeCasts_S1024_S1024x1 p z).trans
    (Finset.sum_congr rfl fun s _ => expScaled_apply q b p s)

/-- A shape cast to the same shape is the identity, so a chunk's contribution does not see it. -/
theorem chunkSum_cast (q : FVec Ideal S1024x512 .bf16) (b : FVec Ideal S512x512 .bf16) (p : Fin 1024) :
    chunkSum q (shapeCast S512x512 b shapeCasts_S512x512_S512x512) p = chunkSum q b p := by
  rw [shapeCast_self]

/-- The query block as the body holds it. -/
theorem k1_pay2_eq (v0 : Vec Ideal S1024x512 .bf16) : k1_pay2 (F := Ideal) v0 = v0 := by
  unfold k1_pay2; exact shapeCast_self v0 _

theorem k1_pay7_eq (v : Vec Ideal S512x512 .bf16) : k1_pay7 (F := Ideal) v = v := by
  unfold k1_pay7; exact shapeCast_self v _

/-- The first one and a half chunks, from the zero column. -/
theorem k1_pay3_apply (v0 : Vec Ideal S1024x512 .bf16) (a b c : Vec Ideal S512x512 .bf16) (p : Fin 1024) (z : Fin 1) :
    k1_pay3 (F := Ideal) v0 a b c (ix2 p z) = 0 + chunkSum v0 a p + chunkSum v0 b p + chunkSum v0 c p := by
  have e : k1_pay3 (F := Ideal) v0 a b c (ix2 p z)
      = Ideal.ofBits .f32 0x00000000#32
        + chunkSum (k1_pay2 (F := Ideal) v0) (shapeCast S512x512 a shapeCasts_S512x512_S512x512) p
        + chunkSum (k1_pay2 (F := Ideal) v0) (shapeCast S512x512 b shapeCasts_S512x512_S512x512) p
        + chunkSum (k1_pay2 (F := Ideal) v0) (shapeCast S512x512 c shapeCasts_S512x512_S512x512) p := by
    unfold k1_pay3
    exact congrArg₂ (· + ·) (congrArg₂ (· + ·) (congrArg₂ (· + ·) rfl (chunk_apply _ _ p z)) (chunk_apply _ _ p z))
      (chunk_apply _ _ p z)
  rw [e, k1_pay2_eq, chunkSum_cast, chunkSum_cast, chunkSum_cast, Ideal.ofBits_zero_f32]

/-- The second chunk's second half before its lane sum. -/
theorem k1_pay4_apply (v0 : Vec Ideal S1024x512 .bf16) (b : Vec Ideal S512x512 .bf16) (p : Fin 1024) (s : Fin 512) :
    k1_pay4 (F := Ideal) v0 b (ix2 p s) = Ideal.exp ((∑ k : Fin 512, v0 (ix2 p k) * b (ix2 s k)) * cTwo) := by
  have e : k1_pay4 (F := Ideal) v0 b (ix2 p s)
      = Ideal.exp ((∑ k : Fin 512, k1_pay2 (F := Ideal) v0 (ix2 p k)
          * shapeCast S512x512 b shapeCasts_S512x512_S512x512 (ix2 s k)) * cTwo) := by
    unfold k1_pay4
    exact expScaled_apply _ _ p s
  rw [e, k1_pay2_eq, shapeCast_self]

/-- Its lane sum is the chunk's contribution. -/
theorem k1_pay4_rowSum (v0 : Vec Ideal S1024x512 .bf16) (b : Vec Ideal S512x512 .bf16) (p : Fin 1024) :
    ∑ s : Fin 512, k1_pay4 (F := Ideal) v0 b (ix2 p s) = chunkSum v0 b p :=
  Finset.sum_congr rfl fun s _ => k1_pay4_apply v0 b p s

/-- The pending lane sum and two more chunks, added to the column given. -/
theorem k1_pay5_apply (v1 : FVec Ideal S1024x512 .bf16) (v34 : FVec Ideal S1024x1 .f32) (v35 : FVec Ideal S1024x512 .f32)
    (a b c d : Vec Ideal S512x512 .bf16) (p : Fin 1024) (z : Fin 1) :
    k1_pay5 (F := Ideal) v1 v34 v35 a b c d (ix2 p z)
      = v34 (ix2 p z) + (∑ s : Fin 512, v35 (ix2 p s)) + chunkSum v1 a p + chunkSum v1 b p + chunkSum v1 c p + chunkSum v1 d p := by
  have e : k1_pay5 (F := Ideal) v1 v34 v35 a b c d (ix2 p z)
      = v34 (ix2 p z) + (∑ s : Fin 512, v35 (ix2 p s))
        + chunkSum v1 (shapeCast S512x512 a shapeCasts_S512x512_S512x512) p
        + chunkSum v1 (shapeCast S512x512 b shapeCasts_S512x512_S512x512) p
        + chunkSum v1 (shapeCast S512x512 c shapeCasts_S512x512_S512x512) p
        + chunkSum v1 (shapeCast S512x512 d shapeCasts_S512x512_S512x512) p := by
    unfold k1_pay5
    exact congrArg₂ (· + ·) (congrArg₂ (· + ·) (congrArg₂ (· + ·) (congrArg₂ (· + ·) (congrArg₂ (· + ·) rfl
      (rowSumCol_apply v35 reduces_S1024x512_S1024 (.inl rfl) rfl shapeCasts_S1024_S1024x1 p z))
      (chunk_apply _ _ p z)) (chunk_apply _ _ p z)) (chunk_apply _ _ p z)) (chunk_apply _ _ p z)
  rw [e, chunkSum_cast, chunkSum_cast, chunkSum_cast, chunkSum_cast]

/-- Two more chunks added to the column given. -/
theorem k1_pay6_apply (v1 : FVec Ideal S1024x512 .bf16) (v74 : FVec Ideal S1024x1 .f32)
    (a b c d : Vec Ideal S512x512 .bf16) (p : Fin 1024) (z : Fin 1) :
    k1_pay6 (F := Ideal) v1 v74 a b c d (ix2 p z)
      = v74 (ix2 p z) + chunkSum v1 a p + chunkSum v1 b p + chunkSum v1 c p + chunkSum v1 d p := by
  have e : k1_pay6 (F := Ideal) v1 v74 a b c d (ix2 p z)
      = v74 (ix2 p z)
        + chunkSum v1 (shapeCast S512x512 a shapeCasts_S512x512_S512x512) p
        + chunkSum v1 (shapeCast S512x512 b shapeCasts_S512x512_S512x512) p
        + chunkSum v1 (shapeCast S512x512 c shapeCasts_S512x512_S512x512) p
        + chunkSum v1 (shapeCast S512x512 d shapeCasts_S512x512_S512x512) p := by
    unfold k1_pay6
    exact congrArg₂ (· + ·) (congrArg₂ (· + ·) (congrArg₂ (· + ·) (congrArg₂ (· + ·) rfl
      (chunk_apply _ _ p z)) (chunk_apply _ _ p z)) (chunk_apply _ _ p z)) (chunk_apply _ _ p z)
  rw [e, chunkSum_cast, chunkSum_cast, chunkSum_cast, chunkSum_cast]

/-- The last two chunks (the first key half of the seventh already cast) added to the column given: the stored column. -/
theorem k1_pay1_apply (v1 : FVec Ideal S1024x512 .bf16) (v110 : FVec Ideal S1024x1 .f32) (v112 : FVec Ideal S512x512 .bf16)
    (b c d : Vec Ideal S512x512 .bf16) (p : Fin 1024) (z : Fin 1) :
    k1_pay1 (F := Ideal) v1 v110 v112 b c d (ix2 p z)
      = v110 (ix2 p z) + chunkSum v1 v112 p + chunkSum v1 b p + chunkSum v1 c p + chunkSum v1 d p := by
  have e : k1_pay1 (F := Ideal) v1 v110 v112 b c d (ix2 p z)
      = v110 (ix2 p z)
        + chunkSum v1 v112 p
        + chunkSum v1 (shapeCast S512x512 b shapeCasts_S512x512_S512x512) p
        + chunkSum v1 (shapeCast S512x512 c shapeCasts_S512x512_S512x512) p
        + chunkSum v1 (shapeCast S512x512 d shapeCasts_S512x512_S512x512) p := by
    unfold k1_pay1
    exact congrArg₂ (· + ·) (congrArg₂ (· + ·) (congrArg₂ (· + ·) (congrArg₂ (· + ·) rfl
      (chunk_apply _ _ p z)) (chunk_apply _ _ p z)) (chunk_apply _ _ p z)) (chunk_apply _ _ p z)
  rw [e, chunkSum_cast, chunkSum_cast, chunkSum_cast]

end Cert.KernelIdeal.HandValue

end
-- ==== Proof.LibTileSum.lean ====
/- Regrouping a sum over n = a · b consecutive positions into a tiles of b, and the running sum over the tiles:
   only associativity and commutativity of + (any additive commutative monoid; used on the extended reals). -/
import Mathlib.Algebra.BigOperators.Fin
import Mathlib.Algebra.BigOperators.Intervals

open scoped BigOperators

namespace Cert.Lib.TileSum

variable {M : Type*} [AddCommMonoid M]

/-- Position c of tile j is below a · b. -/
theorem tile_lt {a b : ℕ} {j c : ℕ} (hj : j < a) (hc : c < b) : j * b + c < a * b :=
  calc j * b + c < j * b + b := Nat.add_lt_add_left hc _
    _ = (j + 1) * b := (Nat.succ_mul j b).symm
    _ ≤ a * b := Nat.mul_le_mul_right b hj

/-- The first a · b positions, tile by tile: position j · b + c is place c of tile j. -/
theorem sum_range_tiles (a b : ℕ) (h : ℕ → M) :
    ∑ i ∈ Finset.range (a * b), h i = ∑ j ∈ Finset.range a, ∑ c : Fin b, h (j * b + c.val) := by
  induction a with
  | zero => simp
  | succ a ih =>
    rw [Nat.succ_mul, Finset.sum_range_add, ih, Finset.sum_range_succ,
      Fin.sum_univ_eq_sum_range (fun x => h (a * b + x)) b]

/-- A sum over Fin (a · b) of a function of the position is the sum over the a tiles of the tile's b places. -/
theorem sum_tiles (a b : ℕ) (h : ℕ → M) :
    ∑ q : Fin (a * b), h q.val = ∑ j ∈ Finset.range a, ∑ c : Fin b, h (j * b + c.val) := by
  rw [Fin.sum_univ_eq_sum_range h (a * b)]; exact sum_range_tiles a b h

/-- The same over Fin n for n = a · b given as an equation (so that a literal n need not be spelt as a product). -/
theorem sum_tiles_of_eq (n a b : ℕ) (hn : n = a * b) (h : ℕ → M) :
    ∑ q : Fin n, h q.val = ∑ j ∈ Finset.range a, ∑ c : Fin b, h (j * b + c.val) := by
  subst hn; exact sum_tiles a b h

/-- The same with both sides indexed by Fin: f at place c of tile j is f at position j · b + c. -/
theorem sum_tiles_fin (n a b : ℕ) (hn : n = a * b) (f : Fin n → M) :
    ∑ q : Fin n, f q = ∑ j : Fin a, ∑ c : Fin b, f ⟨j.val * b + c.val, hn ▸ tile_lt j.isLt c.isLt⟩ := by
  subst hn
  have key := sum_tiles a b (fun i => if hi : i < a * b then f ⟨i, hi⟩ else 0)
  rw [← Fin.sum_univ_eq_sum_range (fun j => ∑ c : Fin b, (fun i => if hi : i < a * b then f ⟨i, hi⟩ else 0) (j * b + c.val)) a] at key
  refine (Finset.sum_congr rfl fun q _ => ?_).trans (key.trans (Finset.sum_congr rfl fun j _ => Finset.sum_congr rfl fun c _ => ?_))
  · rw [dif_pos q.isLt]
  · exact dif_pos (tile_lt j.isLt c.isLt)

/-- A running sum from z over a list of tiles, each tile's own sum started from z too, is z plus the tiles' sums,
    when z is the zero (as the zero word of a float format is, read as an extended real). -/
theorem foldl_tiles_list {ι : Type*} (z : M) (hz : z = 0) (G : ι → M) (L : List ι) :
    L.foldl (fun acc j => acc + (z + G j)) z = z + (L.map G).sum := by
  subst hz
  suffices H : ∀ acc : M, L.foldl (fun acc j => acc + (0 + G j)) acc = acc + (L.map G).sum from H 0
  induction L with
  | nil => intro acc; simp
  | cons j L ih => intro acc; rw [List.foldl_cons, ih, List.map_cons, List.sum_cons, zero_add, add_assoc]

/-- The running sum over the tiles 0 … a − 1 in order. -/
theorem foldl_tiles_range (z : M) (hz : z = 0) (a : ℕ) (G : ℕ → M) :
    (List.range a).foldl (fun acc j => acc + (z + G j)) z = z + ∑ j ∈ Finset.range a, G j := by
  rw [foldl_tiles_list z hz G, ← Fin.sum_univ_eq_sum_range G a, Fin.sum_univ_def,
    ← List.map_coe_finRange_eq_range, List.map_map]
  rfl

/-- The tiled running sum is the whole sum: folding, over the tiles j = 0 … a − 1, acc + (z + Σ_c h (j·b + c))
    from z gives z + Σ_q h q over all n = a · b positions. -/
theorem foldl_tiles (n a b : ℕ) (hn : n = a * b) (z : M) (hz : z = 0) (h : ℕ → M) :
    (List.range a).foldl (fun acc j => acc + (z + ∑ c : Fin b, h (j * b + c.val))) z = z + ∑ q : Fin n, h q.val := by
  rw [foldl_tiles_range z hz a (fun j => ∑ c : Fin b, h (j * b + c.val)), sum_tiles_of_eq n a b hn h]

end Cert.Lib.TileSum
-- ==== Proof.KI.RowSumOps.lean ====
/-
  The row-sum bodies' contributions regrouped. Both row-sum regions walk a 4096-row key array in eight chunks of 512
  rows, and a chunk's contribution to a query row is the sum over the chunk's rows s of exp(2 · ⟨query row, key row s⟩).
  Here: a chunk load of a key array at an index, so that the contribution of the chunk loaded from row o on is the sum
  of the key rows' terms over rows o .. o + 511; the eight chunk sums of one array regrouped into one sum over its 4096
  rows; and the sixteen contributions, added in the bodies' order, separated by key array.
-/
import proofs.«173146_j89481348645584_2_alg».proof.Proof.KI.PayAt1
import proofs.«173146_j89481348645584_2_alg».proof.Proof.LibTileSum
import Idealize.ShloMosaic.Lib.Pipeline.FrameBody
import Idealize.ShloMosaic.Lib.Pipeline.Value

set_option maxRecDepth 16384

noncomputable section

open scoped BigOperators

namespace Cert.KernelIdeal.HandValue

open Cert.KernelIdeal Cert.KernelIdeal.Gen
open Idealize.ShloMosaic Idealize.ShloMosaic.ValueIdx Cert.Spec

/-- Key row s's term of query row p: exp(2 · ⟨query row p, key row s⟩). -/
def rowTerm (x0 : Vec Ideal S1024x512 .bf16) (X : Vec Ideal S4096x512 .bf16) (p : Fin 1024) (s : Fin 4096) : EReal :=
  Ideal.exp ((∑ k : Fin 512, x0 (ix2 p k) * X (ix2 s k)) * cTwo)

/-- The offsets of a whole-block access, however the zeros are spelt. -/
theorem zeros2 : (![0, 0] : Fin 2 → ℕ) = fun _ => 0 := by
  funext a
  match a with
  | ⟨0, _⟩ => rfl
  | ⟨1, _⟩ => rfl

/-- A load of 512 rows of a key array from row o on reads, at (s, k), the array at row o + s. -/
theorem ld_rows (X : Vec Ideal S4096x512 .bf16) (o : ℕ)
    (inb : ∀ a, (![o, 0] : Fin 2 → ℕ) a + S512x512.size a ≤ S4096x512.size a) (s k : Fin 512) (h : o + s.val < 4096) :
    View.ld X (Rect.unit (s := S4096x512) ![o, 0] S512x512.size inb) (ix2 s k) = X (ix2 ⟨o + s.val, h⟩ k) := by
  show X ((Rect.unit (s := S4096x512) ![o, 0] S512x512.size inb).emb (ix2 s k)) = _
  refine congrArg X (funext fun a => Fin.ext ?_)
  match a with
  | ⟨0, _⟩ => show o + 1 * s.val = o + s.val; omega
  | ⟨1, _⟩ => show 0 + 1 * k.val = k.val; omega

/-- So the contribution of the chunk loaded from row o on, for a query that reads the query block x0, is the sum of
    the key rows' terms over rows o .. o + 511. -/
theorem chunk_rows (x0 : Vec Ideal S1024x512 .bf16) (q : FVec Ideal S1024x512 .bf16) (hq : ∀ p k, q (ix2 p k) = x0 (ix2 p k))
    (X : Vec Ideal S4096x512 .bf16) (o : ℕ) (inb : ∀ a, (![o, 0] : Fin 2 → ℕ) a + S512x512.size a ≤ S4096x512.size a)
    (ho : o + 512 ≤ 4096) (p : Fin 1024) :
    chunkSum q (View.ld X (Rect.unit (s := S4096x512) ![o, 0] S512x512.size inb)) p
      = ∑ c : Fin 512, rowTerm x0 X p ⟨o + c.val, by have := c.isLt; omega⟩ := by
  unfold chunkSum rowTerm
  refine Finset.sum_congr rfl fun c _ => congrArg (fun t => Ideal.exp (t * cTwo)) (Finset.sum_congr rfl fun k _ => ?_)
  rw [hq p k, ld_rows X o inb c k (by have := c.isLt; omega)]

/-- A sum over the 4096 rows, chunk by chunk. -/
theorem sum_chunks (f : Fin 4096 → EReal) :
    ∑ s : Fin 4096, f s
      = (((((((∑ c : Fin 512, f ⟨0 + c.val, by have := c.isLt; omega⟩) + ∑ c : Fin 512, f ⟨512 + c.val, by have := c.isLt; omega⟩)
          + ∑ c : Fin 512, f ⟨1024 + c.val, by have := c.isLt; omega⟩) + ∑ c : Fin 512, f ⟨1536 + c.val, by have := c.isLt; omega⟩)
          + ∑ c : Fin 512, f ⟨2048 + c.val, by have := c.isLt; omega⟩) + ∑ c : Fin 512, f ⟨2560 + c.val, by have := c.isLt; omega⟩)
          + ∑ c : Fin 512, f ⟨3072 + c.val, by have := c.isLt; omega⟩) + ∑ c : Fin 512, f ⟨3584 + c.val, by have := c.isLt; omega⟩ := by
  rw [Cert.Lib.TileSum.sum_tiles_fin 4096 8 512 rfl f, Fin.sum_univ_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;>
  exact Finset.sum_congr rfl fun c _ => congrArg f (Fin.ext rfl)

/-- Sixteen terms added in the bodies' order — chunk by chunk, first array then second, from zero — are the first
    array's eight plus the second's eight. -/
theorem interleave16 {M : Type} [AddCommMonoid M] (a0 b0 a1 b1 a2 b2 a3 b3 a4 b4 a5 b5 a6 b6 a7 b7 : M) :
    ((((((((((((((((0 + a0) + b0) + a1) + b1) + a2) + b2) + a3) + b3) + a4) + b4) + a5) + b5) + a6) + b6) + a7) + b7)
      = (((((((a0 + a1) + a2) + a3) + a4) + a5) + a6) + a7) + (((((((b0 + b1) + b2) + b3) + b4) + b5) + b6) + b7) := by
  rw [zero_add]; abel

/-- The whole row sum: for a query that reads the query block x0, the sixteen chunk contributions added in the bodies'
    order are the sum over all rows of the first key array plus the sum over all rows of the second. -/
theorem rowsum_total (x0 : Vec Ideal S1024x512 .bf16) (q q' : FVec Ideal S1024x512 .bf16)
    (hq : ∀ p k, q (ix2 p k) = x0 (ix2 p k)) (hq' : ∀ p k, q' (ix2 p k) = x0 (ix2 p k))
    (X1 X2 : Vec Ideal S4096x512 .bf16) (p : Fin 1024)
    (h0 : ∀ a, (![0, 0] : Fin 2 → ℕ) a + S512x512.size a ≤ S4096x512.size a)
    (h1 : ∀ a, (![512, 0] : Fin 2 → ℕ) a + S512x512.size a ≤ S4096x512.size a)
    (h2 : ∀ a, (![1024, 0] : Fin 2 → ℕ) a + S512x512.size a ≤ S4096x512.size a)
    (h3 : ∀ a, (![1536, 0] : Fin 2 → ℕ) a + S512x512.size a ≤ S4096x512.size a)
    (h4 : ∀ a, (![2048, 0] : Fin 2 → ℕ) a + S512x512.size a ≤ S4096x512.size a)
    (h5 : ∀ a, (![2560, 0] : Fin 2 → ℕ) a + S512x512.size a ≤ S4096x512.size a)
    (h6 : ∀ a, (![3072, 0] : Fin 2 → ℕ) a + S512x512.size a ≤ S4096x512.size a)
    (h7 : ∀ a, (![3584, 0] : Fin 2 → ℕ) a + S512x512.size a ≤ S4096x512.size a) :
    (((((((((((((((0 + chunkSum q' (View.ld X1 (Rect.unit (s := S4096x512) ![0, 0] S512x512.size h0)) p)
      + chunkSum q' (View.ld X2 (Rect.unit (s := S4096x512) ![0, 0] S512x512.size h0)) p)
      + chunkSum q' (View.ld X1 (Rect.unit (s := S4096x512) ![512, 0] S512x512.size h1)) p)
      + chunkSum q' (View.ld X2 (Rect.unit (s := S4096x512) ![512, 0] S512x512.size h1)) p)
      + chunkSum q (View.ld X1 (Rect.unit (s := S4096x512) ![1024, 0] S512x512.size h2)) p)
      + chunkSum q (View.ld X2 (Rect.unit (s := S4096x512) ![1024, 0] S512x512.size h2)) p)
      + chunkSum q (View.ld X1 (Rect.unit (s := S4096x512) ![1536, 0] S512x512.size h3)) p)
      + chunkSum q (View.ld X2 (Rect.unit (s := S4096x512) ![1536, 0] S512x512.size h3)) p)
      + chunkSum q (View.ld X1 (Rect.unit (s := S4096x512) ![2048, 0] S512x512.size h4)) p)
      + chunkSum q (View.ld X2 (Rect.unit (s := S4096x512) ![2048, 0] S512x512.size h4)) p)
      + chunkSum q (View.ld X1 (Rect.unit (s := S4096x512) ![2560, 0] S512x512.size h5)) p)
      + chunkSum q (View.ld X2 (Rect.unit (s := S4096x512) ![2560, 0] S512x512.size h5)) p)
      + chunkSum q (View.ld X1 (Rect.unit (s := S4096x512) ![3072, 0] S512x512.size h6)) p)
      + chunkSum q (View.ld X2 (Rect.unit (s := S4096x512) ![3072, 0] S512x512.size h6)) p)
      + chunkSum q (View.ld X1 (Rect.unit (s := S4096x512) ![3584, 0] S512x512.size h7)) p)
      + chunkSum q (View.ld X2 (Rect.unit (s := S4096x512) ![3584, 0] S512x512.size h7)) p
      = (∑ s : Fin 4096, Ideal.exp ((∑ k : Fin 512, x0 (ix2 p k) * X1 (ix2 s k)) * cTwo))
        + ∑ s : Fin 4096, Ideal.exp ((∑ k : Fin 512, x0 (ix2 p k) * X2 (ix2 s k)) * cTwo) := by
  rw [chunk_rows x0 q' hq' X1 0 h0 (by omega) p, chunk_rows x0 q' hq' X2 0 h0 (by omega) p,
    chunk_rows x0 q' hq' X1 512 h1 (by omega) p, chunk_rows x0 q' hq' X2 512 h1 (by omega) p,
    chunk_rows x0 q hq X1 1024 h2 (by omega) p, chunk_rows x0 q hq X2 1024 h2 (by omega) p,
    chunk_rows x0 q hq X1 1536 h3 (by omega) p, chunk_rows x0 q hq X2 1536 h3 (by omega) p,
    chunk_rows x0 q hq X1 2048 h4 (by omega) p, chunk_rows x0 q hq X2 2048 h4 (by omega) p,
    chunk_rows x0 q hq X1 2560 h5 (by omega) p, chunk_rows x0 q hq X2 2560 h5 (by omega) p,
    chunk_rows x0 q hq X1 3072 h6 (by omega) p, chunk_rows x0 q hq X2 3072 h6 (by omega) p,
    chunk_rows x0 q hq X1 3584 h7 (by omega) p, chunk_rows x0 q hq X2 3584 h7 (by omega) p]
  exact (interleave16 _ _ _ _ _ _ _ _ _ _ _ _ _ _ _ _).trans
    (congrArg₂ (· + ·) (sum_chunks (rowTerm x0 X1 p)).symm (sum_chunks (rowTerm x0 X2 p)).symm)

end Cert.KernelIdeal.HandValue

end
-- ==== Proof.KI.OutAt1.lean ====
/-
  What region 1's row-sum body leaves in its output block, read at an index over the extended reals: at row p, the sum
  over all 4096 rows s of the first key array of exp(2 · ⟨query row p, key row s⟩) plus the same sum over the second key
  array. The stored column is unfolded stage by stage along the body's payloads, each stage read at the index as the
  column it was given plus its chunks' contributions, and the sixteen contributions are regrouped.
-/
import proofs.«173146_j89481348645584_2_alg».proof.Proof.KI.Body1
import proofs.«173146_j89481348645584_2_alg».proof.Proof.KI.PayAt1
import proofs.«173146_j89481348645584_2_alg».proof.Proof.KI.RowSumOps
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx Cert.Spec

/-- The query block as loaded reads the block, -/
theorem ldq1_apply (x0 : Vec Ideal S1024x512 .bf16) (p : Fin 1024) (k : Fin 512) :
    View.ld x0 r1_q (ix2 p k) = x0 (ix2 p k) :=
  congrFun (View.ld_unit_zero zeros2 _ x0) (ix2 p k)

/-- and so does the query as the matrix unit takes it. -/
theorem qv1_apply (x0 : Vec Ideal S1024x512 .bf16) (p : Fin 1024) (k : Fin 512) :
    qv1 (F := Ideal) x0 (ix2 p k) = x0 (ix2 p k) := by
  unfold qv1
  rw [k1_pay2_eq]
  exact ldq1_apply x0 p k

/-- The stored column is the last stage's. -/
theorem out1_3_eq (x0 : Vec Ideal S1024x512 .bf16) (x1 x2 : Vec Ideal S4096x512 .bf16) :
    out1_3 (F := Ideal) x0 x1 x2
      = k1_pay1 (F := Ideal) (qv1 x0) (acc1_c x0 x1 x2) (k1_pay7 (View.ld x1 r1_k6)) (View.ld x2 r1_k6) (View.ld x1 r1_k7) (View.ld x2 r1_k7) := by
  unfold out1_3
  exact View.canon_unit_zero zeros2 _ _

/-- What region 1's body leaves at row p of its output block. -/
theorem out1_3_apply (x0 : Vec Ideal S1024x512 .bf16) (x1 x2 : Vec Ideal S4096x512 .bf16) (p : Fin 1024) (z : Fin 1) :
    out1_3 (F := Ideal) x0 x1 x2 (ix2 p z)
      = (∑ s : Fin 4096, Ideal.exp ((∑ k : Fin 512, x0 (ix2 p k) * x1 (ix2 s k)) * cTwo)) + ∑ s : Fin 4096, Ideal.exp ((∑ k : Fin 512, x0 (ix2 p k) * x2 (ix2 s k)) * cTwo) := by
  -- the stages, each at the index
  have s1 : out1_3 (F := Ideal) x0 x1 x2 (ix2 p z)
      = acc1_c (F := Ideal) x0 x1 x2 (ix2 p z) + chunkSum (qv1 x0) (View.ld x1 r1_k6) p + chunkSum (qv1 x0) (View.ld x2 r1_k6) p
        + chunkSum (qv1 x0) (View.ld x1 r1_k7) p + chunkSum (qv1 x0) (View.ld x2 r1_k7) p := by
    rw [out1_3_eq]
    refine (k1_pay1_apply _ _ _ _ _ _ p z).trans ?_
    rw [k1_pay7_eq]
  have s2 : acc1_c (F := Ideal) x0 x1 x2 (ix2 p z)
      = acc1_b (F := Ideal) x0 x1 x2 (ix2 p z) + chunkSum (qv1 x0) (View.ld x1 r1_k4) p + chunkSum (qv1 x0) (View.ld x2 r1_k4) p
        + chunkSum (qv1 x0) (View.ld x1 r1_k5) p + chunkSum (qv1 x0) (View.ld x2 r1_k5) p := by
    unfold acc1_c
    exact k1_pay6_apply _ _ _ _ _ _ p z
  have s3 : acc1_b (F := Ideal) x0 x1 x2 (ix2 p z)
      = acc1_a (F := Ideal) x0 x1 x2 (ix2 p z) + (∑ s : Fin 512, exp1_a (F := Ideal) x0 x2 (ix2 p s))
        + chunkSum (qv1 x0) (View.ld x1 r1_k2) p + chunkSum (qv1 x0) (View.ld x2 r1_k2) p
        + chunkSum (qv1 x0) (View.ld x1 r1_k3) p + chunkSum (qv1 x0) (View.ld x2 r1_k3) p := by
    unfold acc1_b
    exact k1_pay5_apply _ _ _ _ _ _ _ p z
  have s4 : acc1_a (F := Ideal) x0 x1 x2 (ix2 p z)
      = 0 + chunkSum (View.ld x0 r1_q) (View.ld x1 r1_k0) p + chunkSum (View.ld x0 r1_q) (View.ld x2 r1_k0) p
        + chunkSum (View.ld x0 r1_q) (View.ld x1 r1_k1) p := by
    unfold acc1_a
    exact k1_pay3_apply _ _ _ _ p z
  have s5 : (∑ s : Fin 512, exp1_a (F := Ideal) x0 x2 (ix2 p s)) = chunkSum (View.ld x0 r1_q) (View.ld x2 r1_k1) p := by
    unfold exp1_a
    exact k1_pay4_rowSum _ _ p
  rw [s1, s2, s3, s4, s5]
  exact rowsum_total x0 (qv1 x0) (View.ld x0 r1_q) (qv1_apply x0) (ldq1_apply x0) x1 x2 p _ _ _ _ _ _ _ _

end Cert.KernelIdeal.HandValue

end
-- ==== Proof.KI.Value1.lean ====
/-
  Region 1, from blocks to the array. The row-sum kernel visits 4 blocks of 1024 query rows, each against both whole
  key arrays; the output column is therefore ONE function of the query array and the two key arrays: at row r the sum,
  over every row of both key arrays, of exp(2 · query row r · key row).
-/
import proofs.«173146_j89481348645584_2_alg».proof.Proof.KI.Body1
import proofs.«173146_j89481348645584_2_alg».proof.Proof.KI.OutAt1
import proofs.«173146_j89481348645584_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.Spec

variable (V : (c : Dev nD) → (b : Ref sig .tc) → Buf (Elt Ideal) ((c : Thread nD τ).loc b))

/-! ## Rows and blocks -/

/-- Row p of block t, when 4096 rows are cut into 4 blocks of 1024. -/
def row1 (t : Fin cfg1.N) (p : Fin 1024) : Fin 4096 :=
  ⟨t.val * 1024 + p.val, by have := t.isLt; have h : cfg1.N = 4 := N_1; have := p.isLt; omega⟩

/-- An array of shape [4096, 512] as a matrix. -/
def mat1 (a : S4096x512.Idx → EReal) : Mat := fun r k => a (ix2 r k)

/-- The query and output windows move down one block of 1024 rows per grid point; the two key windows stay on the whole array. -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

theorem emb1_0 (t : Fin cfg1.N) (p : Fin 1024) (q : Fin 512) : ((cfg1.win 0).blk t).view.emb (ix2 p q) = ix2 (row1 t p) q := by
  obtain ⟨⟨e0, e1⟩, -⟩ := idx1 t
  funext a; apply Fin.ext
  match a with
  | ⟨0, _⟩ => show win1_0.index t (0 : Fin 2) * 1024 + 1 * p.val = t.val * 1024 + p.val; omega
  | ⟨1, _⟩ => show win1_0.index t (1 : Fin 2) * 512 + 1 * q.val = q.val; omega
theorem emb1_1 (t : Fin cfg1.N) (s : Fin 4096) (q : Fin 512) : ((cfg1.win 1).blk t).view.emb (ix2 s q) = ix2 s q := by
  obtain ⟨-, ⟨e0, e1⟩, -⟩ := idx1 t
  funext a; apply Fin.ext
  match a with
  | ⟨0, _⟩ => show win1_1.index t (0 : Fin 2) * 4096 + 1 * s.val = s.val; omega
  | ⟨1, _⟩ => show win1_1.index t (1 : Fin 2) * 512 + 1 * q.val = q.val; omega
theorem emb1_2 (t : Fin cfg1.N) (s : Fin 4096) (q : Fin 512) : ((cfg1.win 2).blk t).view.emb (ix2 s q) = ix2 s q := by
  obtain ⟨-, -, ⟨e0, e1⟩, -⟩ := idx1 t
  funext a; apply Fin.ext
  match a with
  | ⟨0, _⟩ => show win1_2.index t (0 : Fin 2) * 4096 + 1 * s.val = s.val; omega
  | ⟨1, _⟩ => show win1_2.index t (1 : Fin 2) * 512 + 1 * q.val = q.val; omega
theorem emb1_3 (t : Fin cfg1.N) (p : Fin 1024) (z : Fin 1) : ((cfg1.win 3).blk t).view.emb (ix2 p z) = ix2 (row1 t p) z := by
  obtain ⟨-, -, -, ⟨e0, e1⟩⟩ := idx1 t
  funext a; apply Fin.ext
  match a with
  | ⟨0, _⟩ => show win1_3.index t (0 : Fin 2) * 1024 + 1 * p.val = t.val * 1024 + p.val; omega
  | ⟨1, _⟩ => show win1_3.index t (1 : Fin 2) * 1 + 1 * z.val = z.val; omega

/-- The three input blocks at point t, read at an index. -/
theorem iblk1_0_apply (c : Dev nD) (t : Fin cfg1.N) (p : Fin 1024) (k : Fin 512) :
    iblk1 V c 0 t (ix2 p k) = V c main_v0_0 (ix2 (row1 t p) k) := by
  show V c main_v0_0 (((cfg1.win 0).blk t).view.emb (ix2 p k)) = _
  rw [emb1_0]
theorem iblk1_1_apply (c : Dev nD) (t : Fin cfg1.N) (s : Fin 4096) (k : Fin 512) :
    iblk1 V c 1 t (ix2 s k) = V c main_v0_0 (ix2 s k) := by
  show V c main_v0_0 (((cfg1.win 1).blk t).view.emb (ix2 s k)) = _
  rw [emb1_1]
theorem iblk1_2_apply (c : Dev nD) (t : Fin cfg1.N) (s : Fin 4096) (k : Fin 512) :
    iblk1 V c 2 t (ix2 s k) = V c main_v0_1 (ix2 s k) := by
  show V c main_v0_1 (((cfg1.win 2).blk t).view.emb (ix2 s k)) = _
  rw [emb1_2]

/-! ## The output array of region 1 as a function of the query and key arrays -/

/-- Row r: the sum over every key row of both key arrays of exp(2 · query row · key row). -/
def Gden1 (q k1 k2 : S4096x512.Idx → EReal) : S4096x1.Idx → EReal := fun i => den (mat1 q) (mat1 k1) (mat1 k2) (i 0)

theorem flushed1_3 (c : Dev nD) (t : Fin cfg1.N) :
    (dat1 V c).flushed 3 t = ((cfg1.win 3).blk t).view.read (Elt Ideal) (Gden1 (V c main_v0_0) (V c main_v0_0) (V c main_v0_1)) := by
  show (cfg1.win 3).cut (grid1.coords t) ((dat1 V c).after 3 t) = _
  rw [after1_3]
  funext j
  obtain ⟨p, z, rfl⟩ : ∃ (p : Fin 1024) (z : Fin 1), j = ix2 p z := ⟨j 0, j 1, eq_ix2 j⟩
  show out1_3 (iblk1 V c 0 t) (iblk1 V c 1 t) (iblk1 V c 2 t) (ix2 p z) = Gden1 (V c main_v0_0) (V c main_v0_0) (V c main_v0_1) (((cfg1.win 3).blk t).view.emb (ix2 p z))
  rw [out1_3_apply, emb1_3]
  simp only [iblk1_0_apply, iblk1_1_apply, iblk1_2_apply]
  rfl

theorem mem_blk1_3 (t : Fin cfg1.N) (i : S4096x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v1).slice (win1_3.rect t)).set ↔ _
  rw [View.set_slice_whole, Rect.mem_set_unit]
  exact Iff.rfl
/-- The 4 blocks of 1024 rows cover the column: row r is in block r / 1024. -/
theorem cover1_3 (i : S4096x1.Idx) : ∃ t : Fin cfg1.N, (cfg1.win 3).flush t = true ∧ i ∈ ((cfg1.win 3).blk t).view.set := by
  have hi0 : (i 0).val < 4096 := (i 0).isLt
  have hi1 : (i 1).val < 1 := (i 1).isLt
  have hN : cfg1.N = 4 := N_1
  have ht : (i 0).val / 1024 < cfg1.N := by omega
  refine ⟨⟨(i 0).val / 1024, ht⟩, flush1_3 _, ?_⟩
  rw [mem_blk1_3]
  have e := idx1 ⟨(i 0).val / 1024, ht⟩
  have e0 : win1_3.index ⟨(i 0).val / 1024, ht⟩ (0 : Fin 2) = (i 0).val / 1024 := e.2.2.2.1
  have e1 : win1_3.index ⟨(i 0).val / 1024, ht⟩ (1 : Fin 2) = 0 := e.2.2.2.2
  intro a
  match a with
  | ⟨0, _⟩ => show win1_3.index ⟨(i 0).val / 1024, ht⟩ (0 : Fin 2) * 1024 ≤ (i 0).val ∧ (i 0).val < win1_3.index ⟨(i 0).val / 1024, ht⟩ (0 : Fin 2) * 1024 + 1024; omega
  | ⟨1, _⟩ => show win1_3.index ⟨(i 0).val / 1024, ht⟩ (1 : Fin 2) * 1 ≤ (i 1).val ∧ (i 1).val < win1_3.index ⟨(i 0).val / 1024, ht⟩ (1 : Fin 2) * 1 + 1; omega
/-- The output array after region 1. -/
theorem final1_3 (c : Dev nD) : (dat1 V c).arrAt 3 cfg1.N = Gden1 (V c main_v0_0) (V c main_v0_0) (V c main_v0_1) :=
  (dat1 V c).arrAt_eq_of_cover 3 _ (fun t _ => flushed1_3 V c t) cover1_3

end Cert.KernelIdeal.HandValue

end
-- ==== Proof.KI.PayAt2.lean ====
/-
  The second row-sum call's body (the same arithmetic as the first's, on its own blocks): its payloads read element by
  element on the extended reals, each adding key chunks' contributions to the column it is given.
-/
import proofs.«173146_j89481348645584_2_alg».proof.Proof.KI.PayAt1

noncomputable section

open scoped BigOperators

namespace Cert.KernelIdeal.HandValue

open Idealize.ShloMosaic Idealize.ShloMosaic.ValueIdx Cert.Spec
open Cert.KernelIdeal Cert.KernelIdeal.Gen
open Cert.Lib.RowOps

/-- The query block as the body holds it. -/
theorem k2_pay2_eq (v0 : Vec Ideal S1024x512 .bf16) : k2_pay2 (F := Ideal) v0 = v0 := by
  unfold k2_pay2; exact shapeCast_self v0 _

theorem k2_pay7_eq (v : Vec Ideal S512x512 .bf16) : k2_pay7 (F := Ideal) v = v := by
  unfold k2_pay7; exact shapeCast_self v _

/-- The first one and a half chunks, from the zero column. -/
theorem k2_pay3_apply (v0 : Vec Ideal S1024x512 .bf16) (a b c : Vec Ideal S512x512 .bf16) (p : Fin 1024) (z : Fin 1) :
    k2_pay3 (F := Ideal) v0 a b c (ix2 p z) = 0 + chunkSum v0 a p + chunkSum v0 b p + chunkSum v0 c p := by
  have e : k2_pay3 (F := Ideal) v0 a b c (ix2 p z)
      = Ideal.ofBits .f32 0x00000000#32
        + chunkSum (k2_pay2 (F := Ideal) v0) (shapeCast S512x512 a shapeCasts_S512x512_S512x512) p
        + chunkSum (k2_pay2 (F := Ideal) v0) (shapeCast S512x512 b shapeCasts_S512x512_S512x512) p
        + chunkSum (k2_pay2 (F := Ideal) v0) (shapeCast S512x512 c shapeCasts_S512x512_S512x512) p := by
    unfold k2_pay3
    exact congrArg₂ (· + ·) (congrArg₂ (· + ·) (congrArg₂ (· + ·) rfl (chunk_apply _ _ p z)) (chunk_apply _ _ p z))
      (chunk_apply _ _ p z)
  rw [e, k2_pay2_eq, chunkSum_cast, chunkSum_cast, chunkSum_cast, Ideal.ofBits_zero_f32]

/-- The second chunk's second half before its lane sum. -/
theorem k2_pay4_apply (v0 : Vec Ideal S1024x512 .bf16) (b : Vec Ideal S512x512 .bf16) (p : Fin 1024) (s : Fin 512) :
    k2_pay4 (F := Ideal) v0 b (ix2 p s) = Ideal.exp ((∑ k : Fin 512, v0 (ix2 p k) * b (ix2 s k)) * cTwo) := by
  have e : k2_pay4 (F := Ideal) v0 b (ix2 p s)
      = Ideal.exp ((∑ k : Fin 512, k2_pay2 (F := Ideal) v0 (ix2 p k)
          * shapeCast S512x512 b shapeCasts_S512x512_S512x512 (ix2 s k)) * cTwo) := by
    unfold k2_pay4
    exact expScaled_apply _ _ p s
  rw [e, k2_pay2_eq, shapeCast_self]

/-- Its lane sum is the chunk's contribution. -/
theorem k2_pay4_rowSum (v0 : Vec Ideal S1024x512 .bf16) (b : Vec Ideal S512x512 .bf16) (p : Fin 1024) :
    ∑ s : Fin 512, k2_pay4 (F := Ideal) v0 b (ix2 p s) = chunkSum v0 b p :=
  Finset.sum_congr rfl fun s _ => k2_pay4_apply v0 b p s

/-- The pending lane sum and two more chunks, added to the column given. -/
theorem k2_pay5_apply (v1 : FVec Ideal S1024x512 .bf16) (v34 : FVec Ideal S1024x1 .f32) (v35 : FVec Ideal S1024x512 .f32)
    (a b c d : Vec Ideal S512x512 .bf16) (p : Fin 1024) (z : Fin 1) :
    k2_pay5 (F := Ideal) v1 v34 v35 a b c d (ix2 p z)
      = v34 (ix2 p z) + (∑ s : Fin 512, v35 (ix2 p s)) + chunkSum v1 a p + chunkSum v1 b p + chunkSum v1 c p + chunkSum v1 d p := by
  have e : k2_pay5 (F := Ideal) v1 v34 v35 a b c d (ix2 p z)
      = v34 (ix2 p z) + (∑ s : Fin 512, v35 (ix2 p s))
        + chunkSum v1 (shapeCast S512x512 a shapeCasts_S512x512_S512x512) p
        + chunkSum v1 (shapeCast S512x512 b shapeCasts_S512x512_S512x512) p
        + chunkSum v1 (shapeCast S512x512 c shapeCasts_S512x512_S512x512) p
        + chunkSum v1 (shapeCast S512x512 d shapeCasts_S512x512_S512x512) p := by
    unfold k2_pay5
    exact congrArg₂ (· + ·) (congrArg₂ (· + ·) (congrArg₂ (· + ·) (congrArg₂ (· + ·) (congrArg₂ (· + ·) rfl
      (rowSumCol_apply v35 reduces_S1024x512_S1024 (.inl rfl) rfl shapeCasts_S1024_S1024x1 p z))
      (chunk_apply _ _ p z)) (chunk_apply _ _ p z)) (chunk_apply _ _ p z)) (chunk_apply _ _ p z)
  rw [e, chunkSum_cast, chunkSum_cast, chunkSum_cast, chunkSum_cast]

/-- Two more chunks added to the column given. -/
theorem k2_pay6_apply (v1 : FVec Ideal S1024x512 .bf16) (v74 : FVec Ideal S1024x1 .f32)
    (a b c d : Vec Ideal S512x512 .bf16) (p : Fin 1024) (z : Fin 1) :
    k2_pay6 (F := Ideal) v1 v74 a b c d (ix2 p z)
      = v74 (ix2 p z) + chunkSum v1 a p + chunkSum v1 b p + chunkSum v1 c p + chunkSum v1 d p := by
  have e : k2_pay6 (F := Ideal) v1 v74 a b c d (ix2 p z)
      = v74 (ix2 p z)
        + chunkSum v1 (shapeCast S512x512 a shapeCasts_S512x512_S512x512) p
        + chunkSum v1 (shapeCast S512x512 b shapeCasts_S512x512_S512x512) p
        + chunkSum v1 (shapeCast S512x512 c shapeCasts_S512x512_S512x512) p
        + chunkSum v1 (shapeCast S512x512 d shapeCasts_S512x512_S512x512) p := by
    unfold k2_pay6
    exact congrArg₂ (· + ·) (congrArg₂ (· + ·) (congrArg₂ (· + ·) (congrArg₂ (· + ·) rfl
      (chunk_apply _ _ p z)) (chunk_apply _ _ p z)) (chunk_apply _ _ p z)) (chunk_apply _ _ p z)
  rw [e, chunkSum_cast, chunkSum_cast, chunkSum_cast, chunkSum_cast]

/-- The last two chunks (the first key half of the seventh already cast) added to the column given: the stored column. -/
theorem k2_pay1_apply (v1 : FVec Ideal S1024x512 .bf16) (v110 : FVec Ideal S1024x1 .f32) (v112 : FVec Ideal S512x512 .bf16)
    (b c d : Vec Ideal S512x512 .bf16) (p : Fin 1024) (z : Fin 1) :
    k2_pay1 (F := Ideal) v1 v110 v112 b c d (ix2 p z)
      = v110 (ix2 p z) + chunkSum v1 v112 p + chunkSum v1 b p + chunkSum v1 c p + chunkSum v1 d p := by
  have e : k2_pay1 (F := Ideal) v1 v110 v112 b c d (ix2 p z)
      = v110 (ix2 p z)
        + chunkSum v1 v112 p
        + chunkSum v1 (shapeCast S512x512 b shapeCasts_S512x512_S512x512) p
        + chunkSum v1 (shapeCast S512x512 c shapeCasts_S512x512_S512x512) p
        + chunkSum v1 (shapeCast S512x512 d shapeCasts_S512x512_S512x512) p := by
    unfold k2_pay1
    exact congrArg₂ (· + ·) (congrArg₂ (· + ·) (congrArg₂ (· + ·) (congrArg₂ (· + ·) rfl
      (chunk_apply _ _ p z)) (chunk_apply _ _ p z)) (chunk_apply _ _ p z)) (chunk_apply _ _ p z)
  rw [e, chunkSum_cast, chunkSum_cast, chunkSum_cast]

end Cert.KernelIdeal.HandValue

end
-- ==== Proof.KI.OutAt2.lean ====
/-
  What region 2's row-sum body leaves in its output block, read at an index over the extended reals: at row p, the sum
  over all 4096 rows s of the first key array of exp(2 · ⟨query row p, key row s⟩) plus the same sum over the second key
  array. The stored column is unfolded stage by stage along the body's payloads, each stage read at the index as the
  column it was given plus its chunks' contributions, and the sixteen contributions are regrouped.
-/
import proofs.«173146_j89481348645584_2_alg».proof.Proof.KI.Body2
import proofs.«173146_j89481348645584_2_alg».proof.Proof.KI.PayAt2
import proofs.«173146_j89481348645584_2_alg».proof.Proof.KI.RowSumOps
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx Cert.Spec

/-- The query block as loaded reads the block, -/
theorem ldq2_apply (x0 : Vec Ideal S1024x512 .bf16) (p : Fin 1024) (k : Fin 512) :
    View.ld x0 r2_q (ix2 p k) = x0 (ix2 p k) :=
  congrFun (View.ld_unit_zero zeros2 _ x0) (ix2 p k)

/-- and so does the query as the matrix unit takes it. -/
theorem qv2_apply (x0 : Vec Ideal S1024x512 .bf16) (p : Fin 1024) (k : Fin 512) :
    qv2 (F := Ideal) x0 (ix2 p k) = x0 (ix2 p k) := by
  unfold qv2
  rw [k2_pay2_eq]
  exact ldq2_apply x0 p k

/-- The stored column is the last stage's. -/
theorem out2_3_eq (x0 : Vec Ideal S1024x512 .bf16) (x1 x2 : Vec Ideal S4096x512 .bf16) :
    out2_3 (F := Ideal) x0 x1 x2
      = k2_pay1 (F := Ideal) (qv2 x0) (acc2_c x0 x1 x2) (k2_pay7 (View.ld x1 r2_k6)) (View.ld x2 r2_k6) (View.ld x1 r2_k7) (View.ld x2 r2_k7) := by
  unfold out2_3
  exact View.canon_unit_zero zeros2 _ _

/-- What region 2's body leaves at row p of its output block. -/
theorem out2_3_apply (x0 : Vec Ideal S1024x512 .bf16) (x1 x2 : Vec Ideal S4096x512 .bf16) (p : Fin 1024) (z : Fin 1) :
    out2_3 (F := Ideal) x0 x1 x2 (ix2 p z)
      = (∑ s : Fin 4096, Ideal.exp ((∑ k : Fin 512, x0 (ix2 p k) * x1 (ix2 s k)) * cTwo)) + ∑ s : Fin 4096, Ideal.exp ((∑ k : Fin 512, x0 (ix2 p k) * x2 (ix2 s k)) * cTwo) := by
  -- the stages, each at the index
  have s1 : out2_3 (F := Ideal) x0 x1 x2 (ix2 p z)
      = acc2_c (F := Ideal) x0 x1 x2 (ix2 p z) + chunkSum (qv2 x0) (View.ld x1 r2_k6) p + chunkSum (qv2 x0) (View.ld x2 r2_k6) p
        + chunkSum (qv2 x0) (View.ld x1 r2_k7) p + chunkSum (qv2 x0) (View.ld x2 r2_k7) p := by
    rw [out2_3_eq]
    refine (k2_pay1_apply _ _ _ _ _ _ p z).trans ?_
    rw [k2_pay7_eq]
  have s2 : acc2_c (F := Ideal) x0 x1 x2 (ix2 p z)
      = acc2_b (F := Ideal) x0 x1 x2 (ix2 p z) + chunkSum (qv2 x0) (View.ld x1 r2_k4) p + chunkSum (qv2 x0) (View.ld x2 r2_k4) p
        + chunkSum (qv2 x0) (View.ld x1 r2_k5) p + chunkSum (qv2 x0) (View.ld x2 r2_k5) p := by
    unfold acc2_c
    exact k2_pay6_apply _ _ _ _ _ _ p z
  have s3 : acc2_b (F := Ideal) x0 x1 x2 (ix2 p z)
      = acc2_a (F := Ideal) x0 x1 x2 (ix2 p z) + (∑ s : Fin 512, exp2_a (F := Ideal) x0 x2 (ix2 p s))
        + chunkSum (qv2 x0) (View.ld x1 r2_k2) p + chunkSum (qv2 x0) (View.ld x2 r2_k2) p
        + chunkSum (qv2 x0) (View.ld x1 r2_k3) p + chunkSum (qv2 x0) (View.ld x2 r2_k3) p := by
    unfold acc2_b
    exact k2_pay5_apply _ _ _ _ _ _ _ p z
  have s4 : acc2_a (F := Ideal) x0 x1 x2 (ix2 p z)
      = 0 + chunkSum (View.ld x0 r2_q) (View.ld x1 r2_k0) p + chunkSum (View.ld x0 r2_q) (View.ld x2 r2_k0) p
        + chunkSum (View.ld x0 r2_q) (View.ld x1 r2_k1) p := by
    unfold acc2_a
    exact k2_pay3_apply _ _ _ _ p z
  have s5 : (∑ s : Fin 512, exp2_a (F := Ideal) x0 x2 (ix2 p s)) = chunkSum (View.ld x0 r2_q) (View.ld x2 r2_k1) p := by
    unfold exp2_a
    exact k2_pay4_rowSum _ _ p
  rw [s1, s2, s3, s4, s5]
  exact rowsum_total x0 (qv2 x0) (View.ld x0 r2_q) (qv2_apply x0) (ldq2_apply x0) x1 x2 p _ _ _ _ _ _ _ _

end Cert.KernelIdeal.HandValue

end
-- ==== Proof.KI.Value2.lean ====
/-
  Region 2, from blocks to the array. The row-sum kernel visits 4 blocks of 1024 query rows, each against both whole
  key arrays; the output column is therefore ONE function of the query array and the two key arrays: at row r the sum,
  over every row of both key arrays, of exp(2 · query row r · key row).
-/
import proofs.«173146_j89481348645584_2_alg».proof.Proof.KI.Body2
import proofs.«173146_j89481348645584_2_alg».proof.Proof.KI.OutAt2
import proofs.«173146_j89481348645584_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.Spec

variable (V : (c : Dev nD) → (b : Ref sig .tc) → Buf (Elt Ideal) ((c : Thread nD τ).loc b))

/-! ## Rows and blocks -/

/-- Row p of block t, when 4096 rows are cut into 4 blocks of 1024. -/
def row2 (t : Fin cfg2.N) (p : Fin 1024) : Fin 4096 :=
  ⟨t.val * 1024 + p.val, by have := t.isLt; have h : cfg2.N = 4 := N_2; have := p.isLt; omega⟩

/-- An array of shape [4096, 512] as a matrix. -/
def mat2 (a : S4096x512.Idx → EReal) : Mat := fun r k => a (ix2 r k)

/-- The query and output windows move down one block of 1024 rows per grid point; the two key windows stay on the whole array. -/
theorem idx2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0) :=
  (by decide +kernel : ∀ t : Fin grid2.N, _)

theorem emb2_0 (t : Fin cfg2.N) (p : Fin 1024) (q : Fin 512) : ((cfg2.win 0).blk t).view.emb (ix2 p q) = ix2 (row2 t p) q := by
  obtain ⟨⟨e0, e1⟩, -⟩ := idx2 t
  funext a; apply Fin.ext
  match a with
  | ⟨0, _⟩ => show win2_0.index t (0 : Fin 2) * 1024 + 1 * p.val = t.val * 1024 + p.val; omega
  | ⟨1, _⟩ => show win2_0.index t (1 : Fin 2) * 512 + 1 * q.val = q.val; omega
theorem emb2_1 (t : Fin cfg2.N) (s : Fin 4096) (q : Fin 512) : ((cfg2.win 1).blk t).view.emb (ix2 s q) = ix2 s q := by
  obtain ⟨-, ⟨e0, e1⟩, -⟩ := idx2 t
  funext a; apply Fin.ext
  match a with
  | ⟨0, _⟩ => show win2_1.index t (0 : Fin 2) * 4096 + 1 * s.val = s.val; omega
  | ⟨1, _⟩ => show win2_1.index t (1 : Fin 2) * 512 + 1 * q.val = q.val; omega
theorem emb2_2 (t : Fin cfg2.N) (s : Fin 4096) (q : Fin 512) : ((cfg2.win 2).blk t).view.emb (ix2 s q) = ix2 s q := by
  obtain ⟨-, -, ⟨e0, e1⟩, -⟩ := idx2 t
  funext a; apply Fin.ext
  match a with
  | ⟨0, _⟩ => show win2_2.index t (0 : Fin 2) * 4096 + 1 * s.val = s.val; omega
  | ⟨1, _⟩ => show win2_2.index t (1 : Fin 2) * 512 + 1 * q.val = q.val; omega
theorem emb2_3 (t : Fin cfg2.N) (p : Fin 1024) (z : Fin 1) : ((cfg2.win 3).blk t).view.emb (ix2 p z) = ix2 (row2 t p) z := by
  obtain ⟨-, -, -, ⟨e0, e1⟩⟩ := idx2 t
  funext a; apply Fin.ext
  match a with
  | ⟨0, _⟩ => show win2_3.index t (0 : Fin 2) * 1024 + 1 * p.val = t.val * 1024 + p.val; omega
  | ⟨1, _⟩ => show win2_3.index t (1 : Fin 2) * 1 + 1 * z.val = z.val; omega

/-- The three input blocks at point t, read at an index. -/
theorem iblk2_0_apply (c : Dev nD) (t : Fin cfg2.N) (p : Fin 1024) (k : Fin 512) :
    iblk2 V c 0 t (ix2 p k) = V c main_v0_1 (ix2 (row2 t p) k) := by
  show V c main_v0_1 (((cfg2.win 0).blk t).view.emb (ix2 p k)) = _
  rw [emb2_0]
theorem iblk2_1_apply (c : Dev nD) (t : Fin cfg2.N) (s : Fin 4096) (k : Fin 512) :
    iblk2 V c 1 t (ix2 s k) = V c main_v0_0 (ix2 s k) := by
  show V c main_v0_0 (((cfg2.win 1).blk t).view.emb (ix2 s k)) = _
  rw [emb2_1]
theorem iblk2_2_apply (c : Dev nD) (t : Fin cfg2.N) (s : Fin 4096) (k : Fin 512) :
    iblk2 V c 2 t (ix2 s k) = V c main_v0_1 (ix2 s k) := by
  show V c main_v0_1 (((cfg2.win 2).blk t).view.emb (ix2 s k)) = _
  rw [emb2_2]

/-! ## The output array of region 2 as a function of the query and key arrays -/

/-- Row r: the sum over every key row of both key arrays of exp(2 · query row · key row). -/
def Gden2 (q k1 k2 : S4096x512.Idx → EReal) : S4096x1.Idx → EReal := fun i => den (mat2 q) (mat2 k1) (mat2 k2) (i 0)

theorem flushed2_3 (c : Dev nD) (t : Fin cfg2.N) :
    (dat2 V c).flushed 3 t = ((cfg2.win 3).blk t).view.read (Elt Ideal) (Gden2 (V c main_v0_1) (V c main_v0_0) (V c main_v0_1)) := by
  show (cfg2.win 3).cut (grid2.coords t) ((dat2 V c).after 3 t) = _
  rw [after2_3]
  funext j
  obtain ⟨p, z, rfl⟩ : ∃ (p : Fin 1024) (z : Fin 1), j = ix2 p z := ⟨j 0, j 1, eq_ix2 j⟩
  show out2_3 (iblk2 V c 0 t) (iblk2 V c 1 t) (iblk2 V c 2 t) (ix2 p z) = Gden2 (V c main_v0_1) (V c main_v0_0) (V c main_v0_1) (((cfg2.win 3).blk t).view.emb (ix2 p z))
  rw [out2_3_apply, emb2_3]
  simp only [iblk2_0_apply, iblk2_1_apply, iblk2_2_apply]
  rfl

theorem mem_blk2_3 (t : Fin cfg2.N) (i : S4096x1.Idx) :
    i ∈ ((cfg2.win 3).blk t).view.set ↔ ∀ a : Fin 2, win2_3.index t a * S1024x1.size a ≤ (i a).val ∧ (i a).val < win2_3.index t a * S1024x1.size a + S1024x1.size a := by
  show i ∈ ((View.whole main_v2).slice (win2_3.rect t)).set ↔ _
  rw [View.set_slice_whole, Rect.mem_set_unit]
  exact Iff.rfl
/-- The 4 blocks of 1024 rows cover the column: row r is in block r / 1024. -/
theorem cover2_3 (i : S4096x1.Idx) : ∃ t : Fin cfg2.N, (cfg2.win 3).flush t = true ∧ i ∈ ((cfg2.win 3).blk t).view.set := by
  have hi0 : (i 0).val < 4096 := (i 0).isLt
  have hi1 : (i 1).val < 1 := (i 1).isLt
  have hN : cfg2.N = 4 := N_2
  have ht : (i 0).val / 1024 < cfg2.N := by omega
  refine ⟨⟨(i 0).val / 1024, ht⟩, flush2_3 _, ?_⟩
  rw [mem_blk2_3]
  have e := idx2 ⟨(i 0).val / 1024, ht⟩
  have e0 : win2_3.index ⟨(i 0).val / 1024, ht⟩ (0 : Fin 2) = (i 0).val / 1024 := e.2.2.2.1
  have e1 : win2_3.index ⟨(i 0).val / 1024, ht⟩ (1 : Fin 2) = 0 := e.2.2.2.2
  intro a
  match a with
  | ⟨0, _⟩ => show win2_3.index ⟨(i 0).val / 1024, ht⟩ (0 : Fin 2) * 1024 ≤ (i 0).val ∧ (i 0).val < win2_3.index ⟨(i 0).val / 1024, ht⟩ (0 : Fin 2) * 1024 + 1024; omega
  | ⟨1, _⟩ => show win2_3.index ⟨(i 0).val / 1024, ht⟩ (1 : Fin 2) * 1 ≤ (i 1).val ∧ (i 1).val < win2_3.index ⟨(i 0).val / 1024, ht⟩ (1 : Fin 2) * 1 + 1; omega
/-- The output array after region 2. -/
theorem final2_3 (c : Dev nD) : (dat2 V c).arrAt 3 cfg2.N = Gden2 (V c main_v0_1) (V c main_v0_0) (V c main_v0_1) :=
  (dat2 V c).arrAt_eq_of_cover 3 _ (fun t _ => flushed2_3 V c t) cover2_3

end Cert.KernelIdeal.HandValue

end
-- ==== Proof.KI.Tail.lean ====
/-
  The host operations that follow the three kernel regions, as one function of the five column arrays they read,
  and that function at columns given by their entries: the scalar it returns is the loss in the kernel's arrangement,
  with the positives, the stacked row sums and the stacked self-similarities as parameters.
-/
import proofs.«173146_j89481348645584_2_alg».proof.KernelIdeal
import proofs.«173146_j89481348645584_2_alg».proof.Proof.Gen.KernelIdeal
import proofs.«173146_j89481348645584_2_alg».proof.Proof.Spec
import Idealize.ShloMosaic.Lib.IdealHost
import Idealize.ShloMosaic.Lib.ValueIdx
import Idealize.ShloMosaic.Lib.Pipeline.Value
import Idealize.ShloMosaic.PureOps.Ideal.Laws

noncomputable section

open scoped BigOperators

namespace Cert.KernelIdeal.HandValue

open Cert.KernelIdeal Cert.KernelIdeal.Facts₀
open Idealize.ShloMosaic Idealize.ShloMosaic.ValueIdx

/-- The nineteen host operations after the regions as one function: the two concatenations, the division of the
    stacked self-similarities by one half, its exponential, the difference, the logarithm and its sum, the sum of the
    positives times minus two divided by one half, the sum of the two and the division by 8192. -/
def tail (pos seli selj di dj : FVec Ideal S4096x1 .f32) : FVec Ideal S_ .f32 :=
  Host.divf (F := Ideal)
    (addf
      (Host.divf (F := Ideal)
        (mulf (constant (F := Ideal) S_ .f32 0xC0000000#32)
          (Host.reduceAdd (F := Ideal) pos (constant (F := Ideal) S_ .f32 0x00000000#32) reducesTo_S4096x1_S_d0_1 h_S_))
        (constant (F := Ideal) S_ .f32 0x3F000000#32))
      (Host.reduceAdd (F := Ideal)
        (Host.log (F := Ideal)
          (subf (concatenate S8192x1 0 [⟨S4096x1, di⟩, ⟨S4096x1, dj⟩] concatenates_S4096x1_S4096x1_S8192x1_d0)
            (Host.exp (F := Ideal)
              (Host.divf (F := Ideal)
                (concatenate S8192x1 0 [⟨S4096x1, seli⟩, ⟨S4096x1, selj⟩] concatenates_S4096x1_S4096x1_S8192x1_d0)
                (broadcastInDim S8192x1 ![] bcast_S_S8192x1 (constant (F := Ideal) S_ .f32 0x3F000000#32))))))
        (constant (F := Ideal) S_ .f32 0x00000000#32) reducesTo_S8192x1_S_d0_1 h_S_))
    (constant (F := Ideal) S_ .f32 0x46000000#32)

/-- A sum over the indices of a column array is the sum over its rows. -/
theorem sum_col {n : Nat} (f : (⟨2, ![n, 1]⟩ : Shape).Idx → EReal) :
    ∑ i, f i = ∑ a : Fin n, f (ix2 a (0 : Fin 1)) := by
  rw [sum_idx2]
  exact Finset.sum_congr rfl (fun a _ => Fin.sum_univ_one _)

/-- The concatenation of two columns along the rows, read at a row, is the stacking of their entries. -/
theorem concat_apply (A B : Fin 4096 → EReal) (R : Fin 8192) (b : Fin 1) :
    concatenate S8192x1 0 [⟨S4096x1, fun i => A (i 0)⟩, ⟨S4096x1, fun i => B (i 0)⟩]
        concatenates_S4096x1_S4096x1_S8192x1_d0 (ix2 R b)
      = Cert.Spec.cat A B R := by
  unfold Cert.Spec.cat
  split
  · next h =>
    exact concatenate_pair_apply_left (t := S8192x1) (s₁ := S4096x1) (s₂ := S4096x1) 0 _ _ _ (ix2 R b) rfl
      (ix2 (⟨R.val, h⟩ : Fin 4096) b) (fun b' => match b' with | ⟨0, _⟩ => rfl | ⟨1, _⟩ => rfl)
  · next h =>
    have hlt : R.val - 4096 < 4096 := by have := R.isLt; omega
    exact concatenate_pair_apply_right (t := S8192x1) (s₁ := S4096x1) (s₂ := S4096x1) 0 _ _ _ (ix2 R b) rfl rfl
      (ix2 (⟨R.val - 4096, hlt⟩ : Fin 4096) b)
      (by
        intro b' hb'
        have h2 : b'.val < 2 := b'.isLt
        have h0 : b'.val ≠ 0 := fun e => hb' (Fin.ext e)
        have e1 : b' = ⟨1, by decide⟩ := Fin.ext (by show b'.val = 1; omega)
        subst e1
        rfl)
      (by show R.val - 4096 + 4096 = R.val; omega)

theorem tail_eq (P SI SJ DI DJ : Fin 4096 → EReal) :
    tail (fun i => P (i 0)) (fun i => SI (i 0)) (fun i => SJ (i 0)) (fun i => DI (i 0)) (fun i => DJ (i 0))
      = fun _ => Ideal.div (Ideal.div (Cert.Spec.cNegTwo * ∑ r : Fin 4096, P r) Cert.Spec.cHalf
          + ∑ R : Fin 8192, Ideal.log (Cert.Spec.cat DI DJ R - Ideal.exp (Ideal.div (Cert.Spec.cat SI SJ R) Cert.Spec.cHalf))) Cert.Spec.cN := by
  funext j
  have h1 : Host.reduceAdd (F := Ideal) (fun i : S4096x1.Idx => P (i 0)) (constant (F := Ideal) S_ .f32 0x00000000#32)
      reducesTo_S4096x1_S_d0_1 h_S_ j = ∑ r : Fin 4096, P r := by
    refine (hostReduceAdd_apply _ _ _ _ j).trans ?_
    refine (Ideal.hostReduceAdd_total _ (fun b => b.elim0) _ _ j).trans ?_
    rw [constant_apply, Ideal.ofBits_zero_f32, zero_add, sum_col]
  have h2 : Host.reduceAdd (F := Ideal)
        (Host.log (F := Ideal)
          (subf (concatenate S8192x1 0 [⟨S4096x1, fun i => DI (i 0)⟩, ⟨S4096x1, fun i => DJ (i 0)⟩] concatenates_S4096x1_S4096x1_S8192x1_d0)
            (Host.exp (F := Ideal)
              (Host.divf (F := Ideal)
                (concatenate S8192x1 0 [⟨S4096x1, fun i => SI (i 0)⟩, ⟨S4096x1, fun i => SJ (i 0)⟩] concatenates_S4096x1_S4096x1_S8192x1_d0)
                (broadcastInDim S8192x1 ![] bcast_S_S8192x1 (constant (F := Ideal) S_ .f32 0x3F000000#32))))))
        (constant (F := Ideal) S_ .f32 0x00000000#32) reducesTo_S8192x1_S_d0_1 h_S_ j
      = ∑ R : Fin 8192, Ideal.log (Cert.Spec.cat DI DJ R - Ideal.exp (Ideal.div (Cert.Spec.cat SI SJ R) Cert.Spec.cHalf)) := by
    refine (hostReduceAdd_apply _ _ _ _ j).trans ?_
    refine (Ideal.hostReduceAdd_total _ (fun b => b.elim0) _ _ j).trans ?_
    rw [constant_apply, Ideal.ofBits_zero_f32, zero_add, sum_col]
    refine Finset.sum_congr rfl (fun R _ => ?_)
    show Ideal.log (concatenate S8192x1 0 [⟨S4096x1, fun i => DI (i 0)⟩, ⟨S4096x1, fun i => DJ (i 0)⟩] concatenates_S4096x1_S4096x1_S8192x1_d0 (ix2 R 0)
        - Ideal.exp (Ideal.div (concatenate S8192x1 0 [⟨S4096x1, fun i => SI (i 0)⟩, ⟨S4096x1, fun i => SJ (i 0)⟩] concatenates_S4096x1_S4096x1_S8192x1_d0 (ix2 R 0))
            (broadcastInDim S8192x1 ![] bcast_S_S8192x1 (constant (F := Ideal) S_ .f32 0x3F000000#32) (ix2 R 0)))) = _
    rw [concat_apply, concat_apply, broadcastInDim_scalar_apply]
    rfl
  show Ideal.div (Ideal.div (Ideal.ofBits .f32 0xC0000000#32 * Host.reduceAdd (F := Ideal) (fun i : S4096x1.Idx => P (i 0)) (constant (F := Ideal) S_ .f32 0x00000000#32)
      reducesTo_S4096x1_S_d0_1 h_S_ j) (Ideal.ofBits .f32 0x3F000000#32) + _) (Ideal.ofBits .f32 0x46000000#32) = _
  rw [h1, h2]
  rfl

end Cert.KernelIdeal.HandValue

end
-- ==== Proof.KI.KernelValue.lean ====
/-
  The kernel's value. Region 0 leaves the normalized rows and the three per-row columns; regions 1 and 2 read the
  normalized rows back and leave the two halves of the row sums of exp(2 · similarity); the host operations then
  stack the halves, subtract the diagonal terms, take logarithms, sum, and combine with the positives. Read back
  through the boundaries of the run, the result buffer holds the loss in the kernel's arrangement (Spec.KLoss) of the
  two argument matrices.
-/
import proofs.«173146_j89481348645584_2_alg».proof.Proof.KI.Run.Fold
import proofs.«173146_j89481348645584_2_alg».proof.Proof.KI.Value0
import proofs.«173146_j89481348645584_2_alg».proof.Proof.KI.Value1
import proofs.«173146_j89481348645584_2_alg».proof.Proof.KI.Value2
import proofs.«173146_j89481348645584_2_alg».proof.Proof.KI.Tail
import proofs.«173146_j89481348645584_2_alg».proof.Proof.Spec
import Idealize.ShloMosaic.Lib.StableHlo.Run
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Cert.Spec

variable (m : (ℓ : Loc nD τ sig) → Buf (Elt Ideal) ℓ) (ρ : Dev nD → PrngReg)

/-- The two argument arrays of core c as matrices. -/
def argX (c : Dev nD) : Mat := mat (m ((c : Thread nD τ).loc main_arg0))
def argY (c : Dev nD) : Mat := mat (m ((c : Thread nD τ).loc main_arg1))

/-! ## What region 0 leaves -/

theorem W1_v0_0 (c : Dev nD) : W1 m ρ c (Proc.devRef .tc main_v0_0) = G0_2 (m ((c : Thread nD τ).loc main_arg0)) :=
  (W1_arr m ρ c 2).trans (final0_2 (V0 m ρ) c)
theorem W1_v0_1 (c : Dev nD) : W1 m ρ c (Proc.devRef .tc main_v0_1) = G0_2 (m ((c : Thread nD τ).loc main_arg1)) :=
  (W1_arr m ρ c 3).trans (final0_3 (V0 m ρ) c)
theorem W1_v0_2 (c : Dev nD) : W1 m ρ c (Proc.devRef .tc main_v0_2) = G0_4 (m ((c : Thread nD τ).loc main_arg0)) (m ((c : Thread nD τ).loc main_arg1)) :=
  (W1_arr m ρ c 4).trans (final0_4 (V0 m ρ) c)
theorem W1_v0_3 (c : Dev nD) : W1 m ρ c (Proc.devRef .tc main_v0_3) = G0_5 (m ((c : Thread nD τ).loc main_arg0)) :=
  (W1_arr m ρ c 5).trans (final0_5 (V0 m ρ) c)
theorem W1_v0_4 (c : Dev nD) : W1 m ρ c (Proc.devRef .tc main_v0_4) = G0_5 (m ((c : Thread nD τ).loc main_arg1)) :=
  (W1_arr m ρ c 6).trans (final0_6 (V0 m ρ) c)

/-- The normalized array read back as a matrix is the normalized matrix. -/
theorem mat1_G0_2 (a : S4096x512.Idx → EReal) : mat1 (G0_2 a) = zn (mat a) := rfl
theorem mat2_G0_2 (a : S4096x512.Idx → EReal) : mat2 (G0_2 a) = zn (mat a) := rfl

/-! ## What regions 1 and 2 leave -/

theorem W2_v1 (c : Dev nD) :
    W2 m ρ c (Proc.devRef .tc main_v1) = fun i => den (zn (argX m c)) (zn (argX m c)) (zn (argY m c)) (i 0) := by
  rw [W2_out, final1_3]
  show Gden1 (W1 m ρ c (Proc.devRef .tc main_v0_0)) (W1 m ρ c (Proc.devRef .tc main_v0_0)) (W1 m ρ c (Proc.devRef .tc main_v0_1)) = _
  rw [W1_v0_0, W1_v0_1]
  rfl

theorem W3_v2 (c : Dev nD) :
    W3 m ρ c (Proc.devRef .tc main_v2) = fun i => den (zn (argY m c)) (zn (argX m c)) (zn (argY m c)) (i 0) := by
  rw [W3_out, final2_3]
  show Gden2 (W2 m ρ c (Proc.devRef .tc main_v0_1)) (W2 m ρ c (Proc.devRef .tc main_v0_0)) (W2 m ρ c (Proc.devRef .tc main_v0_1)) = _
  rw [W2_of_ne m ρ c main_v0_0 (by decide), W2_of_ne m ρ c main_v0_1 (by decide), W1_v0_0, W1_v0_1]
  rfl

/-! ## The five columns the host operations read, at region 2's exit -/

theorem W3_v1 (c : Dev nD) :
    W3 m ρ c (Proc.devRef .tc main_v1) = fun i => den (zn (argX m c)) (zn (argX m c)) (zn (argY m c)) (i 0) :=
  (W3_of_ne m ρ c main_v1 (by decide)).trans (W2_v1 m ρ c)
theorem W3_v0_2 (c : Dev nD) : W3 m ρ c (Proc.devRef .tc main_v0_2) = fun i => pos (argX m c) (argY m c) (i 0) :=
  (W3_of_ne m ρ c main_v0_2 (by decide)).trans ((W2_of_ne m ρ c main_v0_2 (by decide)).trans (W1_v0_2 m ρ c))
theorem W3_v0_3 (c : Dev nD) : W3 m ρ c (Proc.devRef .tc main_v0_3) = fun i => sel (argX m c) (i 0) :=
  (W3_of_ne m ρ c main_v0_3 (by decide)).trans ((W2_of_ne m ρ c main_v0_3 (by decide)).trans (W1_v0_3 m ρ c))
theorem W3_v0_4 (c : Dev nD) : W3 m ρ c (Proc.devRef .tc main_v0_4) = fun i => sel (argY m c) (i 0) :=
  (W3_of_ne m ρ c main_v0_4 (by decide)).trans ((W2_of_ne m ρ c main_v0_4 (by decide)).trans (W1_v0_4 m ρ c))

/-! ## The result -/

/-- The result buffer at the return is the host operations' term of the five columns. -/
theorem W4_v15 (c : Dev nD) :
    W4 m ρ c (Proc.devRef .tc main_v15)
      = tail (W3 m ρ c (Proc.devRef .tc main_v0_2)) (W3 m ρ c (Proc.devRef .tc main_v0_3)) (W3 m ρ c (Proc.devRef .tc main_v0_4))
          (W3 m ρ c (Proc.devRef .tc main_v1)) (W3 m ρ c (Proc.devRef .tc main_v2)) := by
  show StableHlo.after hostOps3 (W3 m ρ c) (Proc.devRef .tc main_v15) = _
  after_results
  rfl

/-- THE KERNEL'S VALUE: at the return the result buffer holds the loss in the kernel's arrangement, of the two
    argument matrices. -/
theorem kernel_value (c : Dev nD) :
    W4 m ρ c (Proc.devRef .tc main_v15) = fun _ => KLoss (argX m c) (argY m c) := by
  rw [W4_v15, W3_v0_2, W3_v0_3, W3_v0_4, W3_v1, W3_v2]
  exact tail_eq (pos (argX m c) (argY m c)) (sel (argX m c)) (sel (argY m c))
    (den (zn (argX m c)) (zn (argX m c)) (zn (argY m c))) (den (zn (argY m c)) (zn (argX m c)) (zn (argY m c)))

end Cert.KernelIdeal.HandValue

end
-- ==== Proof.RefValue.Gather.lean ====
/-
  Reading a two-coordinate gather, and the index words of a diagonal.

  A gather of single elements out of a matrix, its start indices an array of (row, column) pairs, reads the matrix
  at the pair — each component taken as a signed integer and clamped into the matrix. The two diagonals of the
  similarity matrix are read through such pairs, built from the row number i by 32-bit integer arithmetic that first
  "wraps" a negative index (add the extent if the index is below zero). For i below 4096 neither i nor i + 4096 is
  negative and both are inside the matrix, so the pair is (i, i + 4096) or (i + 4096, i) itself.
-/
import Idealize.ShloMosaic.Lib.ValueIdx

noncomputable section

namespace Cert.ReferenceIdeal.RefValue

open Idealize.ShloMosaic Idealize.ShloMosaic.ValueIdx

variable {α : Type}

/-- The dimension numbers of "take one element at each (row, column) pair": operand [N, M], start indices [R, 2] with
    the pair along axis 1, both operand axes collapsed, result [R]. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather at result index r: the operand at (idx[r, 0], idx[r, 1]), each read signed and clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 (⟨min (idx (ix2 r (0 : Fin 2))).toInt.toNat (N - 1), by omega⟩ : Fin N)
              (⟨min (idx (ix2 r (1 : Fin 2))).toInt.toNat (M - 1), by omega⟩ : Fin M)) := by
  unfold Host.gather
  congr 1
  funext a
  refine Fin.ext ?_
  have hcol : ∀ b : Fin 2, b ∉ (pairDims N M R wf).sKept := fun b h =>
    ((GatherDims.mem_sKept _ _).mp h).1 (by fin_cases b <;> simp)
  match a with
  | ⟨0, _⟩ =>
    show (pairDims N M R wf).start (ix1 r) idx 0 + (pairDims N M R wf).batchCoord (ix1 r) 0
      + (pairDims N M R wf).offCoord (ix1 r) 0 = _
    rw [GatherDims.batchCoord_eq_zero _ _ _ List.not_mem_nil, GatherDims.offCoord_eq_zero _ _ _ (hcol 0)]
    simp only [Nat.add_zero]
    unfold GatherDims.start
    rw [dif_pos (show (0 : Fin 2) ∈ (pairDims N M R wf).startIndexMap from by simp)]
    have hsi : (pairDims N M R wf).siIdx (ix1 r) ⟨List.idxOf (0 : Fin 2) (pairDims N M R wf).startIndexMap,
        List.idxOf_lt_length_iff.2 (by simp)⟩ = ix2 r (0 : Fin 2) := by
      funext b; refine Fin.ext ?_
      match b with
      | ⟨0, _⟩ => rfl
      | ⟨1, _⟩ => rfl
    rw [hsi]
    rfl
  | ⟨1, _⟩ =>
    show (pairDims N M R wf).start (ix1 r) idx 1 + (pairDims N M R wf).batchCoord (ix1 r) 1
      + (pairDims N M R wf).offCoord (ix1 r) 1 = _
    rw [GatherDims.batchCoord_eq_zero _ _ _ List.not_mem_nil, GatherDims.offCoord_eq_zero _ _ _ (hcol 1)]
    simp only [Nat.add_zero]
    unfold GatherDims.start
    rw [dif_pos (show (1 : Fin 2) ∈ (pairDims N M R wf).startIndexMap from by simp)]
    have hsi : (pairDims N M R wf).siIdx (ix1 r) ⟨List.idxOf (1 : Fin 2) (pairDims N M R wf).startIndexMap,
        List.idxOf_lt_length_iff.2 (by simp)⟩ = ix2 r (1 : Fin 2) := by
      funext b; refine Fin.ext ?_
      match b with
      | ⟨0, _⟩ => rfl
      | ⟨1, _⟩ => rfl
    rw [hsi]
    rfl

/-! ### The index words -/

/-- A number below 2^31 as a 32-bit word reads back, signed, as itself. -/
theorem toInt_ofNat_small (n : Nat) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Row i, below 4096, is not negative: the wrapped index is i. -/
theorem wrap_lo (i : Nat) (hi : i < 4096) :
    (Scalar.select (IntOp.cmpi .slt (BitVec.ofNat 32 i) 0#32) (IntOp.addi (BitVec.ofNat 32 i) 8192#32)
      (BitVec.ofNat 32 i)).toInt.toNat = i := by
  have h0 : (BitVec.ofNat 32 i).slt 0#32 = false := by
    rw [BitVec.slt, toInt_ofNat_small i (by omega)]
    simp
  unfold IntOp.cmpi Scalar.select
  simp only [h0]
  rw [if_neg (by decide), toInt_ofNat_small i (by omega)]
  exact Int.toNat_natCast _

/-- 4096 + i, for i below 4096, is not negative: the wrapped index is i + 4096. -/
theorem wrap_hi (i : Nat) (hi : i < 4096) :
    (Scalar.select (IntOp.cmpi .slt (IntOp.addi 4096#32 (BitVec.ofNat 32 i)) 0#32)
      (IntOp.addi (IntOp.addi 4096#32 (BitVec.ofNat 32 i)) 8192#32)
      (IntOp.addi 4096#32 (BitVec.ofNat 32 i))).toInt.toNat = i + 4096 := by
  have e : IntOp.addi 4096#32 (BitVec.ofNat 32 i) = BitVec.ofNat 32 (i + 4096) := by
    unfold IntOp.addi
    apply BitVec.eq_of_toNat_eq
    simp only [BitVec.toNat_add, BitVec.toNat_ofNat]
    omega
  rw [e]
  have h0 : (BitVec.ofNat 32 (i + 4096)).slt 0#32 = false := by
    rw [BitVec.slt, toInt_ofNat_small (i + 4096) (by omega)]
    simp
    omega
  unfold IntOp.cmpi Scalar.select
  simp only [h0]
  rw [if_neg (by decide), toInt_ofNat_small (i + 4096) (by omega)]
  exact Int.toNat_natCast _

end Cert.ReferenceIdeal.RefValue

end
-- ==== Proof.RefValue.Norm.lean ====
/-
  The reference's normalized rows.

  Each argument matrix x has its rows divided by max(sqrt(Σ_k x[r,k]²), eps): entry (r, k) of the result is
  x[r,k] / max(sqrt(0 + Σ_k' x[r,k']·x[r,k']), eps), the sum's initial value being the zero word. Read index by
  index through the reduce, the two broadcasts and the division, this is the specification's `zn`.
-/
import proofs.«173146_j89481348645584_2_alg».proof.Proof.Gen.ReferenceIdeal.Read
import proofs.«173146_j89481348645584_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- An argument array as a matrix of extended reals, by its two coordinates. -/
abbrev mat (x : (⟨S4096x512, .f32⟩ : BufTy).Contents (Elt Ideal)) : Cert.Spec.Mat := fun r k => x (ix2 r k)

/-- The first argument's normalized rows, at (r, k). -/
theorem zn0 (x0 : (⟨S4096x512, .f32⟩ : BufTy).Contents (Elt Ideal)) (r : Fin 4096) (k : Fin 512) :
    val_main_v4 (F := Ideal) x0 (ix2 r k) = Cert.Spec.zn (mat x0) r k := by
  have e : ∀ k' : Fin 512, idx_main_call0_v1 (idx_main_call0_v2 (idx_main_v3 (ix2 r k))) k' = ix2 r k' := fun k' =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_call0_cst_apply, val_main_v1_apply, val_main_cst_apply]
  simp only [val_main_call0_v0_apply, e, Ideal.ofBits_def, Ideal.ofBits_zero_f32, zero_add, Ideal.hostDivf_def,
    Ideal.hostUnary_sqrt_def, Ideal.maximumf_def, Ideal.mulf_def]
  rfl

/-- The second argument's normalized rows, at (r, k). -/
theorem zn1 (x1 : (⟨S4096x512, .f32⟩ : BufTy).Contents (Elt Ideal)) (r : Fin 4096) (k : Fin 512) :
    val_main_v9 (F := Ideal) x1 (ix2 r k) = Cert.Spec.zn (mat x1) r k := by
  have e : ∀ k' : Fin 512, idx_main_call1_v1 (idx_main_call1_v2 (idx_main_v8 (ix2 r k))) k' = ix2 r k' := fun k' =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_call1_cst_apply, val_main_v6_apply, val_main_cst_0_apply]
  simp only [val_main_call1_v0_apply, e, Ideal.ofBits_def, Ideal.ofBits_zero_f32, zero_add, Ideal.hostDivf_def,
    Ideal.hostUnary_sqrt_def, Ideal.maximumf_def, Ideal.mulf_def]
  rfl

end Cert.ReferenceIdeal.RefValue

end
-- ==== Proof.RefValue.Sim.lean ====
/-
  The stacked rows and the similarity matrix.

  The two normalized matrices are joined along the rows: row R of the stack is row R of the first for R below 4096
  and row R - 4096 of the second otherwise — the specification's `reps`. The similarity matrix is the stack times its
  own transpose, so its entry (R, C) is Σ_k reps[R,k] · reps[C,k] — the specification's `sim`.
-/
import proofs.«173146_j89481348645584_2_alg».proof.Proof.RefValue.Norm

noncomputable section

open scoped BigOperators

namespace Cert.ReferenceIdeal.RefValue

open Cert.ReferenceIdeal Cert.ReferenceIdeal.Gen Cert.ReferenceIdeal.Read Idealize.ShloMosaic Idealize.ShloMosaic.ValueIdx

/-- The stacked normalized rows at (R, k). -/
theorem reps_apply (x0 x1 : (⟨S4096x512, .f32⟩ : BufTy).Contents (Elt Ideal)) (R : Fin 8192) (k : Fin 512) :
    val_main_v10 (F := Ideal) x0 x1 (ix2 R k) = Cert.Spec.reps (mat x0) (mat x1) R k := by
  unfold val_main_v10 Cert.Spec.reps Cert.Spec.cat
  by_cases h : R.val < 4096
  · rw [dif_pos h]
    refine (concatenate_pair_apply_left (0 : Fin S8192x512.rank) _ _ concatenates_S4096x512_S4096x512_S8192x512_d0
      (ix2 R k) rfl (ix2 (⟨R.val, h⟩ : Fin 4096) k) (fun b => ?_)).trans (zn0 x0 ⟨R.val, h⟩ k)
    match b with
    | ⟨0, _⟩ => rfl
    | ⟨1, _⟩ => rfl
  · rw [dif_neg h]
    have h' : R.val - 4096 < 4096 := by have := R.isLt; omega
    refine (concatenate_pair_apply_right (0 : Fin S8192x512.rank) _ _ concatenates_S4096x512_S4096x512_S8192x512_d0
      (ix2 R k) rfl rfl (ix2 (⟨R.val - 4096, h'⟩ : Fin 4096) k) (fun b hb => ?_) ?_).trans (zn1 x1 ⟨R.val - 4096, h'⟩ k)
    · have hlt : b.val < 2 := b.isLt
      have hb' : b.val ≠ 0 := fun e => hb (Fin.ext e)
      have e1 : b = ⟨1, by decide⟩ := Fin.ext (by show b.val = 1; omega)
      subst e1
      rfl
    · show R.val - 4096 + 4096 = R.val
      omega

/-- The similarity matrix at (R, C). -/
theorem sim_apply (x0 x1 : (⟨S4096x512, .f32⟩ : BufTy).Contents (Elt Ideal)) (R C : Fin 8192) :
    val_main_v12 (F := Ideal) x0 x1 (ix2 R C) = Cert.Spec.sim (mat x0) (mat x1) R C := by
  rw [val_main_v12_apply]
  unfold Cert.Spec.sim
  refine Finset.sum_congr rfl fun k _ => ?_
  have el : lidx_main_v12 (ix2 R C) k = ix2 R k :=
    funext fun a => Fin.ext (by match a with | ⟨0, _⟩ => rfl | ⟨1, _⟩ => rfl)
  have er : idx_main_v11 (ridx_main_v12 (ix2 R C) k) = ix2 C k :=
    funext fun a => Fin.ext (by match a with | ⟨0, _⟩ => rfl | ⟨1, _⟩ => rfl)
  rw [val_main_v11_apply, el, er, reps_apply, reps_apply]

end Cert.ReferenceIdeal.RefValue

end
-- ==== Proof.RefValue.Diag.lean ====
/-
  The two off-diagonals of the similarity matrix.

  The reference takes them by two gathers whose index pairs are computed from the row number i: one component is i,
  the other 4096 + i, each passed through "if negative, add 8192". For i below 4096 both are non-negative and inside
  the 8192 × 8192 matrix, so the first gather reads sim[i, i + 4096] and the second sim[i + 4096, i]. Joined, the two
  are the specification's `positives`.
-/
import proofs.«173146_j89481348645584_2_alg».proof.Proof.RefValue.Gather
import proofs.«173146_j89481348645584_2_alg».proof.Proof.RefValue.Sim

noncomputable section

open scoped BigOperators

namespace Cert.ReferenceIdeal.RefValue

open Cert.ReferenceIdeal Cert.ReferenceIdeal.Gen Cert.ReferenceIdeal.Read Idealize.ShloMosaic Idealize.ShloMosaic.ValueIdx

/-! ### The first gather's index pairs: (wrap i, wrap (4096 + i)) -/

theorem idxA_0 (i : Fin 4096) :
    val_main_call2_v16 (F := Ideal) (ix2 i (0 : Fin 2))
      = Scalar.select (IntOp.cmpi .slt (BitVec.ofNat 32 i.val) 0#32) (IntOp.addi (BitVec.ofNat 32 i.val) 8192#32)
          (BitVec.ofNat 32 i.val) := by
  unfold val_main_call2_v16
  refine (concatenate_pair_apply_left (1 : Fin S4096x2.rank) _ _ concatenates_S4096x1_S4096x1_S4096x2_d1
    (ix2 i (0 : Fin 2)) rfl (ix2 i (0 : Fin 1)) (fun b => ?_)).trans ?_
  · match b with
    | ⟨0, _⟩ => rfl
    | ⟨1, _⟩ => rfl
  · rw [val_main_call2_v14_apply, val_main_call2_v8_apply, val_main_call2_v5_apply, val_main_call2_v7_apply,
      val_main_call2_v0_apply, val_main_call2_v4_apply, val_main_call2_c_0_apply, val_main_call2_v6_apply,
      val_main_call2_c_1_apply]

theorem idxA_1 (i : Fin 4096) :
    val_main_call2_v16 (F := Ideal) (ix2 i (1 : Fin 2))
      = Scalar.select (IntOp.cmpi .slt (IntOp.addi 4096#32 (BitVec.ofNat 32 i.val)) 0#32)
          (IntOp.addi (IntOp.addi 4096#32 (BitVec.ofNat 32 i.val)) 8192#32)
          (IntOp.addi 4096#32 (BitVec.ofNat 32 i.val)) := by
  unfold val_main_call2_v16
  refine (concatenate_pair_apply_right (1 : Fin S4096x2.rank) _ _ concatenates_S4096x1_S4096x1_S4096x2_d1
    (ix2 i (1 : Fin 2)) rfl rfl (ix2 i (0 : Fin 1)) (fun b hb => ?_) ?_).trans ?_
  · have hlt : b.val < 2 := b.isLt
    have hb' : b.val ≠ 1 := fun e => hb (Fin.ext e)
    have e0 : b = ⟨0, by decide⟩ := Fin.ext (by show b.val = 0; omega)
    subst e0
    rfl
  · rfl
  · rw [val_main_call2_v15_apply, val_main_call2_v13_apply, val_main_call2_v10_apply, val_main_call2_v12_apply,
      val_main_call2_v3_apply, val_main_call2_v2_apply, val_main_call2_c_apply, val_main_call2_v1_apply,
      val_main_call2_v9_apply, val_main_call2_c_2_apply, val_main_call2_v11_apply, val_main_call2_c_3_apply]

/-! ### The second gather's index pairs: (wrap (4096 + i), wrap i) -/

theorem idxB_0 (i : Fin 4096) :
    val_main_call3_v16 (F := Ideal) (ix2 i (0 : Fin 2))
      = Scalar.select (IntOp.cmpi .slt (IntOp.addi 4096#32 (BitVec.ofNat 32 i.val)) 0#32)
          (IntOp.addi (IntOp.addi 4096#32 (BitVec.ofNat 32 i.val)) 8192#32)
          (IntOp.addi 4096#32 (BitVec.ofNat 32 i.val)) := by
  unfold val_main_call3_v16
  refine (concatenate_pair_apply_left (1 : Fin S4096x2.rank) _ _ concatenates_S4096x1_S4096x1_S4096x2_d1
    (ix2 i (0 : Fin 2)) rfl (ix2 i (0 : Fin 1)) (fun b => ?_)).trans ?_
  · match b with
    | ⟨0, _⟩ => rfl
    | ⟨1, _⟩ => rfl
  · rw [val_main_call3_v14_apply, val_main_call3_v8_apply, val_main_call3_v5_apply, val_main_call3_v7_apply,
      val_main_call3_v3_apply, val_main_call3_v2_apply, val_main_call3_c_apply, val_main_call3_v1_apply,
      val_main_call3_v4_apply, val_main_call3_c_0_apply, val_main_call3_v6_apply, val_main_call3_c_1_apply]

theorem idxB_1 (i : Fin 4096) :
    val_main_call3_v16 (F := Ideal) (ix2 i (1 : Fin 2))
      = Scalar.select (IntOp.cmpi .slt (BitVec.ofNat 32 i.val) 0#32) (IntOp.addi (BitVec.ofNat 32 i.val) 8192#32)
          (BitVec.ofNat 32 i.val) := by
  unfold val_main_call3_v16
  refine (concatenate_pair_apply_right (1 : Fin S4096x2.rank) _ _ concatenates_S4096x1_S4096x1_S4096x2_d1
    (ix2 i (1 : Fin 2)) rfl rfl (ix2 i (0 : Fin 1)) (fun b hb => ?_) ?_).trans ?_
  · have hlt : b.val < 2 := b.isLt
    have hb' : b.val ≠ 1 := fun e => hb (Fin.ext e)
    have e0 : b = ⟨0, by decide⟩ := Fin.ext (by show b.val = 0; omega)
    subst e0
    rfl
  · rfl
  · rw [val_main_call3_v15_apply, val_main_call3_v13_apply, val_main_call3_v10_apply, val_main_call3_v12_apply,
      val_main_call3_v0_apply, val_main_call3_v9_apply, val_main_call3_c_2_apply, val_main_call3_v11_apply,
      val_main_call3_c_3_apply]

/-! ### The gathers -/

/-- The first gather at i: the similarity of row i with row i + 4096. -/
theorem diag0 (x0 x1 : (⟨S4096x512, .f32⟩ : BufTy).Contents (Elt Ideal)) (i : Fin 4096) :
    val_main_v13 (F := Ideal) x0 x1 (ix1 i)
      = val_main_v12 (F := Ideal) x0 x1 (ix2 (Cert.Spec.lo i) (Cert.Spec.hi i)) := by
  unfold val_main_v13
  refine (gather_pair_apply (N := 8192) (M := 8192) (R := 4096) (by decide) (by decide)
    gather_S8192x8192_S4096x2_S4096_n_01_n_n_01_1_11_wf (val_main_v12 (F := Ideal) x0 x1)
    (val_main_call2_v16 (F := Ideal)) i).trans ?_
  refine congrArg (val_main_v12 (F := Ideal) x0 x1) (funext fun a => Fin.ext ?_)
  have hi := i.isLt
  match a with
  | ⟨0, _⟩ =>
    show min (val_main_call2_v16 (F := Ideal) (ix2 i (0 : Fin 2))).toInt.toNat (8192 - 1) = i.val
    rw [idxA_0, wrap_lo i.val hi]
    exact Nat.min_eq_left (by omega)
  | ⟨1, _⟩ =>
    show min (val_main_call2_v16 (F := Ideal) (ix2 i (1 : Fin 2))).toInt.toNat (8192 - 1) = i.val + 4096
    rw [idxA_1, wrap_hi i.val hi]
    exact Nat.min_eq_left (by omega)

/-- The second gather at i: the similarity of row i + 4096 with row i. -/
theorem diag1 (x0 x1 : (⟨S4096x512, .f32⟩ : BufTy).Contents (Elt Ideal)) (i : Fin 4096) :
    val_main_v14 (F := Ideal) x0 x1 (ix1 i)
      = val_main_v12 (F := Ideal) x0 x1 (ix2 (Cert.Spec.hi i) (Cert.Spec.lo i)) := by
  unfold val_main_v14
  refine (gather_pair_apply (N := 8192) (M := 8192) (R := 4096) (by decide) (by decide)
    gather_S8192x8192_S4096x2_S4096_n_01_n_n_01_1_11_wf (val_main_v12 (F := Ideal) x0 x1)
    (val_main_call3_v16 (F := Ideal)) i).trans ?_
  refine congrArg (val_main_v12 (F := Ideal) x0 x1) (funext fun a => Fin.ext ?_)
  have hi := i.isLt
  match a with
  | ⟨0, _⟩ =>
    show min (val_main_call3_v16 (F := Ideal) (ix2 i (0 : Fin 2))).toInt.toNat (8192 - 1) = i.val + 4096
    rw [idxB_0, wrap_hi i.val hi]
    exact Nat.min_eq_left (by omega)
  | ⟨1, _⟩ =>
    show min (val_main_call3_v16 (F := Ideal) (ix2 i (1 : Fin 2))).toInt.toNat (8192 - 1) = i.val
    rw [idxB_1, wrap_lo i.val hi]
    exact Nat.min_eq_left (by omega)

/-- The two gathers joined, at R. -/
theorem positives_apply (x0 x1 : (⟨S4096x512, .f32⟩ : BufTy).Contents (Elt Ideal)) (R : Fin 8192) :
    val_main_v15 (F := Ideal) x0 x1 (ix1 R) = Cert.Spec.positives (mat x0) (mat x1) R := by
  unfold val_main_v15 Cert.Spec.positives Cert.Spec.cat
  by_cases h : R.val < 4096
  · rw [dif_pos h]
    refine (concatenate_pair_apply_left (0 : Fin S8192.rank) _ _ concatenates_S4096_S4096_S8192_d0
      (ix1 R) rfl (ix1 (⟨R.val, h⟩ : Fin 4096)) (fun b => ?_)).trans
      ((diag0 x0 x1 ⟨R.val, h⟩).trans (sim_apply x0 x1 _ _))
    match b with
    | ⟨0, _⟩ => rfl
  · rw [dif_neg h]
    have h' : R.val - 4096 < 4096 := by have := R.isLt; omega
    refine (concatenate_pair_apply_right (0 : Fin S8192.rank) _ _ concatenates_S4096_S4096_S8192_d0
      (ix1 R) rfl rfl (ix1 (⟨R.val - 4096, h'⟩ : Fin 4096)) (fun b hb => ?_) ?_).trans
      ((diag1 x0 x1 ⟨R.val - 4096, h'⟩).trans (sim_apply x0 x1 _ _))
    · have hlt : b.val < 1 := b.isLt
      exact absurd (Fin.ext (by show b.val = 0; omega)) hb
    · show R.val - 4096 + 4096 = R.val
      omega

end Cert.ReferenceIdeal.RefValue

end
-- ==== Proof.RefValue.Mask.lean ====
/-
  The mask: one off the diagonal, zero on it.

  The reference builds the identity matrix by comparing the row number (plus the zero word) with the column number as
  32-bit words and converting the one-bit answer to a float, then subtracts it from the all-ones matrix. Row and
  column numbers are below 8192, so the words are equal exactly when the numbers are.
-/
import proofs.«173146_j89481348645584_2_alg».proof.Proof.Gen.ReferenceIdeal.Read
import proofs.«173146_j89481348645584_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- "a (plus the zero word) equals b", as a one-bit word read as a float: 1 when a = b, else 0. -/
theorem uitofp_eq_word (a b : Nat) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then 1 else 0 := by
  unfold IntOp.cmpi IntOp.addi
  rw [BitVec.add_zero]
  by_cases h : a = b
  · subst h
    rw [if_pos rfl]
    show (((BitVec.ofBool (BitVec.ofNat 32 a == BitVec.ofNat 32 a)).toNat : ℝ) : EReal) = 1
    simp
  · rw [if_neg h]
    have hne : (BitVec.ofNat 32 a == BitVec.ofNat 32 b) = false := by
      rw [beq_eq_false_iff_ne]
      intro e
      have := congrArg BitVec.toNat e
      simp only [BitVec.toNat_ofNat] at this
      rw [Nat.mod_eq_of_lt ha, Nat.mod_eq_of_lt hb] at this
      exact h this
    show (((BitVec.ofBool (BitVec.ofNat 32 a == BitVec.ofNat 32 b)).toNat : ℝ) : EReal) = 0
    rw [hne]
    simp

/-- The mask at (R, C). -/
theorem mask_apply (R C : Fin 8192) : val_main_v26 (F := Ideal) (ix2 R C) = Cert.Spec.mask R C := by
  rw [val_main_v26_apply, val_main_v25_apply, val_main_cst_2_apply, val_main_v24_apply, val_main_v23_apply,
    val_main_v22_apply, val_main_v19_apply, val_main_v21_apply, val_main_c_apply, val_main_v20_apply]
  unfold Cert.Spec.mask Cert.Spec.cOne
  rw [Ideal.subf_def, Ideal.ofBits_def]
  refine congrArg (Ideal.ofBits .f32 0x3F800000#32 - ·) ?_
  refine (uitofp_eq_word R.val C.val (by have := R.isLt; omega) (by have := C.isLt; omega)).trans ?_
  by_cases h : R = C
  · rw [if_pos h, if_pos (congrArg Fin.val h)]
  · rw [if_neg h, if_neg (fun e => h (Fin.ext e))]

end Cert.ReferenceIdeal.RefValue

end
-- ==== Proof.RefValue.lean ====
/-
  The reference's result is the loss in the reference's arrangement.

  nominator[R] = exp(positives[R] / (1/2)); denominator[R] = 0 + Σ_C mask[R,C] · exp(sim[R,C] / (1/2)), the sum's
  initial value the zero word; the result is (0 + Σ_R −log(nominator[R] / denominator[R])) / 8192. With the stages
  read index by index (the normalized rows, the similarity matrix, its two off-diagonals, the mask) this is the
  specification's `RLoss` of the two argument matrices.
-/
import proofs.«173146_j89481348645584_2_alg».proof.Proof.Gen.ReferenceIdeal.Read
import proofs.«173146_j89481348645584_2_alg».proof.Proof.RefValue.Diag
import proofs.«173146_j89481348645584_2_alg».proof.Proof.RefValue.Mask

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun j => j 0, invFun := fun a => ix1 a, left_inv := fun j => (eq_ix1 j).symm, right_inv := fun _ => rfl }
  rw [← Equiv.sum_comp e.symm f]
  rfl

/-- The nominator at R. -/
theorem nom_apply (x0 x1 : (⟨S4096x512, .f32⟩ : BufTy).Contents (Elt Ideal)) (R : Fin 8192) :
    val_main_v18 (F := Ideal) x0 x1 (ix1 R) = Cert.Spec.nom (mat x0) (mat x1) R := by
  rw [val_main_v18_apply, val_main_v17_apply, val_main_v16_apply, val_main_cst_1_apply, positives_apply]
  rfl

/-- The denominator at R. -/
theorem dnm_apply (x0 x1 : (⟨S4096x512, .f32⟩ : BufTy).Contents (Elt Ideal)) (R : Fin 8192) :
    val_main_v31 (F := Ideal) x0 x1 (ix1 R) = Cert.Spec.dnm (mat x0) (mat x1) R := by
  rw [val_main_v31_apply, val_main_cst_4_apply, Ideal.ofBits_def, Ideal.ofBits_zero_f32, zero_add]
  unfold Cert.Spec.dnm
  refine Finset.sum_congr rfl fun C _ => ?_
  have e : idx_main_v31 (ix1 R) C = ix2 R C :=
    funext fun a => Fin.ext (by match a with | ⟨0, _⟩ => rfl | ⟨1, _⟩ => rfl)
  rw [e, val_main_v30_apply, val_main_v29_apply, val_main_v28_apply, val_main_v27_apply, val_main_cst_3_apply,
    mask_apply, sim_apply]
  rfl

/-- The reference's last stage, at its one index, is the loss. -/
theorem loss_apply (x0 x1 : (⟨S4096x512, .f32⟩ : BufTy).Contents (Elt Ideal)) (i : S_.Idx) :
    val_main_v36 (F := Ideal) x0 x1 i = Cert.Spec.RLoss (mat x0) (mat x1) := by
  rw [val_main_v36_apply, val_main_v35_apply, val_main_cst_5_apply, val_main_cst_6_apply, Ideal.hostDivf_def,
    Ideal.ofBits_def, Ideal.ofBits_zero_f32, zero_add, sum_idx1]
  unfold Cert.Spec.RLoss
  refine congrArg (Ideal.div · _) (Finset.sum_congr rfl fun R _ => ?_)
  rw [val_main_v34_apply, val_main_v33_apply, val_main_v32_apply, nom_apply, dnm_apply]
  rfl

/-- THE REFERENCE'S VALUE: its result, at its one index, is the loss of the two argument matrices. -/
theorem ref_value (m : (ℓ : Loc nD τ sig) → Buf (Elt Ideal) ℓ) (c : Dev nD) :
    Cert.ReferenceIdeal.Value.res_out0 (F := Ideal) m c
      = fun _ => Cert.Spec.RLoss (fun r k => m ((c.tc : Thread nD τ).loc main_arg0) (ix2 r k))
                                  (fun r k => m ((c.tc : Thread nD τ).loc main_arg1) (ix2 r k)) := by
  funext i
  exact (congrFun (val_main_v36_eq m c) i).trans (loss_apply _ _ i)

end Cert.ReferenceIdeal.RefValue

end
-- ==== Proof.LossMath.Basic.lean ====
/-
  General facts used by the loss identity: the printed constants as real numbers, the coercion of a
  finite sum of reals, and the splitting of the 8192 stacked rows into their two halves.
-/
import proofs.«173146_j89481348645584_2_alg».proof.Proof.Spec

noncomputable section

open scoped BigOperators

namespace Cert.Spec

open Idealize.ShloMosaic

/-! ### The constants -/

/-- The clamp of the norms as a real number: 9223372 · 2⁻⁶³, about 1e-12. -/
def eps : ℝ := 9223372 * (2 : ℝ) ^ (-63 : ℤ)

theorem eps_pos : 0 < eps := by unfold eps; positivity

theorem cEps_eq : cEps = ((eps : ℝ) : EReal) := by
  simp [cEps, eps, Ideal.ofBits, Ideal.ieee, -EReal.coe_mul]
theorem cHalf_eq : cHalf = ((1 / 2 : ℝ) : EReal) := by
  simp [cHalf, Ideal.ofBits, Ideal.ieee, -EReal.coe_mul]
  norm_num
theorem cTwo_eq : cTwo = ((2 : ℝ) : EReal) := by
  simp [cTwo, Ideal.ofBits, Ideal.ieee, -EReal.coe_mul]
  norm_num
theorem cNegTwo_eq : cNegTwo = ((-2 : ℝ) : EReal) := by
  simp [cNegTwo, Ideal.ofBits, Ideal.ieee, -EReal.coe_mul]
  norm_num
theorem cN_eq : cN = ((8192 : ℝ) : EReal) := by
  simp [cN, Ideal.ofBits, Ideal.ieee, -EReal.coe_mul]
  norm_num
theorem cOne_eq : cOne = ((1 : ℝ) : EReal) := by
  simp [cOne, Ideal.ofBits, Ideal.ieee, -EReal.coe_mul]
  norm_num

/-! ### Coercions -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real, in the extended reals. -/
theorem div_coe_coe (a : ℝ) {b : ℝ} (hb : b ≠ 0) :
    Ideal.div (a : EReal) (b : EReal) = ((a * (1 / b) : ℝ) : EReal) := by
  rw [Ideal.div_coe hb, EReal.coe_mul]

/-- Dividing by one half doubles. -/
theorem div_cHalf (a : ℝ) : Ideal.div (a : EReal) cHalf = ((a * 2 : ℝ) : EReal) := by
  rw [cHalf_eq, div_coe_coe a (by norm_num)]
  norm_num

theorem mul_cTwo (a : ℝ) : (a : EReal) * cTwo = ((a * 2 : ℝ) : EReal) := by
  rw [cTwo_eq, EReal.coe_mul]

/-! ### The stacked rows -/

theorem cat_lo {α : Type} (f g : Fin 4096 → α) (i : Fin 4096) : cat f g (lo i) = f i := by
  unfold cat
  split
  · rfl
  · rename_i h
    exact absurd i.isLt h

theorem cat_hi {α : Type} (f g : Fin 4096 → α) (i : Fin 4096) : cat f g (hi i) = g i := by
  unfold cat
  split
  · rename_i h
    simp only [hi] at h
    omega
  · refine congrArg g (Fin.ext ?_)
    simp only [hi]
    omega

/-- Every stacked row is a row of the first half or a row of the second half. -/
theorem lo_or_hi (R : Fin 8192) : (∃ i, R = lo i) ∨ (∃ i, R = hi i) := by
  by_cases h : R.val < 4096
  · exact Or.inl ⟨⟨R.val, h⟩, Fin.ext rfl⟩
  · refine Or.inr ⟨⟨R.val - 4096, by have := R.isLt; omega⟩, Fin.ext ?_⟩
    simp only [hi]
    omega

theorem lo_ne_hi (i j : Fin 4096) : lo i ≠ hi j := by
  intro h
  have := congrArg Fin.val h
  simp only [lo, hi] at this
  have := i.isLt
  omega

/-- Stacking commutes with the coercion of the reals. -/
theorem cat_coe (f g : Fin 4096 → ℝ) (R : Fin 8192) :
    cat (fun i => (f i : EReal)) (fun i => (g i : EReal)) R = ((cat f g R : ℝ) : EReal) := by
  unfold cat
  split <;> rfl

/-- A sum over the stacked rows is the sum over the first half plus the sum over the second half. -/
theorem sum_lo_hi {M : Type} [AddCommMonoid M] (f : Fin 8192 → M) :
    ∑ R, f R = ∑ i, f (lo i) + ∑ i, f (hi i) := by
  have h := Fin.sum_univ_add (a := 4096) (b := 4096) f
  have e1 : ∀ i : Fin 4096, (Fin.castAdd 4096 i : Fin 8192) = lo i := fun i => Fin.ext rfl
  have e2 : ∀ i : Fin 4096, (Fin.natAdd 4096 i : Fin 8192) = hi i := fun i =>
    Fin.ext (by simp [hi, Nat.add_comm])
  rw [h]
  simp only [e1, e2]

end Cert.Spec

end
-- ==== Proof.LossMath.Real.lean ====
/-
  The loss identity over the real numbers.

  For real matrices X, Y every quantity of the two arrangements is a real number. This module writes those real
  numbers down and proves the identities between them: the masked row sum is the full row sum minus its diagonal
  term, the full row sum splits over the two halves of the keys, the positives of the two arrangements agree, and
  -log (nominator / denominator) = -(2 · positive) + log denominator.
-/
import proofs.«173146_j89481348645584_2_alg».proof.Proof.LossMath.Basic

noncomputable section

open scoped BigOperators

namespace Cert.Spec

/-- A 4096 × 512 matrix of reals. -/
abbrev RMat := Fin 4096 → Fin 512 → ℝ

/-- A row's Euclidean norm, clamped below at eps. -/
def nR (X : RMat) (r : Fin 4096) : ℝ := max (Real.sqrt (∑ k : Fin 512, X r k * X r k)) eps

theorem nR_pos (X : RMat) (r : Fin 4096) : 0 < nR X r := lt_max_of_lt_right eps_pos

/-- The rows divided by their clamped norms. -/
def zR (X : RMat) : RMat := fun r k => X r k * (1 / nR X r)

def posR (X Y : RMat) (r : Fin 4096) : ℝ :=
  (∑ k : Fin 512, X r k * Y r k) * (1 / (nR X r * nR Y r))

def dotR (A B : RMat) (r s : Fin 4096) : ℝ := ∑ k : Fin 512, A r k * B s k

def denR (Q K1 K2 : RMat) (r : Fin 4096) : ℝ :=
  (∑ s : Fin 4096, Real.exp (dotR Q K1 r s * 2)) + ∑ s : Fin 4096, Real.exp (dotR Q K2 r s * 2)

def dcatR (X Y : RMat) : Fin 8192 → ℝ :=
  cat (denR (zR X) (zR X) (zR Y)) (denR (zR Y) (zR X) (zR Y))

def scatR (X Y : RMat) : Fin 8192 → ℝ :=
  cat (fun r => dotR (zR X) (zR X) r r) (fun r => dotR (zR Y) (zR Y) r r)

def repsR (X Y : RMat) (R : Fin 8192) (k : Fin 512) : ℝ := cat (zR X) (zR Y) R k

def simR (X Y : RMat) (R C : Fin 8192) : ℝ := ∑ k : Fin 512, repsR X Y R k * repsR X Y C k

def positivesR (X Y : RMat) : Fin 8192 → ℝ :=
  cat (fun i => simR X Y (lo i) (hi i)) (fun i => simR X Y (hi i) (lo i))

def maskR (R C : Fin 8192) : ℝ := 1 - (if R = C then (1 : ℝ) else 0)

def dnmR (X Y : RMat) (R : Fin 8192) : ℝ :=
  ∑ C : Fin 8192, maskR R C * Real.exp (simR X Y R C * 2)

/-- The kernel's arrangement, in the reals. -/
def KLossR (X Y : RMat) : ℝ :=
  ((-2 * ∑ r : Fin 4096, posR X Y r) * 2
    + ∑ R : Fin 8192, Real.log (dcatR X Y R - Real.exp (scatR X Y R * 2))) * (1 / 8192)

/-- The reference's arrangement, in the reals. -/
def RLossR (X Y : RMat) : ℝ :=
  (∑ R : Fin 8192, -(Real.log (Real.exp (positivesR X Y R * 2) * (1 / dnmR X Y R)))) * (1 / 8192)

/-! ### The similarity matrix by halves -/

theorem repsR_lo (X Y : RMat) (i : Fin 4096) : repsR X Y (lo i) = zR X i := by
  funext k; unfold repsR; rw [cat_lo]
theorem repsR_hi (X Y : RMat) (i : Fin 4096) : repsR X Y (hi i) = zR Y i := by
  funext k; unfold repsR; rw [cat_hi]

theorem simR_lo_lo (X Y : RMat) (r s : Fin 4096) : simR X Y (lo r) (lo s) = dotR (zR X) (zR X) r s := by
  unfold simR dotR; rw [repsR_lo, repsR_lo]
theorem simR_lo_hi (X Y : RMat) (r s : Fin 4096) : simR X Y (lo r) (hi s) = dotR (zR X) (zR Y) r s := by
  unfold simR dotR; rw [repsR_lo, repsR_hi]
theorem simR_hi_lo (X Y : RMat) (r s : Fin 4096) : simR X Y (hi r) (lo s) = dotR (zR Y) (zR X) r s := by
  unfold simR dotR; rw [repsR_hi, repsR_lo]
theorem simR_hi_hi (X Y : RMat) (r s : Fin 4096) : simR X Y (hi r) (hi s) = dotR (zR Y) (zR Y) r s := by
  unfold simR dotR; rw [repsR_hi, repsR_hi]

/-- The full row sum of exp (2 · similarity) is the kernel's stacked row sum. -/
theorem sum_exp_sim (X Y : RMat) (R : Fin 8192) :
    ∑ C : Fin 8192, Real.exp (simR X Y R C * 2) = dcatR X Y R := by
  rw [sum_lo_hi]
  rcases lo_or_hi R with ⟨i, rfl⟩ | ⟨i, rfl⟩
  · unfold dcatR; rw [cat_lo]; unfold denR
    simp only [simR_lo_lo, simR_lo_hi]
  · unfold dcatR; rw [cat_hi]; unfold denR
    simp only [simR_hi_lo, simR_hi_hi]

/-- The diagonal similarity is the kernel's stacked self-similarity. -/
theorem simR_self (X Y : RMat) (R : Fin 8192) : simR X Y R R = scatR X Y R := by
  rcases lo_or_hi R with ⟨i, rfl⟩ | ⟨i, rfl⟩
  · unfold scatR; rw [cat_lo, simR_lo_lo]
  · unfold scatR; rw [cat_hi, simR_hi_hi]

/-- The masked row sum is the full row sum minus its diagonal term. -/
theorem dnmR_eq (X Y : RMat) (R : Fin 8192) :
    dnmR X Y R = dcatR X Y R - Real.exp (scatR X Y R * 2) := by
  unfold dnmR maskR
  simp only [sub_mul, one_mul, ite_mul, zero_mul]
  rw [Finset.sum_sub_distrib, sum_exp_sim, Finset.sum_ite_eq]
  simp only [Finset.mem_univ, if_true, simR_self]

/-- The masked row sum is positive: its terms are non-negative and one of them is an exponential. -/
theorem dnmR_pos (X Y : RMat) (R : Fin 8192) : 0 < dnmR X Y R := by
  unfold dnmR
  have hnn : ∀ C ∈ (Finset.univ : Finset (Fin 8192)), 0 ≤ maskR R C * Real.exp (simR X Y R C * 2) := by
    intro C _
    refine mul_nonneg ?_ (Real.exp_pos _).le
    unfold maskR; split_ifs <;> norm_num
  have hex : ∃ C : Fin 8192, R ≠ C := by
    rcases lo_or_hi R with ⟨i, rfl⟩ | ⟨i, rfl⟩
    · exact ⟨hi i, lo_ne_hi i i⟩
    · exact ⟨lo i, (lo_ne_hi i i).symm⟩
  obtain ⟨C, hC⟩ := hex
  refine Finset.sum_pos' hnn ⟨C, Finset.mem_univ C, ?_⟩
  refine mul_pos ?_ (Real.exp_pos _)
  unfold maskR; rw [if_neg hC]; norm_num

/-! ### The positives -/

theorem dot_zR (X Y : RMat) (r : Fin 4096) : dotR (zR X) (zR Y) r r = posR X Y r := by
  unfold dotR zR posR
  rw [Finset.sum_mul]
  refine Finset.sum_congr rfl (fun k _ => ?_)
  have hx := (nR_pos X r).ne'
  have hy := (nR_pos Y r).ne'
  field_simp

theorem posR_comm (X Y : RMat) (r : Fin 4096) : posR Y X r = posR X Y r := by
  unfold posR
  rw [mul_comm (nR Y r) (nR X r)]
  congr 1
  exact Finset.sum_congr rfl (fun k _ => mul_comm _ _)

theorem sum_positivesR (X Y : RMat) :
    ∑ R : Fin 8192, positivesR X Y R = 2 * ∑ r : Fin 4096, posR X Y r := by
  rw [sum_lo_hi]
  unfold positivesR
  simp only [cat_lo, cat_hi, simR_lo_hi, simR_hi_lo, dot_zR]
  have h : ∀ r : Fin 4096, posR Y X r = posR X Y r := posR_comm X Y
  simp only [h]
  ring

/-! ### The identity -/

theorem lossR_eq (X Y : RMat) : KLossR X Y = RLossR X Y := by
  unfold KLossR RLossR
  congr 1
  have hterm : ∀ R : Fin 8192,
      -(Real.log (Real.exp (positivesR X Y R * 2) * (1 / dnmR X Y R)))
        = -(positivesR X Y R * 2) + Real.log (dcatR X Y R - Real.exp (scatR X Y R * 2)) := by
    intro R
    have hd := dnmR_pos X Y R
    rw [← dnmR_eq, Real.log_mul (Real.exp_pos _).ne' (one_div_ne_zero hd.ne'), Real.log_exp,
      one_div, Real.log_inv]
    ring
  simp only [hterm]
  rw [Finset.sum_add_distrib, Finset.sum_neg_distrib, ← Finset.sum_mul, sum_positivesR]
  ring

end Cert.Spec

end
-- ==== Proof.LossMath.Coe.lean ====
/-
  On matrices with real entries every quantity of the two arrangements is the coercion of the corresponding real
  number: the corner conventions of the extended reals never fire, because the clamped norms are positive reals,
  the exponentials are real, and the arguments of the logarithms are positive.
-/
import proofs.«173146_j89481348645584_2_alg».proof.Proof.LossMath.Real

noncomputable section

open scoped BigOperators

namespace Cert.Spec

open Idealize.ShloMosaic

/-- A real matrix as a matrix of extended reals. -/
def cx (X : RMat) : Mat := fun r k => ((X r k : ℝ) : EReal)

theorem sum_mul_coe (a b : Fin 512 → ℝ) :
    ∑ k : Fin 512, (a k : EReal) * (b k : EReal) = ((∑ k : Fin 512, a k * b k : ℝ) : EReal) := by
  rw [coe_sum]
  simp only [EReal.coe_mul]

theorem dot_cx (A B : RMat) (r s : Fin 4096) :
    dot (cx A) (cx B) r s = ((dotR A B r s : ℝ) : EReal) := by
  unfold dot dotR cx
  exact sum_mul_coe _ _

theorem nrm_cx (X : RMat) (r : Fin 4096) : nrm (cx X) r = ((nR X r : ℝ) : EReal) := by
  unfold nrm nR
  have h : ∑ k : Fin 512, cx X r k * cx X r k = ((∑ k : Fin 512, X r k * X r k : ℝ) : EReal) :=
    sum_mul_coe _ _
  rw [h, Ideal.sqrt_coe,
    if_neg (not_lt.mpr (Finset.sum_nonneg (fun k _ => mul_self_nonneg (X r k)))), cEps_eq]
  exact (EReal.coe_strictMono.monotone.map_max).symm

theorem zn_cx (X : RMat) : zn (cx X) = cx (zR X) := by
  funext r k
  unfold zn
  rw [nrm_cx]
  exact div_coe_coe _ (nR_pos X r).ne'

theorem pos_cx (X Y : RMat) (r : Fin 4096) : pos (cx X) (cx Y) r = ((posR X Y r : ℝ) : EReal) := by
  unfold pos posR
  have h : ∑ k : Fin 512, cx X r k * cx Y r k = ((∑ k : Fin 512, X r k * Y r k : ℝ) : EReal) :=
    sum_mul_coe _ _
  rw [h, nrm_cx, nrm_cx, ← EReal.coe_mul]
  exact div_coe_coe _ (mul_pos (nR_pos X r) (nR_pos Y r)).ne'

theorem sel_cx (X : RMat) (r : Fin 4096) :
    sel (cx X) r = ((dotR (zR X) (zR X) r r : ℝ) : EReal) := by
  unfold sel
  rw [zn_cx]
  exact dot_cx _ _ r r

theorem den_cx (Q K1 K2 : RMat) (r : Fin 4096) :
    den (cx Q) (cx K1) (cx K2) r = ((denR Q K1 K2 r : ℝ) : EReal) := by
  unfold den denR
  simp only [dot_cx, mul_cTwo, Ideal.exp_coe]
  rw [EReal.coe_add, coe_sum, coe_sum]

theorem dcat_cx (X Y : RMat) (R : Fin 8192) :
    dcat (cx X) (cx Y) R = ((dcatR X Y R : ℝ) : EReal) := by
  unfold dcat dcatR
  rw [zn_cx, zn_cx]
  have h1 : den (cx (zR X)) (cx (zR X)) (cx (zR Y))
      = fun r => ((denR (zR X) (zR X) (zR Y) r : ℝ) : EReal) := funext (den_cx _ _ _)
  have h2 : den (cx (zR Y)) (cx (zR X)) (cx (zR Y))
      = fun r => ((denR (zR Y) (zR X) (zR Y) r : ℝ) : EReal) := funext (den_cx _ _ _)
  rw [h1, h2]
  exact cat_coe _ _ R

theorem scat_cx (X Y : RMat) (R : Fin 8192) :
    scat (cx X) (cx Y) R = ((scatR X Y R : ℝ) : EReal) := by
  unfold scat scatR
  have h1 : sel (cx X) = fun r => ((dotR (zR X) (zR X) r r : ℝ) : EReal) := funext (sel_cx X)
  have h2 : sel (cx Y) = fun r => ((dotR (zR Y) (zR Y) r r : ℝ) : EReal) := funext (sel_cx Y)
  rw [h1, h2]
  exact cat_coe _ _ R

theorem reps_cx (X Y : RMat) (R : Fin 8192) (k : Fin 512) :
    reps (cx X) (cx Y) R k = ((repsR X Y R k : ℝ) : EReal) := by
  unfold reps repsR
  rw [zn_cx, zn_cx]
  unfold cat cx
  split <;> rfl

theorem sim_cx (X Y : RMat) (R C : Fin 8192) :
    sim (cx X) (cx Y) R C = ((simR X Y R C : ℝ) : EReal) := by
  unfold sim simR
  simp only [reps_cx]
  exact sum_mul_coe _ _

theorem positives_cx (X Y : RMat) (R : Fin 8192) :
    positives (cx X) (cx Y) R = ((positivesR X Y R : ℝ) : EReal) := by
  unfold positives positivesR
  simp only [sim_cx]
  exact cat_coe _ _ R

theorem nom_cx (X Y : RMat) (R : Fin 8192) :
    nom (cx X) (cx Y) R = ((Real.exp (positivesR X Y R * 2) : ℝ) : EReal) := by
  unfold nom
  rw [positives_cx, div_cHalf, Ideal.exp_coe]

theorem mask_eq (R C : Fin 8192) : mask R C = ((maskR R C : ℝ) : EReal) := by
  unfold mask maskR
  rw [cOne_eq]
  by_cases h : R = C
  · rw [if_pos h, if_pos h, ← EReal.coe_one, ← EReal.coe_sub]
  · rw [if_neg h, if_neg h, ← EReal.coe_zero, ← EReal.coe_sub]

theorem dnm_cx (X Y : RMat) (R : Fin 8192) :
    dnm (cx X) (cx Y) R = ((dnmR X Y R : ℝ) : EReal) := by
  unfold dnm dnmR
  simp only [mask_eq, sim_cx, div_cHalf, Ideal.exp_coe, ← EReal.coe_mul]
  rw [coe_sum]

/-- The reference's arrangement is the coercion of its real counterpart. -/
theorem RLoss_cx (X Y : RMat) : RLoss (cx X) (cx Y) = ((RLossR X Y : ℝ) : EReal) := by
  unfold RLoss RLossR
  have hterm : ∀ R : Fin 8192,
      -(Ideal.log (Ideal.div (nom (cx X) (cx Y) R) (dnm (cx X) (cx Y) R)))
        = ((-(Real.log (Real.exp (positivesR X Y R * 2) * (1 / dnmR X Y R))) : ℝ) : EReal) := by
    intro R
    have hd := dnmR_pos X Y R
    rw [nom_cx, dnm_cx, div_coe_coe _ hd.ne', Ideal.log_coe,
      if_neg (not_le.mpr (mul_pos (Real.exp_pos _) (one_div_pos.mpr hd))), EReal.coe_neg]
  simp only [hterm]
  rw [← coe_sum, cN_eq, div_coe_coe _ (by norm_num)]

/-- The kernel's arrangement is the coercion of its real counterpart. -/
theorem KLoss_cx (X Y : RMat) : KLoss (cx X) (cx Y) = ((KLossR X Y : ℝ) : EReal) := by
  unfold KLoss KLossR
  have hterm : ∀ R : Fin 8192,
      Ideal.log (dcat (cx X) (cx Y) R - Ideal.exp (Ideal.div (scat (cx X) (cx Y) R) cHalf))
        = ((Real.log (dcatR X Y R - Real.exp (scatR X Y R * 2)) : ℝ) : EReal) := by
    intro R
    have hd : 0 < dcatR X Y R - Real.exp (scatR X Y R * 2) := by
      rw [← dnmR_eq]; exact dnmR_pos X Y R
    rw [dcat_cx, scat_cx, div_cHalf, Ideal.exp_coe, ← EReal.coe_sub, Ideal.log_coe,
      if_neg (not_le.mpr hd)]
  simp only [hterm, pos_cx]
  rw [← coe_sum, ← coe_sum, cNegTwo_eq, ← EReal.coe_mul, div_cHalf, ← EReal.coe_add, cN_eq,
    div_coe_coe _ (by norm_num)]

end Cert.Spec

end
-- ==== Proof.LossMath.lean ====
/-
  The two arrangements of the contrastive loss agree on matrices with real entries.

  With real entries every intermediate quantity is a real number (LossMath/Coe.lean), and over the reals the two
  arrangements are the same number (LossMath/Real.lean): the masked row sum is the full row sum minus its
  diagonal term, and -log (nominator / denominator) = -(2 · positive) + log denominator.
-/
import proofs.«173146_j89481348645584_2_alg».proof.Proof.LossMath.Coe

noncomputable section

open scoped BigOperators

namespace Cert.Spec

open Idealize.ShloMosaic

theorem loss_eq (x y : Mat) (hx : ∀ r k, ∃ a : ℝ, x r k = (a : EReal))
    (hy : ∀ r k, ∃ a : ℝ, y r k = (a : EReal)) : KLoss x y = RLoss x y := by
  choose X hX using hx
  choose Y hY using hy
  obtain rfl : x = cx X := funext fun r => funext fun k => hX r k
  obtain rfl : y = cx Y := funext fun r => funext fun k => hY r k
  rw [KLoss_cx, RLoss_cx, lossR_eq]

end Cert.Spec

end
-- ==== Proof.Finite.lean ====
/-
  The precondition read back: when the test "every entry of both inputs has absolute value below +∞" holds, every
  entry of both inputs is a real number (neither infinity). This is the only place the precondition is opened; the
  identity between the two arrangements of the loss needs real entries (it divides, takes logarithms, and
  distributes products over sums).
-/
import proofs.«173146_j89481348645584_2_alg».proof.Pre_finite_inputs
import proofs.«173146_j89481348645584_2_alg».proof.Proof.Gen.Pre_finite_inputs
import Idealize.ShloMosaic.Lib.ReduceAll
import Idealize.ShloMosaic.Lib.ValueIdx

noncomputable section

namespace Cert.Finite

open Idealize.ShloMosaic

/-- The binary32 word of +∞ is the top extended real. -/
theorem inf_word : Ideal.ofBits .f32 0x7F800000#32 = ⊤ := by simp [Ideal.ofBits, Ideal.ieee]

/-- An extended real with |a| < +∞ is a real number. -/
theorem real_of_abs_lt_top {a : EReal} (h : max a (-a) < ⊤) : ∃ r : ℝ, a = (r : EReal) := by
  induction a using EReal.rec with
  | bot => exact absurd h (by simp)
  | coe r => exact ⟨r, rfl⟩
  | top => exact absurd h (by simp)

/-- One conjunct of the test: all (|x| < +∞) true means every entry of x is real. -/
theorem real_of_all (x : FVec Ideal Cert.Pre_finite_inputs.S4096x512 .f32) (j : Cert.Pre_finite_inputs.S_.Idx)
    (e : Host.reduce IntOp.andi
        (cmpf .olt (Host.absf x) (broadcastInDim Cert.Pre_finite_inputs.S4096x512 ![] Cert.Pre_finite_inputs.Facts.bcast_S_S4096x512
          (constant (F := Ideal) Cert.Pre_finite_inputs.S_ .f32 0x7F800000#32)))
        (constantI Cert.Pre_finite_inputs.S_ 1 1#1) Cert.Pre_finite_inputs.Facts.reducesTo_S4096x512_S_d0_1 Cert.Pre_finite_inputs.Facts.h_S_ j = 1#1) :
    ∀ i, ∃ r : ℝ, x i = (r : EReal) := by
  intro i
  haveI : Subsingleton Cert.Pre_finite_inputs.S_.Idx := ⟨fun a b => funext fun d => d.elim0⟩
  have h := Host.reduce_andi_all _ _ _ _ j e i
  have h' : Ideal.cmp .olt (max (x i) (-(x i))) (Ideal.ofBits .f32 0x7F800000#32) = 1#1 := h
  rw [inf_word] at h'
  refine real_of_abs_lt_top ?_
  by_contra hn
  simp [Ideal.cmp, hn] at h'

/-- The whole test: both inputs have real entries. -/
theorem real_of_pre (x y : FVec Ideal Cert.Pre_finite_inputs.S4096x512 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨h1, h2⟩ := IntOp.andi_eq_one.mp h0
  exact ⟨real_of_all x _ h1, real_of_all y _ h2⟩

end Cert.Finite

end
-- ==== Proof.lean ====
/-
  The certificate's proof.

  The kernel computes a contrastive loss of two 4096 × 512 inputs in three kernel regions and a few host operations;
  the reference computes it from the 8192 × 8192 similarity matrix. On the extended reals, with real inputs, both are
  one number:
  * frames: each program runs to the end, nothing faulting, its two argument arrays unchanged — for the kernel (at
    the word level and at the extended reals) from the run of @main as three kernel regions and a host stretch with
    every buffer's contents tracked from boundary to boundary; for the reference from its run read back;
  * the two removed bf16 round trips are the identity at the extended reals;
  * values: the kernel's result buffer holds Spec.KLoss of the two argument matrices (the blocks each region writes
    make whole arrays that are functions of the arguments; the host operations finish the formula), the reference's
    holds Spec.RLoss, and the two arrangements agree for real inputs (Spec.loss_eq) — which is where the
    precondition is used.
-/
import proofs.«173146_j89481348645584_2_alg».proof.Defs
import proofs.«173146_j89481348645584_2_alg».proof.Proof.Gen.Kernel
import proofs.«173146_j89481348645584_2_alg».proof.Proof.Gen.KernelIdeal
import proofs.«173146_j89481348645584_2_alg».proof.Proof.Gen.ReferenceIdeal
import proofs.«173146_j89481348645584_2_alg».proof.Proof.Gen.Pre_finite_inputs
import proofs.«173146_j89481348645584_2_alg».proof.Proof.K.Run
import proofs.«173146_j89481348645584_2_alg».proof.Proof.KI.Run
import proofs.«173146_j89481348645584_2_alg».proof.Proof.KI.KernelValue
import proofs.«173146_j89481348645584_2_alg».proof.Proof.Gen.ReferenceIdeal.Run
import proofs.«173146_j89481348645584_2_alg».proof.Proof.RefValue
import proofs.«173146_j89481348645584_2_alg».proof.Proof.LossMath
import proofs.«173146_j89481348645584_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the kernel read at the extended reals. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two round trips through bf16 that were removed are the identity on the extended reals. -/
theorem preserves : Cert.preserves_Kernel_KernelIdeal :=
  ⟨IdealRules.truncf_extf.statement _ .f32 .bf16, IdealRules.truncf_extf.statement _ .f32 .bf16⟩

/-- From memories agreeing on the two arguments, both programs end with the same number: the kernel's result is the
    loss in its arrangement, the reference's the loss in its own, and for real inputs the two agree. -/
theorem algebraic : Cert.algebraic_KernelIdeal_ReferenceIdeal := by
  intro m ρ m' ρ' hpre hagree
  refine ⟨fun c _ => Cert.Spec.KLoss (Cert.KernelIdeal.HandValue.argX m c) (Cert.KernelIdeal.HandValue.argY m c), ?_, ?_⟩
  · refine (θ_run Cert.KernelIdeal.defs _ _).mono (fun r h c => ⟨?_, ?_, ?_⟩) (Cert.KernelIdeal.Hand.run_all m ρ)
    · exact (h c _ (Cert.KernelIdeal.Hand.mem_uc Cert.KernelIdeal.main_v15 (by decide))).trans
        (Cert.KernelIdeal.HandValue.kernel_value m ρ c)
    · exact (h c _ (Cert.KernelIdeal.Hand.mem_uc Cert.KernelIdeal.main_arg0 (by decide))).trans
        (Cert.KernelIdeal.Hand.W4_main_arg0 m ρ c)
    · exact (h c _ (Cert.KernelIdeal.Hand.mem_uc Cert.KernelIdeal.main_arg1 (by decide))).trans
        (Cert.KernelIdeal.Hand.W4_main_arg1 m ρ c)
  · refine (θ_run Cert.ReferenceIdeal.defs _ _).mono (fun r h c => ⟨(h c).1.trans ?_, (h c).2⟩)
      (Cert.ReferenceIdeal.Value.run (F := Ideal) m' ρ')
    obtain ⟨hx, hy⟩ := Cert.Finite.real_of_pre _ _ (hpre c)
    refine (Cert.ReferenceIdeal.RefValue.ref_value m' c).trans ?_
    rw [(hagree c).1, (hagree c).2]
    funext _
    exact (Cert.Spec.loss_eq _ _ (fun r k => hx _) (fun r k => hy _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
